-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x160x72x72 : Shape := ⟨5, ![4, 16, 160, 72, 72]⟩
abbrev S4x160x1 : Shape := ⟨3, ![4, 160, 1]⟩
abbrev S_ : Shape := ⟨0, ![]⟩

class Facts : Prop where
  bcast_S_S4x16x160x72x72 : S_.BroadcastsInDim S4x16x160x72x72 (![] : Fin 0 → Fin S4x16x160x72x72.rank)
  reducesTo_S4x16x160x72x72_S_d0_1_2_3_4 : S4x16x160x72x72.ReducesTo [0, 1, 2, 3, 4] S_
  h_S_ : 0 < S_.numel
  bcast_S_S4x160x1 : S_.BroadcastsInDim S4x160x1 (![] : Fin 0 → Fin S4x160x1.rank)
  reducesTo_S4x160x1_S_d0_1_2 : S4x160x1.ReducesTo [0, 1, 2] S_

variable [Facts]

def fn {F : FTy → Type} [FloatOps F] (main_arg0 : FVec F S4x16x160x72x72 .f32) (main_arg1 : FVec F S4x160x1 .f32) : IVec S_ 1 :=
  let main_v0 : FVec F S4x16x160x72x72 .f32 := Host.absf main_arg0
  let main_cst : FVec F S_ .f32 := constant S_ .f32 0x7F800000#32
  let main_v1 : FVec F S4x16x160x72x72 .f32 := broadcastInDim S4x16x160x72x72 ![] bcast_S_S4x16x160x72x72 main_cst
  let main_v2 : IVec S4x16x160x72x72 1 := cmpf .olt main_v0 main_v1
  let main_c : IVec S_ 1 := constantI S_ 1 1#1
  let main_v3 : IVec S_ 1 := (fun x v => Host.reduce IntOp.andi x v reducesTo_S4x16x160x72x72_S_d0_1_2_3_4 h_S_) main_v2 main_c
  let main_v4 : FVec F S4x160x1 .f32 := Host.absf main_arg1
  let main_cst_0 : FVec F S_ .f32 := constant S_ .f32 0x7F800000#32
  let main_v5 : FVec F S4x160x1 .f32 := broadcastInDim S4x160x1 ![] bcast_S_S4x160x1 main_cst_0
  let main_v6 : IVec S4x160x1 1 := cmpf .olt main_v4 main_v5
  let main_c_1 : IVec S_ 1 := constantI S_ 1 1#1
  let main_v7 : IVec S_ 1 := (fun x v => Host.reduce IntOp.andi x v reducesTo_S4x160x1_S_d0_1_2 h_S_) main_v6 main_c_1
  let main_v8 : IVec S_ 1 := andi main_v3 main_v7
  main_v8
-- ==== Kernel.lean ====
abbrev S4x16x160x72x72 : Shape := ⟨5, ![4, 16, 160, 72, 72]⟩
abbrev S4x160x1 : Shape := ⟨3, ![4, 160, 1]⟩
abbrev S4x160x82944 : Shape := ⟨3, ![4, 160, 82944]⟩
abbrev S_ : Shape := ⟨0, ![]⟩
abbrev S4x1x82944 : Shape := ⟨3, ![4, 1, 82944]⟩
abbrev S4x1 : Shape := ⟨2, ![4, 1]⟩
abbrev S4x1x1 : Shape := ⟨3, ![4, 1, 1]⟩
abbrev S1x160x13824 : Shape := ⟨3, ![1, 160, 13824]⟩
abbrev S1x160x1 : Shape := ⟨3, ![1, 160, 1]⟩
abbrev S1x1x1 : Shape := ⟨3, ![1, 1, 1]⟩
abbrev S1x1x13824 : Shape := ⟨3, ![1, 1, 13824]⟩
abbrev S160x13824 : Shape := ⟨2, ![160, 13824]⟩
abbrev S160x1 : Shape := ⟨2, ![160, 1]⟩
abbrev S1x1 : Shape := ⟨2, ![1, 1]⟩
abbrev S1x13824 : Shape := ⟨2, ![1, 13824]⟩
abbrev S13824 : Shape := ⟨1, ![13824]⟩
abbrev S160 : Shape := ⟨1, ![160]⟩
abbrev S1x160x9216 : Shape := ⟨3, ![1, 160, 9216]⟩
abbrev S1x1x9216 : Shape := ⟨3, ![1, 1, 9216]⟩
abbrev S160x9216 : Shape := ⟨2, ![160, 9216]⟩
abbrev S1x9216 : Shape := ⟨2, ![1, 9216]⟩
abbrev S9216 : Shape := ⟨1, ![9216]⟩

abbrev nBuf : Space → Nat
  | .hbm => 79
  | .vmem => 58
  | .smem => 0
  | _ => 0

abbrev bufTy : (tb : Table) → Fin (tcTables nBuf tb) → BufTy
  | .hbm, ⟨0, _⟩ => ⟨S4x16x160x72x72, .f32⟩
  | .hbm, ⟨1, _⟩ => ⟨S4x160x1, .f32⟩
  | .hbm, ⟨2, _⟩ => ⟨S4x160x82944, .f32⟩
  | .hbm, ⟨3, _⟩ => ⟨S_, .f32⟩
  | .hbm, ⟨4, _⟩ => ⟨S4x1x82944, .f32⟩
  | .hbm, ⟨5, _⟩ => ⟨S4x160x1, .f32⟩
  | .hbm, ⟨6, _⟩ => ⟨S_, .f32⟩
  | .hbm, ⟨7, _⟩ => ⟨S4x1, .f32⟩
  | .hbm, ⟨8, _⟩ => ⟨S4x1x1, .f32⟩
  | .hbm, ⟨9, _⟩ => ⟨S4x1x82944, .f32⟩
  | .hbm, ⟨10, _⟩ => ⟨S4x160x1, .f32⟩
  | .hbm, ⟨11, _⟩ => ⟨S4x1x82944, .f32⟩
  | .hbm, ⟨12, _⟩ => ⟨S_, .f32⟩
  | .hbm, ⟨13, _⟩ => ⟨S4x1, .f32⟩
  | .hbm, ⟨14, _⟩ => ⟨S4x1x1, .f32⟩
  | .hbm, ⟨15, _⟩ => ⟨S4x160x1, .f32⟩
  | .hbm, ⟨16, _⟩ => ⟨S4x160x1, .f32⟩
  | .hbm, ⟨17, _⟩ => ⟨S4x160x1, .f32⟩
  | .hbm, ⟨18, _⟩ => ⟨S_, .f32⟩
  | .hbm, ⟨19, _⟩ => ⟨S4x160x1, .f32⟩
  | .hbm, ⟨20, _⟩ => ⟨S4x160x1, .f32⟩
  | .hbm, ⟨21, _⟩ => ⟨S4x160x1, .f32⟩
  | .hbm, ⟨22, _⟩ => ⟨S4x160x1, .f32⟩
  | .hbm, ⟨23, _⟩ => ⟨S_, .f32⟩
  | .hbm, ⟨24, _⟩ => ⟨S4x1, .f32⟩
  | .hbm, ⟨25, _⟩ => ⟨S4x1x1, .f32⟩
  | .hbm, ⟨26, _⟩ => ⟨S4x1x82944, .f32⟩
  | .hbm, ⟨27, _⟩ => ⟨S4x160x1, .f32⟩
  | .hbm, ⟨28, _⟩ => ⟨S4x1x82944, .f32⟩
  | .hbm, ⟨29, _⟩ => ⟨S_, .f32⟩
  | .hbm, ⟨30, _⟩ => ⟨S4x1, .f32⟩
  | .hbm, ⟨31, _⟩ => ⟨S4x1x1, .f32⟩
  | .hbm, ⟨32, _⟩ => ⟨S4x160x1, .f32⟩
  | .hbm, ⟨33, _⟩ => ⟨S4x160x1, .f32⟩
  | .hbm, ⟨34, _⟩ => ⟨S4x160x1, .f32⟩
  | .hbm, ⟨35, _⟩ => ⟨S_, .f32⟩
  | .hbm, ⟨36, _⟩ => ⟨S4x160x1, .f32⟩
  | .hbm, ⟨37, _⟩ => ⟨S4x160x1, .f32⟩
  | .hbm, ⟨38, _⟩ => ⟨S4x160x1, .f32⟩
  | .hbm, ⟨39, _⟩ => ⟨S4x160x1, .f32⟩
  | .hbm, ⟨40, _⟩ => ⟨S_, .f32⟩
  | .hbm, ⟨41, _⟩ => ⟨S4x1, .f32⟩
  | .hbm, ⟨42, _⟩ => ⟨S4x1x1, .f32⟩
  | .hbm, ⟨43, _⟩ => ⟨S4x1x82944, .f32⟩
  | .hbm, ⟨44, _⟩ => ⟨S4x160x1, .f32⟩
  | .hbm, ⟨45, _⟩ => ⟨S4x1x82944, .f32⟩
  | .hbm, ⟨46, _⟩ => ⟨S_, .f32⟩
  | .hbm, ⟨47, _⟩ => ⟨S4x1, .f32⟩
  | .hbm, ⟨48, _⟩ => ⟨S4x1x1, .f32⟩
  | .hbm, ⟨49, _⟩ => ⟨S4x160x1, .f32⟩
  | .hbm, ⟨50, _⟩ => ⟨S4x160x1, .f32⟩
  | .hbm, ⟨51, _⟩ => ⟨S4x160x1, .f32⟩
  | .hbm, ⟨52, _⟩ => ⟨S_, .f32⟩
  | .hbm, ⟨53, _⟩ => ⟨S4x160x1, .f32⟩
  | .hbm, ⟨54, _⟩ => ⟨S4x160x1, .f32⟩
  | .hbm, ⟨55, _⟩ => ⟨S4x160x1, .f32⟩
  | .hbm, ⟨56, _⟩ => ⟨S4x160x1, .f32⟩
  | .hbm, ⟨57, _⟩ => ⟨S_, .f32⟩
  | .hbm, ⟨58, _⟩ => ⟨S4x1, .f32⟩
  | .hbm, ⟨59, _⟩ => ⟨S4x1x1, .f32⟩
  | .hbm, ⟨60, _⟩ => ⟨S4x1x82944, .f32⟩
  | .hbm, ⟨61, _⟩ => ⟨S4x160x1, .f32⟩
  | .hbm, ⟨62, _⟩ => ⟨S4x1x82944, .f32⟩
  | .hbm, ⟨63, _⟩ => ⟨S_, .f32⟩
  | .hbm, ⟨64, _⟩ => ⟨S4x1, .f32⟩
  | .hbm, ⟨65, _⟩ => ⟨S4x1x1, .f32⟩
  | .hbm, ⟨66, _⟩ => ⟨S4x160x1, .f32⟩
  | .hbm, ⟨67, _⟩ => ⟨S4x160x1, .f32⟩
  | .hbm, ⟨68, _⟩ => ⟨S4x160x1, .f32⟩
  | .hbm, ⟨69, _⟩ => ⟨S_, .f32⟩
  | .hbm, ⟨70, _⟩ => ⟨S4x160x1, .f32⟩
  | .hbm, ⟨71, _⟩ => ⟨S4x160x1, .f32⟩
  | .hbm, ⟨72, _⟩ => ⟨S4x160x1, .f32⟩
  | .hbm, ⟨73, _⟩ => ⟨S4x160x1, .f32⟩
  | .hbm, ⟨74, _⟩ => ⟨S_, .f32⟩
  | .hbm, ⟨75, _⟩ => ⟨S4x1, .f32⟩
  | .hbm, ⟨76, _⟩ => ⟨S4x1x1, .f32⟩
  | .hbm, ⟨77, _⟩ => ⟨S4x160x82944, .f32⟩
  | .hbm, ⟨78, _⟩ => ⟨S4x16x160x72x72, .f32⟩
  | .local _ .vmem, ⟨0, _⟩ => ⟨S1x160x13824, .f32⟩
  | .local _ .vmem, ⟨1, _⟩ => ⟨S1x160x13824, .f32⟩
  | .local _ .vmem, ⟨2, _⟩ => ⟨S1x160x1, .f32⟩
  | .local _ .vmem, ⟨3, _⟩ => ⟨S1x160x1, .f32⟩
  | .local _ .vmem, ⟨4, _⟩ => ⟨S1x1x1, .f32⟩
  | .local _ .vmem, ⟨5, _⟩ => ⟨S1x1x1, .f32⟩
  | .local _ .vmem, ⟨6, _⟩ => ⟨S1x1x13824, .f32⟩
  | .local _ .vmem, ⟨7, _⟩ => ⟨S1x1x13824, .f32⟩
  | .local _ .vmem, ⟨8, _⟩ => ⟨S1x1x13824, .f32⟩
  | .local _ .vmem, ⟨9, _⟩ => ⟨S1x1x13824, .f32⟩
  | .local _ .vmem, ⟨10, _⟩ => ⟨S1x160x1, .f32⟩
  | .local _ .vmem, ⟨11, _⟩ => ⟨S1x160x1, .f32⟩
  | .local _ .vmem, ⟨12, _⟩ => ⟨S1x160x13824, .f32⟩
  | .local _ .vmem, ⟨13, _⟩ => ⟨S1x160x13824, .f32⟩
  | .local _ .vmem, ⟨14, _⟩ => ⟨S1x160x1, .f32⟩
  | .local _ .vmem, ⟨15, _⟩ => ⟨S1x160x1, .f32⟩
  | .local _ .vmem, ⟨16, _⟩ => ⟨S1x1x1, .f32⟩
  | .local _ .vmem, ⟨17, _⟩ => ⟨S1x1x1, .f32⟩
  | .local _ .vmem, ⟨18, _⟩ => ⟨S1x1x13824, .f32⟩
  | .local _ .vmem, ⟨19, _⟩ => ⟨S1x1x13824, .f32⟩
  | .local _ .vmem, ⟨20, _⟩ => ⟨S1x1x13824, .f32⟩
  | .local _ .vmem, ⟨21, _⟩ => ⟨S1x1x13824, .f32⟩
  | .local _ .vmem, ⟨22, _⟩ => ⟨S1x160x1, .f32⟩
  | .local _ .vmem, ⟨23, _⟩ => ⟨S1x160x1, .f32⟩
  | .local _ .vmem, ⟨24, _⟩ => ⟨S1x160x13824, .f32⟩
  | .local _ .vmem, ⟨25, _⟩ => ⟨S1x160x13824, .f32⟩
  | .local _ .vmem, ⟨26, _⟩ => ⟨S1x160x1, .f32⟩
  | .local _ .vmem, ⟨27, _⟩ => ⟨S1x160x1, .f32⟩
  | .local _ .vmem, ⟨28, _⟩ => ⟨S1x1x1, .f32⟩
  | .local _ .vmem, ⟨29, _⟩ => ⟨S1x1x1, .f32⟩
  | .local _ .vmem, ⟨30, _⟩ => ⟨S1x1x13824, .f32⟩
  | .local _ .vmem, ⟨31, _⟩ => ⟨S1x1x13824, .f32⟩
  | .local _ .vmem, ⟨32, _⟩ => ⟨S1x1x13824, .f32⟩
  | .local _ .vmem, ⟨33, _⟩ => ⟨S1x1x13824, .f32⟩
  | .local _ .vmem, ⟨34, _⟩ => ⟨S1x160x1, .f32⟩
  | .local _ .vmem, ⟨35, _⟩ => ⟨S1x160x1, .f32⟩
  | .local _ .vmem, ⟨36, _⟩ => ⟨S1x160x13824, .f32⟩
  | .local _ .vmem, ⟨37, _⟩ => ⟨S1x160x13824, .f32⟩
  | .local _ .vmem, ⟨38, _⟩ => ⟨S1x160x1, .f32⟩
  | .local _ .vmem, ⟨39, _⟩ => ⟨S1x160x1, .f32⟩
  | .local _ .vmem, ⟨40, _⟩ => ⟨S1x1x1, .f32⟩
  | .local _ .vmem, ⟨41, _⟩ => ⟨S1x1x1, .f32⟩
  | .local _ .vmem, ⟨42, _⟩ => ⟨S1x1x13824, .f32⟩
  | .local _ .vmem, ⟨43, _⟩ => ⟨S1x1x13824, .f32⟩
  | .local _ .vmem, ⟨44, _⟩ => ⟨S1x1x13824, .f32⟩
  | .local _ .vmem, ⟨45, _⟩ => ⟨S1x1x13824, .f32⟩
  | .local _ .vmem, ⟨46, _⟩ => ⟨S1x160x1, .f32⟩
  | .local _ .vmem, ⟨47, _⟩ => ⟨S1x160x1, .f32⟩
  | .local _ .vmem, ⟨48, _⟩ => ⟨S1x160x9216, .f32⟩
  | .local _ .vmem, ⟨49, _⟩ => ⟨S1x160x9216, .f32⟩
  | .local _ .vmem, ⟨50, _⟩ => ⟨S1x160x1, .f32⟩
  | .local _ .vmem, ⟨51, _⟩ => ⟨S1x160x1, .f32⟩
  | .local _ .vmem, ⟨52, _⟩ => ⟨S1x1x1, .f32⟩
  | .local _ .vmem, ⟨53, _⟩ => ⟨S1x1x1, .f32⟩
  | .local _ .vmem, ⟨54, _⟩ => ⟨S1x1x9216, .f32⟩
  | .local _ .vmem, ⟨55, _⟩ => ⟨S1x1x9216, .f32⟩
  | .local _ .vmem, ⟨56, _⟩ => ⟨S1x160x9216, .f32⟩
  | .local _ .vmem, ⟨57, _⟩ => ⟨S1x160x9216, .f32⟩
  | _, _ => ⟨S4x16x160x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x13824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x13824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x13824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x160x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x160x13824 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x160x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x13824 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x13824 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x160x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 6], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x160x13824 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x160x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x13824 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x13824 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x160x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 6], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x160x13824 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x160x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x13824 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x13824 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x160x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![4, 9], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x160x9216 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x160x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x9216 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x160x9216 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

class Facts₀ : Prop where
  shapeCasts_S4x16x160x72x72_S4x160x82944 : S4x16x160x72x72.ShapeCasts S4x160x82944
  bcast_S_S4x1x82944 : S_.BroadcastsInDim S4x1x82944 (![] : Fin 0 → Fin S4x1x82944.rank)
  reducesTo_S4x160x1_S4x1_d1 : S4x160x1.ReducesTo [1] S4x1
  h_S_ : 0 < S_.numel
  bcast_S4x1_S4x1x1_0_2 : S4x1.BroadcastsInDim S4x1x1 (![0, 2] : Fin 2 → Fin S4x1x1.rank)
  inb_S1x160x1_S1x160x1_0_0_0 : ∀ a, (![0, 0, 0] : Fin 3 → Nat) a + S1x160x1.size a ≤ S1x160x1.size a
  h_S1x160x1 : 0 < S1x160x1.numel
  inb_S1x160x13824_S1x160x13824_0_0_0 : ∀ a, (![0, 0, 0] : Fin 3 → Nat) a + S1x160x13824.size a ≤ S1x160x13824.size a
  h_S1x160x13824 : 0 < S1x160x13824.numel
  shapeCasts_S1x160x13824_S160x13824 : S1x160x13824.ShapeCasts S160x13824
  shapeCasts_S1x160x1_S160x1 : S1x160x1.ShapeCasts S160x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  inb_S1x1x13824_S1x1x13824_0_0_0 : ∀ a, (![0, 0, 0] : Fin 3 → Nat) a + S1x1x13824.size a ≤ S1x1x13824.size a
  h_S1x1x13824 : 0 < S1x1x13824.numel
  shapeCasts_S1x1x13824_S1x13824 : S1x1x13824.ShapeCasts S1x13824
  broadcasts_S160x1_S160x13824 : S160x1.Broadcasts S160x13824
  reduces_S160x13824_S13824 : S160x13824.Reduces [0] S13824
  shapeCasts_S13824_S1x13824 : S13824.ShapeCasts S1x13824
  broadcasts_S1x1_S1x13824 : S1x1.Broadcasts S1x13824
  shapeCasts_S1x13824_S1x1x13824 : S1x13824.ShapeCasts S1x1x13824
  broadcasts_S1x13824_S160x13824 : S1x13824.Broadcasts S160x13824
  reduces_S160x13824_S160 : S160x13824.Reduces [1] S160
  shapeCasts_S160_S160x1 : S160.ShapeCasts S160x1
  shapeCasts_S160x1_S1x160x1 : S160x1.ShapeCasts S1x160x1
  reducesTo_S4x1x82944_S4x1_d2 : S4x1x82944.ReducesTo [2] S4x1
  bcast_S4x1_S4x1x1_0_1 : S4x1.BroadcastsInDim S4x1x1 (![0, 1] : Fin 2 → Fin S4x1x1.rank)
  bcast_S4x1x1_S4x160x1_0_1_2 : S4x1x1.BroadcastsInDim S4x160x1 (![0, 1, 2] : Fin 3 → Fin S4x160x1.rank)
  bcast_S_S4x160x1 : S_.BroadcastsInDim S4x160x1 (![] : Fin 0 → Fin S4x160x1.rank)
  inb_S1x160x9216_S1x160x9216_0_0_0 : ∀ a, (![0, 0, 0] : Fin 3 → Nat) a + S1x160x9216.size a ≤ S1x160x9216.size a
  h_S1x160x9216 : 0 < S1x160x9216.numel
  shapeCasts_S1x160x9216_S160x9216 : S1x160x9216.ShapeCasts S160x9216
  inb_S1x1x9216_S1x1x9216_0_0_0 : ∀ a, (![0, 0, 0] : Fin 3 → Nat) a + S1x1x9216.size a ≤ S1x1x9216.size a
  h_S1x1x9216 : 0 < S1x1x9216.numel
  shapeCasts_S1x1x9216_S1x9216 : S1x1x9216.ShapeCasts S1x9216
  broadcasts_S160x1_S160x9216 : S160x1.Broadcasts S160x9216
  reduces_S160x9216_S9216 : S160x9216.Reduces [0] S9216
  shapeCasts_S9216_S1x9216 : S9216.ShapeCasts S1x9216
  broadcasts_S1x1_S1x9216 : S1x1.Broadcasts S1x9216
  broadcasts_S1x9216_S160x9216 : S1x9216.Broadcasts S160x9216
  shapeCasts_S160x9216_S1x160x9216 : S160x9216.ShapeCasts S1x160x9216
  shapeCasts_S4x160x82944_S4x16x160x72x72 : S4x160x82944.ShapeCasts S4x16x160x72x72
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x13824.size a ≤ S4x160x82944.size a
  hwx0_0 : ∀ i : grid0.Coords, EltTy.bits .f32 = 32 ∨ (Rect.block (s := S4x160x82944) S1x160x13824.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160x1.size a ≤ S4x160x1.size a
  hwx0_1 : ∀ i : grid0.Coords, EltTy.bits .f32 = 32 ∨ (Rect.block (s := S4x160x1) S1x160x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x13824.size a ≤ S4x1x82944.size a
  hwx0_3 : ∀ i : grid0.Coords, EltTy.bits .f32 = 32 ∨ (Rect.block (s := S4x1x82944) S1x1x13824.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x13824.size a ≤ S4x1x82944.size a
  hwx0_4 : ∀ i : grid0.Coords, EltTy.bits .f32 = 32 ∨ (Rect.block (s := S4x1x82944) S1x1x13824.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x160x1.size a ≤ S4x160x1.size a
  hwx0_5 : ∀ i : grid0.Coords, EltTy.bits .f32 = 32 ∨ (Rect.block (s := S4x160x1) S1x160x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x160x13824.size a ≤ S4x160x82944.size a
  hwx1_0 : ∀ i : grid1.Coords, EltTy.bits .f32 = 32 ∨ (Rect.block (s := S4x160x82944) S1x160x13824.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x160x1.size a ≤ S4x160x1.size a
  hwx1_1 : ∀ i : grid1.Coords, EltTy.bits .f32 = 32 ∨ (Rect.block (s := S4x160x1) S1x160x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x13824.size a ≤ S4x1x82944.size a
  hwx1_3 : ∀ i : grid1.Coords, EltTy.bits .f32 = 32 ∨ (Rect.block (s := S4x1x82944) S1x1x13824.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x13824.size a ≤ S4x1x82944.size a
  hwx1_4 : ∀ i : grid1.Coords, EltTy.bits .f32 = 32 ∨ (Rect.block (s := S4x1x82944) S1x1x13824.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x160x1.size a ≤ S4x160x1.size a
  hwx1_5 : ∀ i : grid1.Coords, EltTy.bits .f32 = 32 ∨ (Rect.block (s := S4x160x1) S1x160x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x160x13824.size a ≤ S4x160x82944.size a
  hwx2_0 : ∀ i : grid2.Coords, EltTy.bits .f32 = 32 ∨ (Rect.block (s := S4x160x82944) S1x160x13824.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x160x1.size a ≤ S4x160x1.size a
  hwx2_1 : ∀ i : grid2.Coords, EltTy.bits .f32 = 32 ∨ (Rect.block (s := S4x160x1) S1x160x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S4x1x1.size a
  hwx2_2 : ∀ i : grid2.Coords, EltTy.bits .f32 = 32 ∨ (Rect.block (s := S4x1x1) S1x1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x13824.size a ≤ S4x1x82944.size a
  hwx2_3 : ∀ i : grid2.Coords, EltTy.bits .f32 = 32 ∨ (Rect.block (s := S4x1x82944) S1x1x13824.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x13824.size a ≤ S4x1x82944.size a
  hwx2_4 : ∀ i : grid2.Coords, EltTy.bits .f32 = 32 ∨ (Rect.block (s := S4x1x82944) S1x1x13824.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x160x1.size a ≤ S4x160x1.size a
  hwx2_5 : ∀ i : grid2.Coords, EltTy.bits .f32 = 32 ∨ (Rect.block (s := S4x160x1) S1x160x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x160x13824.size a ≤ S4x160x82944.size a
  hwx3_0 : ∀ i : grid3.Coords, EltTy.bits .f32 = 32 ∨ (Rect.block (s := S4x160x82944) S1x160x13824.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x160x1.size a ≤ S4x160x1.size a
  hwx3_1 : ∀ i : grid3.Coords, EltTy.bits .f32 = 32 ∨ (Rect.block (s := S4x160x1) S1x160x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1.size a ≤ S4x1x1.size a
  hwx3_2 : ∀ i : grid3.Coords, EltTy.bits .f32 = 32 ∨ (Rect.block (s := S4x1x1) S1x1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x13824.size a ≤ S4x1x82944.size a
  hwx3_3 : ∀ i : grid3.Coords, EltTy.bits .f32 = 32 ∨ (Rect.block (s := S4x1x82944) S1x1x13824.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x13824.size a ≤ S4x1x82944.size a
  hwx3_4 : ∀ i : grid3.Coords, EltTy.bits .f32 = 32 ∨ (Rect.block (s := S4x1x82944) S1x1x13824.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x160x1.size a ≤ S4x160x1.size a
  hwx3_5 : ∀ i : grid3.Coords, EltTy.bits .f32 = 32 ∨ (Rect.block (s := S4x160x1) S1x160x1.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x160x9216.size a ≤ S4x160x82944.size a
  hwx4_0 : ∀ i : grid4.Coords, EltTy.bits .f32 = 32 ∨ (Rect.block (s := S4x160x82944) S1x160x9216.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x160x1.size a ≤ S4x160x1.size a
  hwx4_1 : ∀ i : grid4.Coords, EltTy.bits .f32 = 32 ∨ (Rect.block (s := S4x160x1) S1x160x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x1.size a ≤ S4x1x1.size a
  hwx4_2 : ∀ i : grid4.Coords, EltTy.bits .f32 = 32 ∨ (Rect.block (s := S4x1x1) S1x1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x9216.size a ≤ S4x1x82944.size a
  hwx4_3 : ∀ i : grid4.Coords, EltTy.bits .f32 = 32 ∨ (Rect.block (s := S4x1x82944) S1x1x9216.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x160x9216.size a ≤ S4x160x82944.size a
  hwx4_4 : ∀ i : grid4.Coords, EltTy.bits .f32 = 32 ∨ (Rect.block (s := S4x160x82944) S1x160x9216.size (cc4_transform_4 i) (hinb4_4 i)).WholeWords (EltTy.packing .f32)

variable [Facts₀]

abbrev win0_0 : Pipeline.Window sig grid0 :=
  Pipeline.Window.ofSpec (Memref.whole main_v0) S1x160x13824.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x160x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x13824.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1x13824.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x160x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x160x13824.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x160x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x1x13824.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S1x1x13824.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S1x160x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1x160x13824.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x160x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x1x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_0) S1x1x13824.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_0) S1x1x13824.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31_1) S1x160x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0) S1x160x13824.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x160x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x1x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31_0) S1x1x13824.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44_0) S1x1x13824.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v44_1) S1x160x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v0) S1x160x9216.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x160x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x1x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44_0) S1x1x9216.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v57) S1x160x9216.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S4x16x160x72x72 : Shape := ⟨5, ![4, 16, 160, 72, 72]⟩
abbrev S4x160x1 : Shape := ⟨3, ![4, 160, 1]⟩
abbrev S4x160x82944 : Shape := ⟨3, ![4, 160, 82944]⟩
abbrev S4x82944x1 : Shape := ⟨3, ![4, 82944, 1]⟩
abbrev S_ : Shape := ⟨0, ![]⟩
abbrev S4x82944 : Shape := ⟨2, ![4, 82944]⟩
abbrev S4x1x1 : Shape := ⟨3, ![4, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S4x16x160x72x72, .f32⟩
  | .hbm, ⟨1, _⟩ => ⟨S4x160x1, .f32⟩
  | .hbm, ⟨2, _⟩ => ⟨S4x160x82944, .f32⟩
  | .hbm, ⟨3, _⟩ => ⟨S4x82944x1, .f32⟩
  | .hbm, ⟨4, _⟩ => ⟨S_, .f32⟩
  | .hbm, ⟨5, _⟩ => ⟨S4x82944x1, .f32⟩
  | .hbm, ⟨6, _⟩ => ⟨S4x82944x1, .f32⟩
  | .hbm, ⟨7, _⟩ => ⟨S_, .f32⟩
  | .hbm, ⟨8, _⟩ => ⟨S4x82944, .f32⟩
  | .hbm, ⟨9, _⟩ => ⟨S_, .f32⟩
  | .hbm, ⟨10, _⟩ => ⟨S4x82944, .f32⟩
  | .hbm, ⟨11, _⟩ => ⟨S4x82944, .f32⟩
  | .hbm, ⟨12, _⟩ => ⟨S4x82944x1, .f32⟩
  | .hbm, ⟨13, _⟩ => ⟨S4x82944x1, .f32⟩
  | .hbm, ⟨14, _⟩ => ⟨S4x82944x1, .f32⟩
  | .hbm, ⟨15, _⟩ => ⟨S_, .f32⟩
  | .hbm, ⟨16, _⟩ => ⟨S4x82944, .f32⟩
  | .hbm, ⟨17, _⟩ => ⟨S4x82944x1, .f32⟩
  | .hbm, ⟨18, _⟩ => ⟨S4x82944x1, .f32⟩
  | .hbm, ⟨19, _⟩ => ⟨S4x82944x1, .f32⟩
  | .hbm, ⟨20, _⟩ => ⟨S4x1x1, .f32⟩
  | .hbm, ⟨21, _⟩ => ⟨S4x82944x1, .f32⟩
  | .hbm, ⟨22, _⟩ => ⟨S4x82944x1, .f32⟩
  | .hbm, ⟨23, _⟩ => ⟨S_, .f32⟩
  | .hbm, ⟨24, _⟩ => ⟨S4x82944x1, .f32⟩
  | .hbm, ⟨25, _⟩ => ⟨S4x82944x1, .f32⟩
  | .hbm, ⟨26, _⟩ => ⟨S4x82944x1, .f32⟩
  | .hbm, ⟨27, _⟩ => ⟨S4x160x1, .f32⟩
  | .hbm, ⟨28, _⟩ => ⟨S4x1x1, .f32⟩
  | .hbm, ⟨29, _⟩ => ⟨S4x160x1, .f32⟩
  | .hbm, ⟨30, _⟩ => ⟨S4x160x1, .f32⟩
  | .hbm, ⟨31, _⟩ => ⟨S_, .f32⟩
  | .hbm, ⟨32, _⟩ => ⟨S4x160x1, .f32⟩
  | .hbm, ⟨33, _⟩ => ⟨S4x160x1, .f32⟩
  | .hbm, ⟨34, _⟩ => ⟨S4x160x1, .f32⟩
  | .hbm, ⟨35, _⟩ => ⟨S4x82944x1, .f32⟩
  | .hbm, ⟨36, _⟩ => ⟨S4x1x1, .f32⟩
  | .hbm, ⟨37, _⟩ => ⟨S4x82944x1, .f32⟩
  | .hbm, ⟨38, _⟩ => ⟨S4x82944x1, .f32⟩
  | .hbm, ⟨39, _⟩ => ⟨S_, .f32⟩
  | .hbm, ⟨40, _⟩ => ⟨S4x82944x1, .f32⟩
  | .hbm, ⟨41, _⟩ => ⟨S4x82944x1, .f32⟩
  | .hbm, ⟨42, _⟩ => ⟨S4x82944x1, .f32⟩
  | .hbm, ⟨43, _⟩ => ⟨S4x160x1, .f32⟩
  | .hbm, ⟨44, _⟩ => ⟨S4x1x1, .f32⟩
  | .hbm, ⟨45, _⟩ => ⟨S4x160x1, .f32⟩
  | .hbm, ⟨46, _⟩ => ⟨S4x160x1, .f32⟩
  | .hbm, ⟨47, _⟩ => ⟨S_, .f32⟩
  | .hbm, ⟨48, _⟩ => ⟨S4x160x1, .f32⟩
  | .hbm, ⟨49, _⟩ => ⟨S4x160x1, .f32⟩
  | .hbm, ⟨50, _⟩ => ⟨S4x160x1, .f32⟩
  | .hbm, ⟨51, _⟩ => ⟨S4x82944x1, .f32⟩
  | .hbm, ⟨52, _⟩ => ⟨S4x1x1, .f32⟩
  | .hbm, ⟨53, _⟩ => ⟨S4x82944x1, .f32⟩
  | .hbm, ⟨54, _⟩ => ⟨S4x82944x1, .f32⟩
  | .hbm, ⟨55, _⟩ => ⟨S_, .f32⟩
  | .hbm, ⟨56, _⟩ => ⟨S4x82944x1, .f32⟩
  | .hbm, ⟨57, _⟩ => ⟨S4x82944x1, .f32⟩
  | .hbm, ⟨58, _⟩ => ⟨S4x82944x1, .f32⟩
  | .hbm, ⟨59, _⟩ => ⟨S4x160x1, .f32⟩
  | .hbm, ⟨60, _⟩ => ⟨S4x1x1, .f32⟩
  | .hbm, ⟨61, _⟩ => ⟨S4x160x1, .f32⟩
  | .hbm, ⟨62, _⟩ => ⟨S4x160x1, .f32⟩
  | .hbm, ⟨63, _⟩ => ⟨S_, .f32⟩
  | .hbm, ⟨64, _⟩ => ⟨S4x160x1, .f32⟩
  | .hbm, ⟨65, _⟩ => ⟨S4x160x1, .f32⟩
  | .hbm, ⟨66, _⟩ => ⟨S4x160x1, .f32⟩
  | .hbm, ⟨67, _⟩ => ⟨S4x82944x1, .f32⟩
  | .hbm, ⟨68, _⟩ => ⟨S4x1x1, .f32⟩
  | .hbm, ⟨69, _⟩ => ⟨S4x82944x1, .f32⟩
  | .hbm, ⟨70, _⟩ => ⟨S4x82944x1, .f32⟩
  | .hbm, ⟨71, _⟩ => ⟨S_, .f32⟩
  | .hbm, ⟨72, _⟩ => ⟨S4x82944x1, .f32⟩
  | .hbm, ⟨73, _⟩ => ⟨S4x82944x1, .f32⟩
  | .hbm, ⟨74, _⟩ => ⟨S4x82944x1, .f32⟩
  | .hbm, ⟨75, _⟩ => ⟨S4x160x1, .f32⟩
  | .hbm, ⟨76, _⟩ => ⟨S4x1x1, .f32⟩
  | .hbm, ⟨77, _⟩ => ⟨S4x160x1, .f32⟩
  | .hbm, ⟨78, _⟩ => ⟨S4x160x1, .f32⟩
  | .hbm, ⟨79, _⟩ => ⟨S_, .f32⟩
  | .hbm, ⟨80, _⟩ => ⟨S4x160x1, .f32⟩
  | .hbm, ⟨81, _⟩ => ⟨S4x160x1, .f32⟩
  | .hbm, ⟨82, _⟩ => ⟨S4x160x1, .f32⟩
  | .hbm, ⟨83, _⟩ => ⟨S4x82944x1, .f32⟩
  | .hbm, ⟨84, _⟩ => ⟨S4x1x1, .f32⟩
  | .hbm, ⟨85, _⟩ => ⟨S4x82944x1, .f32⟩
  | .hbm, ⟨86, _⟩ => ⟨S4x82944x1, .f32⟩
  | .hbm, ⟨87, _⟩ => ⟨S_, .f32⟩
  | .hbm, ⟨88, _⟩ => ⟨S4x82944x1, .f32⟩
  | .hbm, ⟨89, _⟩ => ⟨S4x82944x1, .f32⟩
  | .hbm, ⟨90, _⟩ => ⟨S4x82944x1, .f32⟩
  | .hbm, ⟨91, _⟩ => ⟨S4x160x82944, .f32⟩
  | .hbm, ⟨92, _⟩ => ⟨S4x16x160x72x72, .f32⟩
  | _, _ => ⟨S4x16x160x72x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_8 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_9 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_10 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_11 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]

class Facts₀ : Prop where
  shapeCasts_S4x16x160x72x72_S4x160x82944 : S4x16x160x72x72.ShapeCasts S4x160x82944
  bcast_S_S4x82944x1 : S_.BroadcastsInDim S4x82944x1 (![] : Fin 0 → Fin S4x82944x1.rank)
  reducesTo_S4x82944x1_S4x82944_d2 : S4x82944x1.ReducesTo [2] S4x82944
  h_S_ : 0 < S_.numel
  bcast_S_S4x82944 : S_.BroadcastsInDim S4x82944 (![] : Fin 0 → Fin S4x82944.rank)
  bcast_S4x82944_S4x82944x1_0_1 : S4x82944.BroadcastsInDim S4x82944x1 (![0, 1] : Fin 2 → Fin S4x82944x1.rank)
  bcast_S_S4x160x1 : S_.BroadcastsInDim S4x160x1 (![] : Fin 0 → Fin S4x160x1.rank)
  shapeCasts_S4x160x82944_S4x16x160x72x72 : S4x160x82944.ShapeCasts S4x16x160x72x72
  dot_S4x160x82944_S4x160x1_S4x82944x1_1_1_2_2_0_0_wf : DotDims.WF S4x160x82944 S4x160x1 S4x82944x1 [1] [1] [2] [2] [0] [0]
  dot_S4x160x1_S4x160x1_S4x1x1_1_1_2_2_0_0_wf : DotDims.WF S4x160x1 S4x160x1 S4x1x1 [1] [1] [2] [2] [0] [0]
  dot_S4x82944x1_S4x1x1_S4x82944x1_2_1_1_2_0_0_wf : DotDims.WF S4x82944x1 S4x1x1 S4x82944x1 [2] [1] [1] [2] [0] [0]
  dot_S4x160x82944_S4x82944x1_S4x160x1_2_1_1_2_0_0_wf : DotDims.WF S4x160x82944 S4x82944x1 S4x160x1 [2] [1] [1] [2] [0] [0]
  dot_S4x82944x1_S4x82944x1_S4x1x1_1_1_2_2_0_0_wf : DotDims.WF S4x82944x1 S4x82944x1 S4x1x1 [1] [1] [2] [2] [0] [0]
  dot_S4x160x1_S4x1x1_S4x160x1_2_1_1_2_0_0_wf : DotDims.WF S4x160x1 S4x1x1 S4x160x1 [2] [1] [1] [2] [0] [0]
  dot_S4x160x1_S4x82944x1_S4x160x82944_2_2_1_1_0_0_wf : DotDims.WF S4x160x1 S4x82944x1 S4x160x82944 [2] [2] [1] [1] [0] [0]

variable [Facts₀]

def dot_S4x160x82944_S4x160x1_S4x82944x1_1_1_2_2_0_0 : DotDims S4x160x82944 S4x160x1 S4x82944x1 where
  lhsContracting := [1]
  rhsContracting := [1]
  lhsNonContracting := [2]
  rhsNonContracting := [2]
  lhsBatch := [0]
  rhsBatch := [0]
  wf := dot_S4x160x82944_S4x160x1_S4x82944x1_1_1_2_2_0_0_wf
def dot_S4x160x1_S4x160x1_S4x1x1_1_1_2_2_0_0 : DotDims S4x160x1 S4x160x1 S4x1x1 where
  lhsContracting := [1]
  rhsContracting := [1]
  lhsNonContracting := [2]
  rhsNonContracting := [2]
  lhsBatch := [0]
  rhsBatch := [0]
  wf := dot_S4x160x1_S4x160x1_S4x1x1_1_1_2_2_0_0_wf
def dot_S4x82944x1_S4x1x1_S4x82944x1_2_1_1_2_0_0 : DotDims S4x82944x1 S4x1x1 S4x82944x1 where
  lhsContracting := [2]
  rhsContracting := [1]
  lhsNonContracting := [1]
  rhsNonContracting := [2]
  lhsBatch := [0]
  rhsBatch := [0]
  wf := dot_S4x82944x1_S4x1x1_S4x82944x1_2_1_1_2_0_0_wf
def dot_S4x160x82944_S4x82944x1_S4x160x1_2_1_1_2_0_0 : DotDims S4x160x82944 S4x82944x1 S4x160x1 where
  lhsContracting := [2]
  rhsContracting := [1]
  lhsNonContracting := [1]
  rhsNonContracting := [2]
  lhsBatch := [0]
  rhsBatch := [0]
  wf := dot_S4x160x82944_S4x82944x1_S4x160x1_2_1_1_2_0_0_wf
def dot_S4x82944x1_S4x82944x1_S4x1x1_1_1_2_2_0_0 : DotDims S4x82944x1 S4x82944x1 S4x1x1 where
  lhsContracting := [1]
  rhsContracting := [1]
  lhsNonContracting := [2]
  rhsNonContracting := [2]
  lhsBatch := [0]
  rhsBatch := [0]
  wf := dot_S4x82944x1_S4x82944x1_S4x1x1_1_1_2_2_0_0_wf
def dot_S4x160x1_S4x1x1_S4x160x1_2_1_1_2_0_0 : DotDims S4x160x1 S4x1x1 S4x160x1 where
  lhsContracting := [2]
  rhsContracting := [1]
  lhsNonContracting := [1]
  rhsNonContracting := [2]
  lhsBatch := [0]
  rhsBatch := [0]
  wf := dot_S4x160x1_S4x1x1_S4x160x1_2_1_1_2_0_0_wf
def dot_S4x160x1_S4x82944x1_S4x160x82944_2_2_1_1_0_0 : DotDims S4x160x1 S4x82944x1 S4x160x82944 where
  lhsContracting := [2]
  rhsContracting := [2]
  lhsNonContracting := [1]
  rhsNonContracting := [1]
  lhsBatch := [0]
  rhsBatch := [0]
  wf := dot_S4x160x1_S4x82944x1_S4x160x82944_2_2_1_1_0_0_wf

class Facts : Prop extends Facts₀ where

variable [Facts]
-- ==== Proof.KRun.lean ====
/-
  The kernel program's run with its result named.  Every weakly fair execution of the program from a memory `m` ends,
  faults nowhere, leaves the two argument arrays as they were, and leaves in the result array the contents the last
  host stretch computes from what the fifth kernel region wrote — the end of a chain that alternates host stretches
  and kernel regions from the launch memory.  The chain itself (`W0 … W11`) is read in the modules that import this one.
-/
import proofs.«119537_j3693671875223_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the chain's last contents, the arguments as launched. -/
theorem run : θ_run defs (onTc (τ := τ) (main (F := F))) ⟨m, fun _ => 0, ρ⟩ (fun r => ∀ c : Dev nD,
      r.2.mem ((c.tc : Thread nD τ).loc main_v58) = W11 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v58 (by decide)),
       (h c _ (mem_uc main_arg0 (by decide))).trans (W11_main_arg0 m ρ c),
       (h c _ (mem_uc main_arg1 (by decide))).trans (W11_main_arg1 m ρ c)⟩)

end Cert.KernelIdeal.Run

end
-- ==== Proof.Spec.lean ====
/-
  The mathematics both programs compute, on the extended reals, with every array written as a function of its
  coordinates: a batch index `b < 4`, a feature index `d < 160` and a position `n < 82944`.

  A rank-one non-negative factorisation is refined by multiplicative updates.  With data `X b d n`, a basis vector
  `B b d` and a coefficient vector `C b n`, one round first renews the coefficients,
      C' b n = C b n · (∑ d, X b d n · B b d) / (C b n · (∑ d, B b d²) + ε),
  and then the basis from the renewed coefficients,
      B' b d = B b d · (∑ n, X b d n · C' b n) / (B b d · (∑ n, C' b n²) + ε).
  Four rounds start from the coefficients all equal to one; a last coefficient renewal follows, and the result is
  the outer product `B b d · C b n`.  Division is the extended reals' total division `Ideal.div`; nothing here
  assumes an entry finite.
-/
import Idealize.ShloMosaic.PureOps.Ideal

noncomputable section

open scoped BigOperators
open Idealize.ShloMosaic

namespace Cert.Nmf

/-- The regulariser added to every denominator: the float nearest to one millionth, as an extended real. -/
def eps : EReal := Ideal.ofBits .f32 0x358637BD#32

/-- The squared length of each batch's basis vector. -/
def sqB (B : Fin 4 → Fin 160 → EReal) (b : Fin 4) : EReal := ∑ d : Fin 160, B b d * B b d

/-- The squared length of each batch's coefficient vector. -/
def sqC (C : Fin 4 → Fin 82944 → EReal) (b : Fin 4) : EReal := ∑ n : Fin 82944, C b n * C b n

/-- The data projected on the basis: `∑ d, X b d n · B b d`. -/
def projB (X : Fin 4 → Fin 160 → Fin 82944 → EReal) (B : Fin 4 → Fin 160 → EReal) (b : Fin 4) (n : Fin 82944) : EReal :=
  ∑ d : Fin 160, X b d n * B b d

/-- The data projected on the coefficients: `∑ n, X b d n · C b n`. -/
def projC (X : Fin 4 → Fin 160 → Fin 82944 → EReal) (C : Fin 4 → Fin 82944 → EReal) (b : Fin 4) (d : Fin 160) : EReal :=
  ∑ n : Fin 82944, X b d n * C b n

/-- The coefficient renewal, with the basis' squared length `T` given: `C · (Xᵀ B) / (C · T + ε)`. -/
def coefUpd (X : Fin 4 → Fin 160 → Fin 82944 → EReal) (B : Fin 4 → Fin 160 → EReal) (T : Fin 4 → EReal)
    (C : Fin 4 → Fin 82944 → EReal) (b : Fin 4) (n : Fin 82944) : EReal :=
  Ideal.div (C b n * projB X B b n) (C b n * T b + eps)

/-- The basis renewal, with the projection `P = X C` and the coefficients' squared length `S` given:
    `B · P / (B · S + ε)`. -/
def basesUpd (B P : Fin 4 → Fin 160 → EReal) (S : Fin 4 → EReal) (b : Fin 4) (d : Fin 160) : EReal :=
  Ideal.div (B b d * P b d) (B b d * S b + eps)

/-- One round: the coefficients renewed from the basis, then the basis renewed from the new coefficients. -/
def round (X : Fin 4 → Fin 160 → Fin 82944 → EReal)
    (P : (Fin 4 → Fin 160 → EReal) × (Fin 4 → Fin 82944 → EReal)) :
    (Fin 4 → Fin 160 → EReal) × (Fin 4 → Fin 82944 → EReal) :=
  (basesUpd P.1 (projC X (coefUpd X P.1 (sqB P.1) P.2)) (sqC (coefUpd X P.1 (sqB P.1) P.2)),
   coefUpd X P.1 (sqB P.1) P.2)

/-- The basis and coefficients after four rounds from coefficients all one. -/
def fitted (X : Fin 4 → Fin 160 → Fin 82944 → EReal) (B : Fin 4 → Fin 160 → EReal) :
    (Fin 4 → Fin 160 → EReal) × (Fin 4 → Fin 82944 → EReal) :=
  round X (round X (round X (round X (B, fun _ _ => 1))))

/-- The result: the fitted basis times the coefficients renewed once more. -/
def out (X : Fin 4 → Fin 160 → Fin 82944 → EReal) (B : Fin 4 → Fin 160 → EReal)
    (b : Fin 4) (d : Fin 160) (n : Fin 82944) : EReal :=
  (fitted X B).1 b d * coefUpd X (fitted X B).1 (sqB (fitted X B).1) (fitted X B).2 b n

end Cert.Nmf

end
-- ==== Proof.HostMath.lean ====
/-
  The host arithmetic between the kernel regions, read at an index on the extended reals: the squared length of each
  batch's basis vector and of its coefficient vector (a product, a sum along one axis from zero, the result stood
  back up as a [4,1,1] array), the basis renewal `B · P / (B · S + ε)` with the squared length `S` spread over the
  features, and the all-ones coefficients the iteration starts from.
-/
import proofs.«119537_j3693671875223_2_alg».proof.KernelIdeal
import proofs.«119537_j3693671875223_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators
open Idealize.ShloMosaic Idealize.ShloMosaic.ValueIdx
open Cert.KernelIdeal

namespace Cert.HostMath

/-- The reduced index (b, 0) of a [4,160,1] array with feature `k` put back is (b, k, 0). -/
theorem lift_feature (h : S4x160x1.Reduces [1] S4x1) (b : Fin 4) (k : Fin (S4x160x1.size 1)) :
    h.lift (ix2 b (0 : Fin 1)) k = ix3 b (⟨k.val, k.isLt⟩ : Fin 160) (0 : Fin 1) := by
  funext c; apply Fin.ext
  fin_cases c <;> rfl

/-- The reduced index (b, 0) of a [4,1,82944] array with position `k` put back is (b, 0, k). -/
theorem lift_position (h : S4x1x82944.Reduces [2] S4x1) (b : Fin 4) (k : Fin (S4x1x82944.size 2)) :
    h.lift (ix2 b (0 : Fin 1)) k = ix3 b (0 : Fin 1) (⟨k.val, k.isLt⟩ : Fin 82944) := by
  funext c; apply Fin.ext
  fin_cases c <;> rfl

/-- The squared length of each batch's basis vector, as the host computes it. -/
theorem sqB_host (Bv : S4x160x1.Idx → EReal) (h1 : S4x160x1.ReducesTo [1] S4x1) (hr : S4x160x1.Reduces [1] S4x1)
    (h0 : 0 < S_.numel) (h2 : S4x1.BroadcastsInDim S4x1x1 ![0, 2]) (b : Fin 4) :
    broadcastInDim S4x1x1 ![0, 2] h2
        (Host.reduceAdd (F := Ideal) (mulf (F := Ideal) Bv Bv) (constant (F := Ideal) S_ .f32 0x00000000#32) h1 h0)
        (ix3 b (0 : Fin 1) (0 : Fin 1))
      = Cert.Nmf.sqB (fun b d => Bv (ix3 b d (0 : Fin 1))) b := by
  rw [broadcastInDim_apply ![0, 2] h2 _ _ (ix2 b (0 : Fin 1))
    (by intro a; match a with | ⟨0, _⟩ => rfl | ⟨1, _⟩ => rfl)]
  rw [hostReduceAdd_apply, Ideal.hostReduceAdd_single h1 hr, constant_apply, Ideal.ofBits_zero_f32, zero_add]
  unfold Cert.Nmf.sqB
  exact Finset.sum_congr rfl fun k _ => by rw [lift_feature hr b k]; rfl

/-- The squared length of each batch's coefficient vector, as the host computes it. -/
theorem sqC_host (Cv : S4x1x82944.Idx → EReal) (h1 : S4x1x82944.ReducesTo [2] S4x1) (hr : S4x1x82944.Reduces [2] S4x1)
    (h0 : 0 < S_.numel) (h2 : S4x1.BroadcastsInDim S4x1x1 ![0, 1]) (b : Fin 4) :
    broadcastInDim S4x1x1 ![0, 1] h2
        (Host.reduceAdd (F := Ideal) (mulf (F := Ideal) Cv Cv) (constant (F := Ideal) S_ .f32 0x00000000#32) h1 h0)
        (ix3 b (0 : Fin 1) (0 : Fin 1))
      = Cert.Nmf.sqC (fun b n => Cv (ix3 b (0 : Fin 1) n)) b := by
  rw [broadcastInDim_apply ![0, 1] h2 _ _ (ix2 b (0 : Fin 1))
    (by intro a; match a with | ⟨0, _⟩ => rfl | ⟨1, _⟩ => rfl)]
  rw [hostReduceAdd_apply, Ideal.hostReduceAdd_single h1 hr, constant_apply, Ideal.ofBits_zero_f32, zero_add]
  unfold Cert.Nmf.sqC
  exact Finset.sum_congr rfl fun k _ => by rw [lift_position hr b k]; rfl

/-- The basis renewal, as the host computes it from the basis `Bv`, the projection `Nb` and the squared length `T3`. -/
theorem bases_host (Bv Nb : S4x160x1.Idx → EReal) (T3 : S4x1x1.Idx → EReal)
    (h3 : S4x1x1.BroadcastsInDim S4x160x1 ![0, 1, 2]) (h4 : S_.BroadcastsInDim S4x160x1 ![]) (b : Fin 4) (d : Fin 160) :
    Host.divf (F := Ideal) (mulf (F := Ideal) Bv Nb)
        (addf (F := Ideal) (mulf (F := Ideal) Bv (broadcastInDim S4x160x1 ![0, 1, 2] h3 T3))
          (broadcastInDim S4x160x1 ![] h4 (constant (F := Ideal) S_ .f32 0x358637BD#32)))
        (ix3 b d (0 : Fin 1))
      = Cert.Nmf.basesUpd (fun b d => Bv (ix3 b d (0 : Fin 1))) (fun b d => Nb (ix3 b d (0 : Fin 1)))
          (fun b => T3 (ix3 b (0 : Fin 1) (0 : Fin 1))) b d := by
  rw [hostDivf_apply]
  unfold Cert.Nmf.basesUpd Cert.Nmf.eps
  have e1 : broadcastInDim S4x160x1 ![0, 1, 2] h3 T3 (ix3 b d (0 : Fin 1)) = T3 (ix3 b (0 : Fin 1) (0 : Fin 1)) :=
    broadcastInDim_apply ![0, 1, 2] h3 T3 _ _
      (by intro a; match a with | ⟨0, _⟩ => rfl | ⟨1, _⟩ => rfl | ⟨2, _⟩ => rfl)
  have e2 : broadcastInDim S4x160x1 ![] h4 (constant (F := Ideal) S_ .f32 0x358637BD#32) (ix3 b d (0 : Fin 1))
      = Ideal.ofBits .f32 0x358637BD#32 := by
    rw [broadcastInDim_scalar_apply]; rfl
  show Ideal.div (Bv (ix3 b d (0 : Fin 1)) * Nb (ix3 b d (0 : Fin 1)))
      (Bv (ix3 b d (0 : Fin 1)) * broadcastInDim S4x160x1 ![0, 1, 2] h3 T3 (ix3 b d (0 : Fin 1))
        + broadcastInDim S4x160x1 ![] h4 (constant (F := Ideal) S_ .f32 0x358637BD#32) (ix3 b d (0 : Fin 1))) = _
  rw [e1, e2]

/-- The coefficients the iteration starts from are all one. -/
theorem ones_host (h : S_.BroadcastsInDim S4x1x82944 ![]) (i : S4x1x82944.Idx) :
    broadcastInDim S4x1x82944 ![] h (constant (F := Ideal) S_ .f32 0x3F800000#32) i = 1 := by
  rw [broadcastInDim_scalar_apply, constant_apply, Ideal.ofBits_one_f32]

end Cert.HostMath

end
-- ==== Proof.StepPay.lean ====
/-
  The arithmetic of one grid point of the coefficient-renewal kernel, read at an index, over abstract vectors.
  With a data block `x (0, d, n)`, a basis `b (0, d, 0)`, its squared length `t (0, 0, 0)` and old coefficients
  `c (0, 0, n)`, the renewed coefficient at position `n` is
      c n · (∑ d, x d n · b d) / (c n · t + ε),
  and the accumulator's feature `d` becomes its old value plus `∑ n, x d n · (renewed coefficient n)`.
  Nothing here names a region of the program: the four copies of the kernel share these vectors.
-/
import proofs.«119537_j3693671875223_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx
open Cert.KernelIdeal

namespace Cert.StepPay

/-! ## Indices -/

/-- Summing a `[160, 13824]` array over its first axis: the index over position `n` with feature `d` put back is `(d, n)`. -/
theorem lift_first (h : S160x13824.Reduces [0] S13824) (n : Fin 13824) (d : Fin 160) :
    h.lift (ix1 n) d = ix2 d n := by
  funext c
  refine Fin.ext ?_
  match c with
  | ⟨0, _⟩ => rfl
  | ⟨1, _⟩ => rfl

/-- Summing it over its second axis: the index over feature `d` with position `n` put back is `(d, n)`. -/
theorem lift_second (h : S160x13824.Reduces [1] S160) (d : Fin 160) (n : Fin 13824) :
    h.lift (ix1 d) n = ix2 d n := by
  funext c
  refine Fin.ext ?_
  match c with
  | ⟨0, _⟩ => rfl
  | ⟨1, _⟩ => rfl

/-! ## Layout changes read at an index -/

variable {α : Type}

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single entry `[1, 1]` broadcast to a row `[1, b]` reads that entry everywhere. -/
theorem broadcastTo_11_1b_apply {b : ℕ} (v : (⟨2, ![1, 1]⟩ : Shape).Idx → α) (h : (⟨2, ![1, 1]⟩ : Shape).Broadcasts ⟨2, ![1, b]⟩)
    (p : Fin 1) (c : Fin b) : broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The renewed coefficients -/

/-- The renewed coefficients of the block, as the kernel computes them: a `[1, 13824]` vector. -/
def coefVec (v3 : Vec Ideal S1x160x13824 .f32) (v5 : Vec Ideal S1x160x1 .f32) (v7 : Vec Ideal S1x1x1 .f32) (v9 : Vec Ideal S1x1x13824 .f32) :
    FVec Ideal S1x13824 .f32 :=
  divf
    (mulf (shapeCast S1x13824 v9 Facts₀.shapeCasts_S1x1x13824_S1x13824)
      (shapeCast S1x13824
        (multiReduction .add [0] S13824
          (mulf (shapeCast S160x13824 v3 Facts₀.shapeCasts_S1x160x13824_S160x13824)
            (broadcastTo S160x13824 (shapeCast S160x1 v5 Facts₀.shapeCasts_S1x160x1_S160x1) Facts₀.broadcasts_S160x1_S160x13824))
          0x00000000#32 Facts₀.reduces_S160x13824_S13824 (.inl rfl) rfl)
        Facts₀.shapeCasts_S13824_S1x13824))
    (addf
      (mulf (shapeCast S1x13824 v9 Facts₀.shapeCasts_S1x1x13824_S1x13824)
        (broadcastTo S1x13824 (shapeCast S1x1 v7 Facts₀.shapeCasts_S1x1x1_S1x1) Facts₀.broadcasts_S1x1_S1x13824))
      (broadcast S1x13824 (Scalar.ofBits .f32 0x358637BD#32)))

/-- The renewed coefficient at position `n`. -/
theorem coefVec_apply (v3 : Vec Ideal S1x160x13824 .f32) (v5 : Vec Ideal S1x160x1 .f32) (v7 : Vec Ideal S1x1x1 .f32) (v9 : Vec Ideal S1x1x13824 .f32)
    (n : Fin 13824) :
    coefVec v3 v5 v7 v9 (ix2 (0 : Fin 1) n)
      = Ideal.div (v9 (ix3 0 0 n) * ∑ d : Fin 160, v3 (ix3 0 d n) * v5 (ix3 0 d 0))
          (v9 (ix3 0 0 n) * v7 (ix3 0 0 0) + Ideal.ofBits .f32 0x358637BD#32) := by
  unfold coefVec
  rw [divf_apply, mulf_apply, addf_apply, mulf_apply, broadcast_apply]
  rw [shapeCast_1ab_ab_apply, shapeCast_a_1a_apply, broadcastTo_11_1b_apply, shapeCast_1ab_ab_apply]
  refine congrArg₂ Ideal.div (congrArg (v9 (ix3 0 0 n) * ·) ?_) rfl
  refine (Ideal.multiReduction_add_single _ _ _ _ _ _).trans ?_
  refine Finset.sum_congr rfl fun (d : Fin 160) _ => ?_
  rw [lift_first, mulf_apply, shapeCast_1ab_ab_apply, broadcastTo_a1_ab_apply, shapeCast_1ab_ab_apply]

/-! ## The accumulator -/

/-- The accumulator after the block, as the kernel computes it from the accumulator it reads: a `[160, 1]` column. -/
def accVec (v3 : Vec Ideal S1x160x13824 .f32) (v5 : Vec Ideal S1x160x1 .f32) (v7 : Vec Ideal S1x1x1 .f32) (v9 : Vec Ideal S1x1x13824 .f32)
    (v28 : Vec Ideal S1x160x1 .f32) : FVec Ideal S160x1 .f32 :=
  addf (shapeCast S160x1 v28 Facts₀.shapeCasts_S1x160x1_S160x1)
    (shapeCast S160x1
      (multiReduction .add [1] S160
        (mulf (shapeCast S160x13824 v3 Facts₀.shapeCasts_S1x160x13824_S160x13824)
          (broadcastTo S160x13824 (coefVec v3 v5 v7 v9) Facts₀.broadcasts_S1x13824_S160x13824))
        0x00000000#32 Facts₀.reduces_S160x13824_S160 (.inl rfl) rfl)
      Facts₀.shapeCasts_S160_S160x1)

/-- Feature `d` of the accumulator after the block. -/
theorem accVec_apply (v3 : Vec Ideal S1x160x13824 .f32) (v5 : Vec Ideal S1x160x1 .f32) (v7 : Vec Ideal S1x1x1 .f32) (v9 : Vec Ideal S1x1x13824 .f32)
    (v28 : Vec Ideal S1x160x1 .f32) (d : Fin 160) :
    accVec v3 v5 v7 v9 v28 (ix2 d (0 : Fin 1))
      = v28 (ix3 0 d 0) + ∑ n : Fin 13824, v3 (ix3 0 d n) * coefVec v3 v5 v7 v9 (ix2 (0 : Fin 1) n) := by
  unfold accVec
  rw [addf_apply, shapeCast_1ab_ab_apply, shapeCast_a_a1_apply]
  refine congrArg (v28 (ix3 0 d 0) + ·) ?_
  refine (Ideal.multiReduction_add_single _ _ _ _ _ _).trans ?_
  refine Finset.sum_congr rfl fun (n : Fin 13824) _ => ?_
  rw [lift_second, mulf_apply, shapeCast_1ab_ab_apply, broadcastTo_1b_ab_apply]

end Cert.StepPay

end
-- ==== Proof.StepBody0.lean ====
/-
  One grid point of the coefficient-renewal kernel, as mathematics.  The point holds a block of the data
  `x0 (0, d, n)` (160 features, 13824 positions), the basis `x1 (0, d, 0)`, its squared length `x2 (0, 0, 0)` and the old
  coefficients `x3 (0, 0, n)`.  It leaves the renewed coefficients
      x3 n · (∑ d, x0 d n · x1 d) / (x3 n · x2 + ε)
  in one output block, and adds `∑ n, x0 d n · (renewed coefficient n)` to the accumulator block — which it first sets
  to zero when the point is the first of its batch.
-/
import proofs.«119537_j3693671875223_2_alg».proof.Proof.Gen.KernelIdeal.Frame
import proofs.«119537_j3693671875223_2_alg».proof.Proof.Spec
import proofs.«119537_j3693671875223_2_alg».proof.Proof.StepPay
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Tactic
open Cert.KernelIdeal Cert.KernelIdeal.Gen

namespace Cert.StepBody0

/-- The renewed coefficient at position `n` of the block. -/
def coefBlk (x0 : Vec Ideal S1x160x13824 .f32) (x1 : Vec Ideal S1x160x1 .f32) (x2 : Vec Ideal S1x1x1 .f32) (x3 : Vec Ideal S1x1x13824 .f32) (n : Fin 13824) : EReal :=
  Ideal.div (x3 (ix3 0 0 n) * ∑ d : Fin 160, x0 (ix3 0 d n) * x1 (ix3 0 d 0)) (x3 (ix3 0 0 n) * x2 (ix3 0 0 0) + Cert.Nmf.eps)

/-- What the block adds to feature `d` of the accumulator. -/
def contribBlk (x0 : Vec Ideal S1x160x13824 .f32) (x1 : Vec Ideal S1x160x1 .f32) (x2 : Vec Ideal S1x1x1 .f32) (x3 : Vec Ideal S1x1x13824 .f32) (d : Fin 160) : EReal :=
  ∑ n : Fin 13824, x0 (ix3 0 d n) * coefBlk x0 x1 x2 x3 n

/-- The zero offsets of a whole-block access, however they are spelt. -/
theorem hz : (![0, 0, 0] : Fin 3 → Nat) = fun _ => 0 := funext fun a => by fin_cases a <;> rfl

/-- The renewed coefficient is the kernel's coefficient vector read at `(0, n)`. -/
theorem coefBlk_eq (x0 : Vec Ideal S1x160x13824 .f32) (x1 : Vec Ideal S1x160x1 .f32) (x2 : Vec Ideal S1x1x1 .f32) (x3 : Vec Ideal S1x1x13824 .f32) (n : Fin 13824) :
    coefBlk x0 x1 x2 x3 n = Cert.StepPay.coefVec x0 x1 x2 x3 (ix2 (0 : Fin 1) n) := by
  unfold coefBlk Cert.Nmf.eps
  exact (Cert.StepPay.coefVec_apply x0 x1 x2 x3 n).symm

/-- The stored coefficient block read at `(0, 0, n)`. -/
theorem pay5_apply (x0 : Vec Ideal S1x160x13824 .f32) (x1 : Vec Ideal S1x160x1 .f32) (x2 : Vec Ideal S1x1x1 .f32) (x3 : Vec Ideal S1x1x13824 .f32) (n : Fin 13824) :
    k0_pay5 (F := Ideal) x0 x1 x2 x3 (ix3 0 0 n) = coefBlk x0 x1 x2 x3 n := by
  rw [coefBlk_eq]
  exact shapeCast_ab_1ab_apply (Cert.StepPay.coefVec x0 x1 x2 x3) _ 0 0 n

/-- The stored accumulator block read at `(0, d, 0)`, from the accumulator `acc` the point reads. -/
theorem pay1_apply (x0 : Vec Ideal S1x160x13824 .f32) (x1 : Vec Ideal S1x160x1 .f32) (x2 : Vec Ideal S1x1x1 .f32) (x3 : Vec Ideal S1x1x13824 .f32)
    (acc : Vec Ideal S1x160x1 .f32) (d : Fin 160) :
    k0_pay1 (F := Ideal) (k0_pay6 x0 x1 x2 x3 acc) (ix3 0 d 0) = acc (ix3 0 d 0) + contribBlk x0 x1 x2 x3 d := by
  unfold contribBlk
  simp only [coefBlk_eq]
  refine (shapeCast_ab_1ab_apply (Cert.StepPay.accVec x0 x1 x2 x3 acc) _ 0 d 0).trans ?_
  exact Cert.StepPay.accVec_apply x0 x1 x2 x3 acc d

/-- The zero block read at any index. -/
theorem pay2_apply (y : S1x160x1.Idx) : k0_pay2 (F := Ideal) y = 0 := Ideal.ofBits_zero_f32

/-- At a batch's first point the coefficient output block holds the renewed coefficients. -/
theorem out_A_4 (c : Dev nD) (i : grid0.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond0_0 i)
    (x0 : Vec Ideal S1x160x13824 .f32) (x1 : Vec Ideal S1x160x1 .f32) (x2 : Vec Ideal S1x1x1 .f32) (x3 : Vec Ideal S1x1x13824 .f32) (n : Fin 13824) :
    out0_A_4 (F := Ideal) c i a2 h2 a3 h3 a4 h4 a5 h5 a6 h6 a7 h7 hc x0 x1 x2 x3 (ix3 0 0 n) = coefBlk x0 x1 x2 x3 n := by
  have hv : out0_A_4 (F := Ideal) c i a2 h2 a3 h3 a4 h4 a5 h5 a6 h6 a7 h7 hc x0 x1 x2 x3 = k0_pay5 x0 x1 x2 x3 := by
    unfold out0_A_4
    rw [View.read_writes_eq_canon _ _ _ (cover0_A_4 c i a2 h2 a3 h3 a4 h4 a5 h5 a6 h6 a7 h7 hc x0 x1 x2 x3)]
    unfold kernelRun0_A
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At any later point too. -/
theorem out_B_4 (c : Dev nD) (i : grid0.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond0_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (n : Fin 13824) :
    out0_B_4 (F := Ideal) c i a2 h2 a3 h3 a4 h4 a5 h5 a6 h6 a7 h7 hc x0 x1 x2 x3 xo5 (ix3 0 0 n) = coefBlk x0 x1 x2 x3 n := by
  have hv : out0_B_4 (F := Ideal) c i a2 h2 a3 h3 a4 h4 a5 h5 a6 h6 a7 h7 hc x0 x1 x2 x3 xo5 = k0_pay5 x0 x1 x2 x3 := by
    unfold out0_B_4
    rw [View.read_writes_eq_canon _ _ _ (cover0_B_4 c i a2 h2 a3 h3 a4 h4 a5 h5 a6 h6 a7 h7 hc x0 x1 x2 x3 xo5)]
    unfold kernelRun0_B
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At a batch's first point the accumulator block is zero plus the block's contribution. -/
theorem out_A_5 (c : Dev nD) (i : grid0.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond0_0 i)
    (x0 : Vec Ideal S1x160x13824 .f32) (x1 : Vec Ideal S1x160x1 .f32) (x2 : Vec Ideal S1x1x1 .f32) (x3 : Vec Ideal S1x1x13824 .f32) (d : Fin 160) :
    out0_A_5 (F := Ideal) c i a2 h2 a3 h3 a4 h4 a5 h5 a6 h6 a7 h7 hc x0 x1 x2 x3 (ix3 0 d 0) = 0 + contribBlk x0 x1 x2 x3 d := by
  have hv : out0_A_5 (F := Ideal) c i a2 h2 a3 h3 a4 h4 a5 h5 a6 h6 a7 h7 hc x0 x1 x2 x3 = k0_pay1 (k0_pay6 x0 x1 x2 x3 (k0_pay2 (F := Ideal))) := by
    unfold out0_A_5
    rw [View.read_writes_eq_canon _ _ _ (cover0_A_5 c i a2 h2 a3 h3 a4 h4 a5 h5 a6 h6 a7 h7 hc x0 x1 x2 x3)]
    unfold kernelRun0_A
    dsimp only
    sl_unfold_words
    rw [View.canon_cons_unit_zero (S := S1x160x1) hz, View.readCov_unit_zero (S := S1x160x1) _ hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv, pay1_apply, pay2_apply]

/-- At a later point it is what the point before left, plus the block's contribution. -/
theorem out_B_5 (c : Dev nD) (i : grid0.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond0_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (d : Fin 160) :
    out0_B_5 (F := Ideal) c i a2 h2 a3 h3 a4 h4 a5 h5 a6 h6 a7 h7 hc x0 x1 x2 x3 xo5 (ix3 0 d 0) = xo5 (ix3 0 d 0) + contribBlk x0 x1 x2 x3 d := by
  have hv : out0_B_5 (F := Ideal) c i a2 h2 a3 h3 a4 h4 a5 h5 a6 h6 a7 h7 hc x0 x1 x2 x3 xo5 = k0_pay1 (k0_pay6 x0 x1 x2 x3 xo5) := by
    unfold out0_B_5
    rw [View.read_writes_eq_canon _ _ _ (cover0_B_5 c i a2 h2 a3 h3 a4 h4 a5 h5 a6 h6 a7 h7 hc x0 x1 x2 x3 xo5)]
    unfold kernelRun0_B
    dsimp only
    sl_unfold_words
    rw [View.canon_unit_zero hz]
    simp only [View.readAt_eq_ld, h2.read_unread, h3.read_unread, h4.read_unread, h5.read_unread, h7.read_unread, View.ld_unit_zero (S := S1x160x13824) hz, View.ld_unit_zero (S := S1x160x1) hz, View.ld_unit_zero (S := S1x1x1) hz, View.ld_unit_zero (S := S1x1x13824) hz]
  rw [hv]
  exact pay1_apply x0 x1 x2 x3 xo5 d

end Cert.StepBody0

end
-- ==== Proof.LibTileSum.lean ====
import Mathlib.Algebra.BigOperators.Fin
import Mathlib.Algebra.BigOperators.Intervals

/-!
# Sums over consecutive indices, grouped into tiles of equal width

A sum over `K * W` consecutive natural indices equals the sum, over the `K` tiles, of the
sums over the `W` indices of each tile; tile `k` holds the indices `W * k + u`, `u < W`.
-/

namespace Cert.TileSum

/-- A sum over the first `K * W` naturals is the sum, tile by tile, of the sums over each
tile `{W * k + u | u < W}` of width `W` (both sides written over `Finset.range`). -/
theorem sum_range_tiles {M : Type*} [AddCommMonoid M] (K W : ℕ) (g : ℕ → M) :
    ∑ i ∈ Finset.range (K * W), g i
      = ∑ k ∈ Finset.range K, ∑ u ∈ Finset.range W, g (W * k + u) := by
  induction K with
  | zero => simp
  | succ K ih =>
    rw [Nat.succ_mul, Finset.sum_range_add, ih, Finset.sum_range_succ, Nat.mul_comm K W]

/-- A sum over `K * W` consecutive indices is the sum, tile by tile, of the sums over each
tile of width `W`: index `t < K * W` is `W * k + u` for a unique tile `k < K` and offset
`u < W`. -/
theorem sum_tiles {M : Type*} [AddCommMonoid M] (K W : ℕ) (g : ℕ → M) :
    ∑ t : Fin (K * W), g t.val
      = ∑ k ∈ Finset.range K, ∑ u : Fin W, g (W * k + u.val) := by
  rw [Fin.sum_univ_eq_sum_range (fun i => g i) (K * W), sum_range_tiles]
  refine Finset.sum_congr rfl fun k _ => ?_
  exact (Fin.sum_univ_eq_sum_range (fun u => g (W * k + u)) W).symm

/-- The tiled form of a sum of a function on `Fin N` with `N = K * W`: the summand at tile
`k` and offset `u` is `f` at the index `W * k + u` (which is always below `N`; the
`else` branch is never taken and is there only to make the expression total). -/
theorem sum_fin_tiles {M : Type*} [AddCommMonoid M] (K W N : ℕ) (hN : N = K * W)
    (f : Fin N → M) :
    ∑ t : Fin N, f t
      = ∑ k ∈ Finset.range K, ∑ u : Fin W,
          (if h : W * k + u.val < N then f ⟨W * k + u.val, h⟩ else 0) := by
  subst hN
  have h1 : ∑ t : Fin (K * W), f t
      = ∑ t : Fin (K * W), (fun n : ℕ => if h : n < K * W then f ⟨n, h⟩ else 0) t.val :=
    Finset.sum_congr rfl fun t _ => by simp [t.isLt]
  rw [h1, sum_tiles K W (fun n : ℕ => if h : n < K * W then f ⟨n, h⟩ else 0)]

end Cert.TileSum
-- ==== Proof.StepMath.lean ====
/-
  Region-independent mathematics of the coefficient-renewal step.

  The projection of the data on the coefficients, `∑ n, X b d n · C b n` over 82944 positions, grouped into six tiles
  of 13824 positions; and the value of a running sum that restarts at `0 + M n` at every sixth point and adds `M n`
  to what the point before left at the others.
-/
import proofs.«119537_j3693671875223_2_alg».proof.Proof.Spec
import proofs.«119537_j3693671875223_2_alg».proof.Proof.LibTileSum

noncomputable section

open scoped BigOperators

namespace Cert.StepMath

/-- Tile `k`'s share of `∑ n, X b d n · C b n`: the positions `13824·k + u`, `u < 13824`. (Total in `k`: a position past
    the end contributes nothing; for `k < 6` no position is.) -/
def tileSum (X : Fin 4 → Fin 160 → Fin 82944 → EReal) (C : Fin 4 → Fin 82944 → EReal) (b : Fin 4) (d : Fin 160)
    (k : ℕ) : EReal :=
  ∑ u : Fin 13824,
    (if h : 13824 * k + u.val < 82944 then X b d ⟨13824 * k + u.val, h⟩ * C b ⟨13824 * k + u.val, h⟩ else 0)

/-- The projection is the sum of its six tiles' shares. -/
theorem projC_eq_tiles (X : Fin 4 → Fin 160 → Fin 82944 → EReal) (C : Fin 4 → Fin 82944 → EReal) (b : Fin 4)
    (d : Fin 160) : Cert.Nmf.projC X C b d = ∑ k ∈ Finset.range 6, tileSum X C b d k := by
  unfold Cert.Nmf.projC tileSum
  exact Cert.TileSum.sum_fin_tiles 6 13824 82944 (by norm_num) (fun n => X b d n * C b n)

/-- A tile's share, for a tile inside the array, as a plain sum. -/
theorem tileSum_eq (X : Fin 4 → Fin 160 → Fin 82944 → EReal) (C : Fin 4 → Fin 82944 → EReal) (b : Fin 4)
    (d : Fin 160) (k : ℕ) (hk : k < 6) :
    tileSum X C b d k
      = ∑ u : Fin 13824, X b d ⟨13824 * k + u.val, by omega⟩ * C b ⟨13824 * k + u.val, by omega⟩ := by
  unfold tileSum
  refine Finset.sum_congr rfl fun u _ => ?_
  rw [dif_pos]

/-- A quantity `f` indexed by the points `n < N` that is `0 + M n` at the multiples of six and what the point before left
    plus `M n` at every other point is, at each point, `0 +` the sum of the `M`'s from the last multiple of six on. -/
theorem running_sum {N : ℕ} (f : (n : ℕ) → n < N → EReal) (M : ℕ → EReal)
    (h0 : ∀ (n : ℕ) (h : n < N), n % 6 = 0 → f n h = 0 + M n)
    (hs : ∀ (n : ℕ) (h : n + 1 < N), ¬(n + 1) % 6 = 0 → f (n + 1) h = f n (Nat.lt_of_succ_lt h) + M (n + 1)) :
    ∀ (n : ℕ) (h : n < N), f n h = 0 + ∑ k ∈ Finset.range (n % 6 + 1), M (6 * (n / 6) + k)
  | 0, h => by
    rw [h0 0 h rfl]
    simp
  | n + 1, h => by
    by_cases hm : (n + 1) % 6 = 0
    · rw [h0 (n + 1) h hm, hm, Finset.sum_range_one]
      exact congrArg (fun z => 0 + M z) (by omega)
    · have e1 : (n + 1) % 6 = n % 6 + 1 := by omega
      have e2 : (n + 1) / 6 = n / 6 := by omega
      rw [hs n h hm, running_sum f M h0 hs n (Nat.lt_of_succ_lt h), e1, e2, Finset.sum_range_succ _ (n % 6 + 1),
        add_assoc]
      exact congrArg (fun z => 0 + (∑ k ∈ Finset.range (n % 6 + 1), M (6 * (n / 6) + k) + M z)) (by omega)

/-- At the last point of a run of six the running sum is the whole run's. -/
theorem running_sum_last {N : ℕ} (f : (n : ℕ) → n < N → EReal) (M : ℕ → EReal)
    (h0 : ∀ (n : ℕ) (h : n < N), n % 6 = 0 → f n h = 0 + M n)
    (hs : ∀ (n : ℕ) (h : n + 1 < N), ¬(n + 1) % 6 = 0 → f (n + 1) h = f n (Nat.lt_of_succ_lt h) + M (n + 1))
    (n : ℕ) (h : n < N) (h5 : n % 6 = 5) : f n h = ∑ k ∈ Finset.range 6, M (6 * (n / 6) + k) := by
  rw [running_sum f M h0 hs n h, h5, zero_add]

end Cert.StepMath

end
-- ==== Proof.StepArr0a.lean ====
/-
  The coefficient-renewal step, pipeline 0: a grid point's four input blocks read at explicit coordinates off the
  arrays the region finds, and what the point's body makes of them, in the words of the mathematics.

  Point `t = 6·b + k` (`b < 4` batches, `k < 6` tiles of 13824 positions) holds the data's entries
  `(b, d, 13824·k + j)`, the basis `(b, d)`, its squared length `(b)` and the old coefficients `(b, 13824·k + j)`.
  So the coefficients it renews are those of the positions of tile `k` of batch `b`, and what it adds to the
  accumulator is tile `k`'s share of the data's projection on the renewed coefficients.
-/
import proofs.«119537_j3693671875223_2_alg».proof.Proof.StepBody0
import proofs.«119537_j3693671875223_2_alg».proof.Proof.StepMath

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr0

open Cert.StepBody0

variable (V : (c : Dev nD) → (b : Ref sig .tc) → Buf (Elt Ideal) ((c : Thread nD τ).loc b))

/-- The data the region finds, by batch, feature and position. -/
def Xof (c : Dev nD) : Fin 4 → Fin 160 → Fin 82944 → EReal :=
  fun b d n => (V c (Pipeline.arrRef spec0 0) : S4x160x82944.Idx → EReal) (ix3 b d n)
/-- The basis the region finds, by batch and feature. -/
def Bof (c : Dev nD) : Fin 4 → Fin 160 → EReal :=
  fun b d => (V c (Pipeline.arrRef spec0 1) : S4x160x1.Idx → EReal) (ix3 b d 0)
/-- The basis' squared length the region finds, by batch. -/
def Tof (c : Dev nD) : Fin 4 → EReal :=
  fun b => (V c (Pipeline.arrRef spec0 2) : S4x1x1.Idx → EReal) (ix3 b 0 0)
/-- The old coefficients the region finds, by batch and position. -/
def Cof (c : Dev nD) : Fin 4 → Fin 82944 → EReal :=
  fun b n => (V c (Pipeline.arrRef spec0 3) : S4x1x82944.Idx → EReal) (ix3 b 0 n)

/-- The grid has 24 points. -/
theorem hN : cfg0.N = 24 := N_0

/-- The batch of point `t`. -/
def bat (t : Fin cfg0.N) : Fin 4 := ⟨t.val / 6, by have := t.isLt; have := hN; omega⟩
/-- Position `j` of point `t`'s tile, as a position of the whole row. -/
def pos (t : Fin cfg0.N) (j : Fin 13824) : Fin 82944 := ⟨13824 * (t.val % 6) + j.val, by omega⟩

/-! ## The windows' block indices, decided over the grid -/

theorem idx_0 : ∀ t : Fin cfg0.N, win0_0.index t (0 : Fin 3) = t.val / 6 ∧ win0_0.index t (1 : Fin 3) = 0
    ∧ win0_0.index t (2 : Fin 3) = t.val % 6 :=
  (by decide +kernel : ∀ t : Fin grid0.N, _)
theorem idx_1 : ∀ t : Fin cfg0.N, win0_1.index t (0 : Fin 3) = t.val / 6 ∧ win0_1.index t (1 : Fin 3) = 0
    ∧ win0_1.index t (2 : Fin 3) = 0 :=
  (by decide +kernel : ∀ t : Fin grid0.N, _)
theorem idx_2 : ∀ t : Fin cfg0.N, win0_2.index t (0 : Fin 3) = t.val / 6 ∧ win0_2.index t (1 : Fin 3) = 0
    ∧ win0_2.index t (2 : Fin 3) = 0 :=
  (by decide +kernel : ∀ t : Fin grid0.N, _)
theorem idx_3 : ∀ t : Fin cfg0.N, win0_3.index t (0 : Fin 3) = t.val / 6 ∧ win0_3.index t (1 : Fin 3) = 0
    ∧ win0_3.index t (2 : Fin 3) = t.val % 6 :=
  (by decide +kernel : ∀ t : Fin grid0.N, _)
theorem idx_4 : ∀ t : Fin cfg0.N, win0_4.index t (0 : Fin 3) = t.val / 6 ∧ win0_4.index t (1 : Fin 3) = 0
    ∧ win0_4.index t (2 : Fin 3) = t.val % 6 :=
  (by decide +kernel : ∀ t : Fin grid0.N, _)
theorem idx_5 : ∀ t : Fin cfg0.N, win0_5.index t (0 : Fin 3) = t.val / 6 ∧ win0_5.index t (1 : Fin 3) = 0
    ∧ win0_5.index t (2 : Fin 3) = 0 :=
  (by decide +kernel : ∀ t : Fin grid0.N, _)

/-! ## The input blocks at explicit coordinates

An element of a block sits in the array, on each axis, at the block's index times the block's size plus its own coordinate. -/

/-- The data block of point `t`: entry `(d, j)` is the data at batch `t / 6`, feature `d`, position `13824·(t % 6) + j`. -/
theorem iblk_0 (c : Dev nD) (t : Fin cfg0.N) (d : Fin 160) (j : Fin 13824) :
    (iblk0 V c 0 t : Vec Ideal S1x160x13824 .f32) (ix3 0 d j) = Xof V c (bat t) d (pos t j) := by
  obtain ⟨e0, e1, e2⟩ := idx_0 t
  unfold iblk0 Xof
  rw [View.read_apply]
  show V c (Pipeline.arrRef spec0 0) (((cfg0.win 0).blk t).view.emb (ix3 0 d j)) = V c (Pipeline.arrRef spec0 0) (ix3 (bat t) d (pos t j))
  refine congrArg (V c (Pipeline.arrRef spec0 0)) (funext fun a => Fin.ext ?_)
  match a with
  | ⟨0, _⟩ => show win0_0.index t (0 : Fin 3) * 1 + 1 * 0 = t.val / 6; rw [e0]; omega
  | ⟨1, _⟩ => show win0_0.index t (1 : Fin 3) * 160 + 1 * d.val = d.val; rw [e1]; omega
  | ⟨2, _⟩ => show win0_0.index t (2 : Fin 3) * 13824 + 1 * j.val = 13824 * (t.val % 6) + j.val; rw [e2]; omega

/-- The basis block of point `t`: entry `d` is the basis at batch `t / 6`, feature `d`. -/
theorem iblk_1 (c : Dev nD) (t : Fin cfg0.N) (d : Fin 160) :
    (iblk0 V c 1 t : Vec Ideal S1x160x1 .f32) (ix3 0 d 0) = Bof V c (bat t) d := by
  obtain ⟨e0, e1, e2⟩ := idx_1 t
  unfold iblk0 Bof
  rw [View.read_apply]
  show V c (Pipeline.arrRef spec0 1) (((cfg0.win 1).blk t).view.emb (ix3 0 d 0)) = V c (Pipeline.arrRef spec0 1) (ix3 (bat t) d 0)
  refine congrArg (V c (Pipeline.arrRef spec0 1)) (funext fun a => Fin.ext ?_)
  match a with
  | ⟨0, _⟩ => show win0_1.index t (0 : Fin 3) * 1 + 1 * 0 = t.val / 6; rw [e0]; omega
  | ⟨1, _⟩ => show win0_1.index t (1 : Fin 3) * 160 + 1 * d.val = d.val; rw [e1]; omega
  | ⟨2, _⟩ => show win0_1.index t (2 : Fin 3) * 1 + 1 * 0 = 0; rw [e2]

/-- The squared-length block of point `t` is the squared length at batch `t / 6`. -/
theorem iblk_2 (c : Dev nD) (t : Fin cfg0.N) :
    (iblk0 V c 2 t : Vec Ideal S1x1x1 .f32) (ix3 0 0 0) = Tof V c (bat t) := by
  obtain ⟨e0, e1, e2⟩ := idx_2 t
  unfold iblk0 Tof
  rw [View.read_apply]
  show V c (Pipeline.arrRef spec0 2) (((cfg0.win 2).blk t).view.emb (ix3 0 0 0)) = V c (Pipeline.arrRef spec0 2) (ix3 (bat t) 0 0)
  refine congrArg (V c (Pipeline.arrRef spec0 2)) (funext fun a => Fin.ext ?_)
  match a with
  | ⟨0, _⟩ => show win0_2.index t (0 : Fin 3) * 1 + 1 * 0 = t.val / 6; rw [e0]; omega
  | ⟨1, _⟩ => show win0_2.index t (1 : Fin 3) * 1 + 1 * 0 = 0; rw [e1]
  | ⟨2, _⟩ => show win0_2.index t (2 : Fin 3) * 1 + 1 * 0 = 0; rw [e2]

/-- The old-coefficient block of point `t`: entry `j` is the old coefficient at batch `t / 6`, position `13824·(t % 6) + j`. -/
theorem iblk_3 (c : Dev nD) (t : Fin cfg0.N) (j : Fin 13824) :
    (iblk0 V c 3 t : Vec Ideal S1x1x13824 .f32) (ix3 0 0 j) = Cof V c (bat t) (pos t j) := by
  obtain ⟨e0, e1, e2⟩ := idx_3 t
  unfold iblk0 Cof
  rw [View.read_apply]
  show V c (Pipeline.arrRef spec0 3) (((cfg0.win 3).blk t).view.emb (ix3 0 0 j)) = V c (Pipeline.arrRef spec0 3) (ix3 (bat t) 0 (pos t j))
  refine congrArg (V c (Pipeline.arrRef spec0 3)) (funext fun a => Fin.ext ?_)
  match a with
  | ⟨0, _⟩ => show win0_3.index t (0 : Fin 3) * 1 + 1 * 0 = t.val / 6; rw [e0]; omega
  | ⟨1, _⟩ => show win0_3.index t (1 : Fin 3) * 1 + 1 * 0 = 0; rw [e1]
  | ⟨2, _⟩ => show win0_3.index t (2 : Fin 3) * 13824 + 1 * j.val = 13824 * (t.val % 6) + j.val; rw [e2]; omega

/-! ## What a point computes, over blocks given by their entries -/

/-- Blocks whose entries are those of tile `k` of batch `b` renew the coefficients of that tile's positions. -/
theorem coefBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (n : Fin 13824) :
    coefBlk x0 x1 x2 x3 n = Cert.Nmf.coefUpd X B T C b (p n) := by
  unfold coefBlk Cert.Nmf.coefUpd Cert.Nmf.projB
  rw [h3 n, h2]
  refine congrArg (fun z => Ideal.div (C b (p n) * z) (C b (p n) * T b + Cert.Nmf.eps)) ?_
  exact Finset.sum_congr rfl fun d _ => by rw [h0 d n, h1 d]

/-- And add to the accumulator that tile's part of the data's projection on the renewed coefficients. -/
theorem contribBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (d : Fin 160) :
    contribBlk x0 x1 x2 x3 d = ∑ j : Fin 13824, X b d (p j) * Cert.Nmf.coefUpd X B T C b (p j) := by
  unfold contribBlk
  exact Finset.sum_congr rfl fun j _ => by rw [h0 d j, coefBlk_tile X B T C b p x0 x1 x2 x3 h0 h1 h2 h3 j]

/-- The renewed coefficients, as the mathematics names them from the arrays the region finds. -/
def Cnew (c : Dev nD) : Fin 4 → Fin 82944 → EReal :=
  Cert.Nmf.coefUpd (Xof V c) (Bof V c) (Tof V c) (Cof V c)

/-- Point `t`'s blocks renew the coefficients of its tile. -/
theorem coef_point (c : Dev nD) (t : Fin cfg0.N) (j : Fin 13824) :
    coefBlk (iblk0 V c 0 t) (iblk0 V c 1 t) (iblk0 V c 2 t) (iblk0 V c 3 t) j = Cnew V c (bat t) (pos t j) :=
  coefBlk_tile (Xof V c) (Bof V c) (Tof V c) (Cof V c) (bat t) (pos t) (iblk0 V c 0 t) (iblk0 V c 1 t)
    (iblk0 V c 2 t) (iblk0 V c 3 t) (iblk_0 V c t) (iblk_1 V c t) (iblk_2 V c t) (iblk_3 V c t) j

/-- Point `t`'s blocks add its tile's share of the projection. -/
theorem contrib_point (c : Dev nD) (t : Fin cfg0.N) (d : Fin 160) :
    contribBlk (iblk0 V c 0 t) (iblk0 V c 1 t) (iblk0 V c 2 t) (iblk0 V c 3 t) d
      = Cert.StepMath.tileSum (Xof V c) (Cnew V c) (bat t) d (t.val % 6) := by
  rw [Cert.StepMath.tileSum_eq _ _ _ _ _ (Nat.mod_lt _ (by norm_num))]
  exact contribBlk_tile (Xof V c) (Bof V c) (Tof V c) (Cof V c) (bat t) (pos t) (iblk0 V c 0 t) (iblk0 V c 1 t)
    (iblk0 V c 2 t) (iblk0 V c 3 t) (iblk_0 V c t) (iblk_1 V c t) (iblk_2 V c t) (iblk_3 V c t) d

end Cert.StepArr0

end
-- ==== Proof.StepArr0b.lean ====
/-
  The coefficient-renewal step, pipeline 0: the array of renewed coefficients after the run.

  Every grid point writes its coefficient block back, and the block of point `t = 6·b + k` is positions
  `13824·k … 13824·k + 13823` of row `b`; the blocks tile the array, so the array ends holding the renewed coefficient
  at every batch and position.
-/
import proofs.«119537_j3693671875223_2_alg».proof.Proof.StepArr0a

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr0

open Cert.StepBody0

variable (V : (c : Dev nD) → (b : Ref sig .tc) → Buf (Elt Ideal) ((c : Thread nD τ).loc b))

/-- After every point the coefficient output block holds the renewed coefficients of the point's tile. -/
theorem outs_coef (c : Dev nD) (t : Fin cfg0.N) (j : Fin 13824) :
    (outsAt0 V c t.val t.isLt).1 (ix3 0 0 j) = Cnew V c (bat t) (pos t j) := by
  by_cases h0 : t.val % 6 = 0
  · rw [outsAt0_A V c t h0]
    dsimp only
    exact ((out_A_4 c (grid0.coords t) (ms0_0 t) (hs0_0 t) (ms0_1 t) (hs0_1 t) (ms0_2 t) (hs0_2 t) (ms0_3 t) (hs0_3 t)
        (ms0_4 t) (hs0_4 t) (ms0_5 t) (hs0_5 t) ((hcond0_0 t).mpr h0) (iblk0 V c 0 t) (iblk0 V c 1 t) (iblk0 V c 2 t)
        (iblk0 V c 3 t) j).trans (coef_point V c t j))
  · rw [outsAt0_B V c t h0]
    dsimp only
    exact ((out_B_4 c (grid0.coords t) (ms0_0 t) (hs0_0 t) (ms0_1 t) (hs0_1 t) (ms0_2 t) (hs0_2 t) (ms0_3 t) (hs0_3 t)
        (ms0_4 t) (hs0_4 t) (ms0_5 t) (hs0_5 t) (fun h => h0 ((hcond0_0 t).mp h)) (iblk0 V c 0 t) (iblk0 V c 1 t)
        (iblk0 V c 2 t) (iblk0 V c 3 t)
        (outsAt0 V c (t.val - 1) (Nat.lt_of_le_of_lt (Nat.sub_le _ _) t.isLt)).2 j).trans (coef_point V c t j))

/-- The array of renewed coefficients, by its index. -/
def G4 (c : Dev nD) : S4x1x82944.Idx → EReal := fun i => Cnew V c (i 0) (i 2)

/-- What point `t` writes back is its block of the array of renewed coefficients. -/
theorem flushed_4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  obtain ⟨e0, e1, e2⟩ := idx_4 t
  funext y
  obtain ⟨a, b, j, rfl⟩ : ∃ (a : Fin 1) (b : Fin 1) (j : Fin 13824), y = ix3 a b j :=
    ⟨y 0, y 1, y 2, @eq_ix3 1 1 13824 y⟩
  obtain rfl : a = 0 := Subsingleton.elim _ _
  obtain rfl : b = 0 := Subsingleton.elim _ _
  show (outsAt0 V c t.val t.isLt).1 (ix3 0 0 j)
    = Cnew V c ((((cfg0.win 4).blk t).view.emb (ix3 0 0 j)) 0) ((((cfg0.win 4).blk t).view.emb (ix3 0 0 j)) 2)
  rw [outs_coef V c t j]
  refine congrArg₂ (Cnew V c) (Fin.ext ?_) (Fin.ext ?_)
  · show t.val / 6 = win0_4.index t (0 : Fin 3) * 1 + 1 * 0
    rw [e0]; omega
  · show 13824 * (t.val % 6) + j.val = win0_4.index t (2 : Fin 3) * 13824 + 1 * j.val
    rw [e2]; omega

/-- An index of the array is in point `t`'s block iff each coordinate is in the block's range on its axis. -/
theorem mem_blk_4 (t : Fin cfg0.N) (i : S4x1x82944.Idx) :
    i ∈ ((cfg0.win 4).blk t).view.set ↔ ∀ a : Fin 3, win0_4.index t a * S1x1x13824.size a ≤ (i a).val
      ∧ (i a).val < win0_4.index t a * S1x1x13824.size a + S1x1x13824.size a := by
  show i ∈ ((View.whole main_v5_0).slice (win0_4.rect t)).set ↔ _
  rw [View.set_slice_whole, Rect.mem_set_unit]
  exact Iff.rfl

/-- Position `n` of row `b` lies in the block of point `6·b + n / 13824`, which writes its block back. -/
theorem cover_4 (i : S4x1x82944.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 82944 := (i 2).isLt
  have hlt : 6 * (i 0).val + (i 2).val / 13824 < cfg0.N := by rw [hN]; omega
  obtain ⟨e0, e1, e2⟩ := idx_4 ⟨6 * (i 0).val + (i 2).val / 13824, hlt⟩
  refine ⟨⟨6 * (i 0).val + (i 2).val / 13824, hlt⟩, flush0_4 _, ?_⟩
  rw [mem_blk_4]
  intro a
  match a with
  | ⟨0, _⟩ =>
    show win0_4.index ⟨6 * (i 0).val + (i 2).val / 13824, hlt⟩ (0 : Fin 3) * 1 ≤ (i 0).val
      ∧ (i 0).val < win0_4.index ⟨6 * (i 0).val + (i 2).val / 13824, hlt⟩ (0 : Fin 3) * 1 + 1
    rw [e0]; show (6 * (i 0).val + (i 2).val / 13824) / 6 * 1 ≤ (i 0).val ∧ (i 0).val < (6 * (i 0).val + (i 2).val / 13824) / 6 * 1 + 1
    omega
  | ⟨1, _⟩ =>
    show win0_4.index ⟨6 * (i 0).val + (i 2).val / 13824, hlt⟩ (1 : Fin 3) * 1 ≤ (i 1).val
      ∧ (i 1).val < win0_4.index ⟨6 * (i 0).val + (i 2).val / 13824, hlt⟩ (1 : Fin 3) * 1 + 1
    rw [e1]; omega
  | ⟨2, _⟩ =>
    show win0_4.index ⟨6 * (i 0).val + (i 2).val / 13824, hlt⟩ (2 : Fin 3) * 13824 ≤ (i 2).val
      ∧ (i 2).val < win0_4.index ⟨6 * (i 0).val + (i 2).val / 13824, hlt⟩ (2 : Fin 3) * 13824 + 13824
    rw [e2]; show (6 * (i 0).val + (i 2).val / 13824) % 6 * 13824 ≤ (i 2).val ∧ (i 2).val < (6 * (i 0).val + (i 2).val / 13824) % 6 * 13824 + 13824
    omega

/-- The array of renewed coefficients after the run. -/
theorem arr_4 (c : Dev nD) : (dat0 V c).arrAt 4 cfg0.N = G4 V c :=
  (dat0 V c).arrAt_eq_of_cover 4 (G4 V c) (fun t _ => flushed_4 V c t) cover_4

end Cert.StepArr0

end
-- ==== Proof.StepArr0.lean ====
/-
  The coefficient-renewal step, pipeline 0: the accumulator array after the run, and the step's two output arrays in
  the words of the mathematics.

  The accumulator block of batch `b` is set to zero at the batch's first point and increased at each of its six points
  by that point's tile's share of `∑ n, X b d n · C' b n` (`C'` the renewed coefficients); it is written back after the
  sixth, when it holds `0 +` the six shares added in order, which is the whole sum.
-/
import proofs.«119537_j3693671875223_2_alg».proof.Proof.StepArr0b

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr0

open Cert.StepBody0

variable (V : (c : Dev nD) → (b : Ref sig .tc) → Buf (Elt Ideal) ((c : Thread nD τ).loc b))

/-- What point `n` adds to feature `d` of the accumulator (nothing past the grid: a total function of `n`). -/
def addend (c : Dev nD) (d : Fin 160) (n : ℕ) : EReal :=
  if h : n < cfg0.N then Cert.StepMath.tileSum (Xof V c) (Cnew V c) (bat ⟨n, h⟩) d (n % 6) else 0

/-- At a batch's first point the accumulator block is zero plus the point's addend. -/
theorem acc_first (c : Dev nD) (d : Fin 160) (n : ℕ) (h : n < cfg0.N) (h0 : n % 6 = 0) :
    (outsAt0 V c n h).2 (ix3 0 d 0) = 0 + addend V c d n := by
  rw [outsAt0_A V c ⟨n, h⟩ h0]
  dsimp only
  refine (out_A_5 c (grid0.coords ⟨n, h⟩) (ms0_0 ⟨n, h⟩) (hs0_0 ⟨n, h⟩) (ms0_1 ⟨n, h⟩) (hs0_1 ⟨n, h⟩) (ms0_2 ⟨n, h⟩)
    (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩)
    ((hcond0_0 ⟨n, h⟩).mpr h0) (iblk0 V c 0 ⟨n, h⟩) (iblk0 V c 1 ⟨n, h⟩) (iblk0 V c 2 ⟨n, h⟩) (iblk0 V c 3 ⟨n, h⟩) d).trans ?_
  rw [contrib_point V c ⟨n, h⟩ d]
  unfold addend
  rw [dif_pos h]

/-- At a later point it is what the point before left plus the point's addend. -/
theorem acc_step (c : Dev nD) (d : Fin 160) (n : ℕ) (h : n + 1 < cfg0.N) (h0 : ¬(n + 1) % 6 = 0) :
    (outsAt0 V c (n + 1) h).2 (ix3 0 d 0)
      = (outsAt0 V c n (Nat.lt_of_succ_lt h)).2 (ix3 0 d 0) + addend V c d (n + 1) := by
  rw [outsAt0_B V c ⟨n + 1, h⟩ h0]
  dsimp only
  refine (out_B_5 c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (ms0_5 ⟨n + 1, h⟩) (hs0_5 ⟨n + 1, h⟩) (fun hc => h0 ((hcond0_0 ⟨n + 1, h⟩).mp hc)) (iblk0 V c 0 ⟨n + 1, h⟩)
    (iblk0 V c 1 ⟨n + 1, h⟩) (iblk0 V c 2 ⟨n + 1, h⟩) (iblk0 V c 3 ⟨n + 1, h⟩)
    (outsAt0 V c ((⟨n + 1, h⟩ : Fin cfg0.N).val - 1) (Nat.lt_of_le_of_lt (Nat.sub_le _ _) (⟨n + 1, h⟩ : Fin cfg0.N).isLt)).2 d).trans ?_
  rw [contrib_point V c ⟨n + 1, h⟩ d]
  unfold addend
  rw [dif_pos h]
  rfl

/-- At the sixth point of a batch the accumulator block holds the data's projection on the renewed coefficients. -/
theorem acc_last (c : Dev nD) (d : Fin 160) (t : Fin cfg0.N) (h5 : t.val % 6 = 5) :
    (outsAt0 V c t.val t.isLt).2 (ix3 0 d 0) = Cert.Nmf.projC (Xof V c) (Cnew V c) (bat t) d := by
  have hN' : cfg0.N = 24 := hN
  have ht := t.isLt
  rw [Cert.StepMath.running_sum_last (fun n h => (outsAt0 V c n h).2 (ix3 0 d 0)) (addend V c d)
    (acc_first V c d) (acc_step V c d) t.val t.isLt h5, Cert.StepMath.projC_eq_tiles]
  refine Finset.sum_congr rfl fun k hk => ?_
  have hk6 : k < 6 := Finset.mem_range.mp hk
  have hlt : 6 * (t.val / 6) + k < cfg0.N := by omega
  unfold addend
  rw [dif_pos hlt]
  have hb : bat (⟨6 * (t.val / 6) + k, hlt⟩ : Fin cfg0.N) = bat t := Fin.ext (by show (6 * (t.val / 6) + k) / 6 = t.val / 6; omega)
  rw [hb]
  exact congrArg (Cert.StepMath.tileSum (Xof V c) (Cnew V c) (bat t) d) (by omega)

/-- The accumulator array, by its index. -/
def G5 (c : Dev nD) : S4x160x1.Idx → EReal := fun i => Cert.Nmf.projC (Xof V c) (Cnew V c) (i 0) (i 1)

/-- A block of the accumulator array, read at an index of the block, is the array at the index's place in it. -/
theorem read_blk_5 (t : Fin cfg0.N) (G : S4x160x1.Idx → EReal) (y : S1x160x1.Idx) :
    ((cfg0.win 5).blk t).view.read (Elt Ideal) G y = G (((cfg0.win 5).blk t).view.emb y) := rfl

/-- What a batch's sixth point writes back is its block of the array of projections. -/
theorem flushed_5 (c : Dev nD) (t : Fin cfg0.N) (hf : (cfg0.win 5).flush t = true) :
    (dat0 V c).flushed 5 t = ((cfg0.win 5).blk t).view.read (Elt Ideal) (G5 V c) := by
  have h5 : t.val % 6 = 5 := (flush0_5 t).mp hf
  show (cfg0.win 5).cut (grid0.coords t) ((dat0 V c).after 5 t) = _
  rw [after0_5]
  obtain ⟨e0, e1, e2⟩ := idx_5 t
  funext y
  obtain ⟨a, d, b, rfl⟩ : ∃ (a : Fin 1) (d : Fin 160) (b : Fin 1), y = ix3 a d b :=
    ⟨y 0, y 1, y 2, @eq_ix3 1 160 1 y⟩
  obtain rfl : a = 0 := Subsingleton.elim _ _
  obtain rfl : b = 0 := Subsingleton.elim _ _
  refine Eq.trans ?_ (read_blk_5 t (G5 V c) (ix3 0 d 0)).symm
  show (outsAt0 V c t.val t.isLt).2 (ix3 0 d 0) = G5 V c (((cfg0.win 5).blk t).view.emb (ix3 0 d 0))
  rw [acc_last V c d t h5]
  unfold G5
  refine congrArg₂ (Cert.Nmf.projC (Xof V c) (Cnew V c)) (Fin.ext ?_) (Fin.ext ?_)
  · show t.val / 6 = win0_5.index t (0 : Fin 3) * 1 + 1 * 0
    rw [e0]; omega
  · show d.val = win0_5.index t (1 : Fin 3) * 160 + 1 * d.val
    rw [e1]; omega

/-- An index of the array is in point `t`'s block iff each coordinate is in the block's range on its axis. -/
theorem mem_blk_5 (t : Fin cfg0.N) (i : S4x160x1.Idx) :
    i ∈ ((cfg0.win 5).blk t).view.set ↔ ∀ a : Fin 3, win0_5.index t a * S1x160x1.size a ≤ (i a).val
      ∧ (i a).val < win0_5.index t a * S1x160x1.size a + S1x160x1.size a := by
  show i ∈ ((View.whole main_v5_1).slice (win0_5.rect t)).set ↔ _
  rw [View.set_slice_whole, Rect.mem_set_unit]
  exact Iff.rfl

/-- Row `b` of the accumulator array lies in the block of point `6·b + 5`, the batch's sixth, which writes it back. -/
theorem cover_5 (i : S4x160x1.Idx) :
    ∃ t : Fin cfg0.N, (cfg0.win 5).flush t = true ∧ i ∈ ((cfg0.win 5).blk t).view.set := by
  have h0 : (i 0).val < 4 := (i 0).isLt
  have h1 : (i 1).val < 160 := (i 1).isLt
  have h2 : (i 2).val < 1 := (i 2).isLt
  have hlt : 6 * (i 0).val + 5 < cfg0.N := by rw [hN]; omega
  obtain ⟨e0, e1, e2⟩ := idx_5 ⟨6 * (i 0).val + 5, hlt⟩
  refine ⟨⟨6 * (i 0).val + 5, hlt⟩, (flush0_5 _).mpr (by show (6 * (i 0).val + 5) % 6 = 5; omega), ?_⟩
  rw [mem_blk_5]
  intro a
  match a with
  | ⟨0, _⟩ =>
    show win0_5.index ⟨6 * (i 0).val + 5, hlt⟩ (0 : Fin 3) * 1 ≤ (i 0).val
      ∧ (i 0).val < win0_5.index ⟨6 * (i 0).val + 5, hlt⟩ (0 : Fin 3) * 1 + 1
    rw [e0]; show (6 * (i 0).val + 5) / 6 * 1 ≤ (i 0).val ∧ (i 0).val < (6 * (i 0).val + 5) / 6 * 1 + 1
    omega
  | ⟨1, _⟩ =>
    show win0_5.index ⟨6 * (i 0).val + 5, hlt⟩ (1 : Fin 3) * 160 ≤ (i 1).val
      ∧ (i 1).val < win0_5.index ⟨6 * (i 0).val + 5, hlt⟩ (1 : Fin 3) * 160 + 160
    rw [e1]; omega
  | ⟨2, _⟩ =>
    show win0_5.index ⟨6 * (i 0).val + 5, hlt⟩ (2 : Fin 3) * 1 ≤ (i 2).val
      ∧ (i 2).val < win0_5.index ⟨6 * (i 0).val + 5, hlt⟩ (2 : Fin 3) * 1 + 1
    rw [e2]; omega

/-- The accumulator array after the run. -/
theorem arr_5 (c : Dev nD) : (dat0 V c).arrAt 5 cfg0.N = G5 V c :=
  (dat0 V c).arrAt_eq_of_cover 5 (G5 V c) (flushed_5 V c) cover_5

/-! ## The step's two output arrays -/

/-- After the run the coefficient array holds, at batch `b` and position `n`, the renewed coefficient. -/
theorem coef_final (c : Dev nD) (b : Fin 4) (n : Fin 82944) :
    ((dat0 (F := Ideal) V c).arrAt 4 cfg0.N : S4x1x82944.Idx → EReal) (ix3 b 0 n)
      = Cert.Nmf.coefUpd (Xof V c) (Bof V c) (Tof V c) (Cof V c) b n :=
  congrFun (arr_4 V c) (ix3 b 0 n)

/-- After the run the accumulator array holds, at batch `b` and feature `d`, the data's projection on the renewed
    coefficients. -/
theorem numb_final (c : Dev nD) (b : Fin 4) (d : Fin 160) :
    ((dat0 (F := Ideal) V c).arrAt 5 cfg0.N : S4x160x1.Idx → EReal) (ix3 b d 0)
      = Cert.Nmf.projC (Xof V c) (Cert.Nmf.coefUpd (Xof V c) (Bof V c) (Tof V c) (Cof V c)) b d :=
  congrFun (arr_5 V c) (ix3 b d 0)

end Cert.StepArr0

end
-- ==== Proof.StepBody1.lean ====
/-
  One grid point of the coefficient-renewal kernel, as mathematics.  The point holds a block of the data
  `x0 (0, d, n)` (160 features, 13824 positions), the basis `x1 (0, d, 0)`, its squared length `x2 (0, 0, 0)` and the old
  coefficients `x3 (0, 0, n)`.  It leaves the renewed coefficients
      x3 n · (∑ d, x0 d n · x1 d) / (x3 n · x2 + ε)
  in one output block, and adds `∑ n, x0 d n · (renewed coefficient n)` to the accumulator block — which it first sets
  to zero when the point is the first of its batch.
-/
import proofs.«119537_j3693671875223_2_alg».proof.Proof.Gen.KernelIdeal.Frame
import proofs.«119537_j3693671875223_2_alg».proof.Proof.Spec
import proofs.«119537_j3693671875223_2_alg».proof.Proof.StepPay
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Tactic
open Cert.KernelIdeal Cert.KernelIdeal.Gen

namespace Cert.StepBody1

/-- The renewed coefficient at position `n` of the block. -/
def coefBlk (x0 : Vec Ideal S1x160x13824 .f32) (x1 : Vec Ideal S1x160x1 .f32) (x2 : Vec Ideal S1x1x1 .f32) (x3 : Vec Ideal S1x1x13824 .f32) (n : Fin 13824) : EReal :=
  Ideal.div (x3 (ix3 0 0 n) * ∑ d : Fin 160, x0 (ix3 0 d n) * x1 (ix3 0 d 0)) (x3 (ix3 0 0 n) * x2 (ix3 0 0 0) + Cert.Nmf.eps)

/-- What the block adds to feature `d` of the accumulator. -/
def contribBlk (x0 : Vec Ideal S1x160x13824 .f32) (x1 : Vec Ideal S1x160x1 .f32) (x2 : Vec Ideal S1x1x1 .f32) (x3 : Vec Ideal S1x1x13824 .f32) (d : Fin 160) : EReal :=
  ∑ n : Fin 13824, x0 (ix3 0 d n) * coefBlk x0 x1 x2 x3 n

/-- The zero offsets of a whole-block access, however they are spelt. -/
theorem hz : (![0, 0, 0] : Fin 3 → Nat) = fun _ => 0 := funext fun a => by fin_cases a <;> rfl

/-- The renewed coefficient is the kernel's coefficient vector read at `(0, n)`. -/
theorem coefBlk_eq (x0 : Vec Ideal S1x160x13824 .f32) (x1 : Vec Ideal S1x160x1 .f32) (x2 : Vec Ideal S1x1x1 .f32) (x3 : Vec Ideal S1x1x13824 .f32) (n : Fin 13824) :
    coefBlk x0 x1 x2 x3 n = Cert.StepPay.coefVec x0 x1 x2 x3 (ix2 (0 : Fin 1) n) := by
  unfold coefBlk Cert.Nmf.eps
  exact (Cert.StepPay.coefVec_apply x0 x1 x2 x3 n).symm

/-- The stored coefficient block read at `(0, 0, n)`. -/
theorem pay5_apply (x0 : Vec Ideal S1x160x13824 .f32) (x1 : Vec Ideal S1x160x1 .f32) (x2 : Vec Ideal S1x1x1 .f32) (x3 : Vec Ideal S1x1x13824 .f32) (n : Fin 13824) :
    k1_pay5 (F := Ideal) x0 x1 x2 x3 (ix3 0 0 n) = coefBlk x0 x1 x2 x3 n := by
  rw [coefBlk_eq]
  exact shapeCast_ab_1ab_apply (Cert.StepPay.coefVec x0 x1 x2 x3) _ 0 0 n

/-- The stored accumulator block read at `(0, d, 0)`, from the accumulator `acc` the point reads. -/
theorem pay1_apply (x0 : Vec Ideal S1x160x13824 .f32) (x1 : Vec Ideal S1x160x1 .f32) (x2 : Vec Ideal S1x1x1 .f32) (x3 : Vec Ideal S1x1x13824 .f32)
    (acc : Vec Ideal S1x160x1 .f32) (d : Fin 160) :
    k1_pay1 (F := Ideal) (k1_pay6 x0 x1 x2 x3 acc) (ix3 0 d 0) = acc (ix3 0 d 0) + contribBlk x0 x1 x2 x3 d := by
  unfold contribBlk
  simp only [coefBlk_eq]
  refine (shapeCast_ab_1ab_apply (Cert.StepPay.accVec x0 x1 x2 x3 acc) _ 0 d 0).trans ?_
  exact Cert.StepPay.accVec_apply x0 x1 x2 x3 acc d

/-- The zero block read at any index. -/
theorem pay2_apply (y : S1x160x1.Idx) : k1_pay2 (F := Ideal) y = 0 := Ideal.ofBits_zero_f32

/-- At a batch's first point the coefficient output block holds the renewed coefficients. -/
theorem out_A_4 (c : Dev nD) (i : grid1.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond1_0 i)
    (x0 : Vec Ideal S1x160x13824 .f32) (x1 : Vec Ideal S1x160x1 .f32) (x2 : Vec Ideal S1x1x1 .f32) (x3 : Vec Ideal S1x1x13824 .f32) (n : Fin 13824) :
    out1_A_4 (F := Ideal) c i a2 h2 a3 h3 a4 h4 a5 h5 a6 h6 a7 h7 hc x0 x1 x2 x3 (ix3 0 0 n) = coefBlk x0 x1 x2 x3 n := by
  have hv : out1_A_4 (F := Ideal) c i a2 h2 a3 h3 a4 h4 a5 h5 a6 h6 a7 h7 hc x0 x1 x2 x3 = k1_pay5 x0 x1 x2 x3 := by
    unfold out1_A_4
    rw [View.read_writes_eq_canon _ _ _ (cover1_A_4 c i a2 h2 a3 h3 a4 h4 a5 h5 a6 h6 a7 h7 hc x0 x1 x2 x3)]
    unfold kernelRun1_A
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At any later point too. -/
theorem out_B_4 (c : Dev nD) (i : grid1.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond1_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (n : Fin 13824) :
    out1_B_4 (F := Ideal) c i a2 h2 a3 h3 a4 h4 a5 h5 a6 h6 a7 h7 hc x0 x1 x2 x3 xo5 (ix3 0 0 n) = coefBlk x0 x1 x2 x3 n := by
  have hv : out1_B_4 (F := Ideal) c i a2 h2 a3 h3 a4 h4 a5 h5 a6 h6 a7 h7 hc x0 x1 x2 x3 xo5 = k1_pay5 x0 x1 x2 x3 := by
    unfold out1_B_4
    rw [View.read_writes_eq_canon _ _ _ (cover1_B_4 c i a2 h2 a3 h3 a4 h4 a5 h5 a6 h6 a7 h7 hc x0 x1 x2 x3 xo5)]
    unfold kernelRun1_B
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At a batch's first point the accumulator block is zero plus the block's contribution. -/
theorem out_A_5 (c : Dev nD) (i : grid1.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond1_0 i)
    (x0 : Vec Ideal S1x160x13824 .f32) (x1 : Vec Ideal S1x160x1 .f32) (x2 : Vec Ideal S1x1x1 .f32) (x3 : Vec Ideal S1x1x13824 .f32) (d : Fin 160) :
    out1_A_5 (F := Ideal) c i a2 h2 a3 h3 a4 h4 a5 h5 a6 h6 a7 h7 hc x0 x1 x2 x3 (ix3 0 d 0) = 0 + contribBlk x0 x1 x2 x3 d := by
  have hv : out1_A_5 (F := Ideal) c i a2 h2 a3 h3 a4 h4 a5 h5 a6 h6 a7 h7 hc x0 x1 x2 x3 = k1_pay1 (k1_pay6 x0 x1 x2 x3 (k1_pay2 (F := Ideal))) := by
    unfold out1_A_5
    rw [View.read_writes_eq_canon _ _ _ (cover1_A_5 c i a2 h2 a3 h3 a4 h4 a5 h5 a6 h6 a7 h7 hc x0 x1 x2 x3)]
    unfold kernelRun1_A
    dsimp only
    sl_unfold_words
    rw [View.canon_cons_unit_zero (S := S1x160x1) hz, View.readCov_unit_zero (S := S1x160x1) _ hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv, pay1_apply, pay2_apply]

/-- At a later point it is what the point before left, plus the block's contribution. -/
theorem out_B_5 (c : Dev nD) (i : grid1.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond1_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (d : Fin 160) :
    out1_B_5 (F := Ideal) c i a2 h2 a3 h3 a4 h4 a5 h5 a6 h6 a7 h7 hc x0 x1 x2 x3 xo5 (ix3 0 d 0) = xo5 (ix3 0 d 0) + contribBlk x0 x1 x2 x3 d := by
  have hv : out1_B_5 (F := Ideal) c i a2 h2 a3 h3 a4 h4 a5 h5 a6 h6 a7 h7 hc x0 x1 x2 x3 xo5 = k1_pay1 (k1_pay6 x0 x1 x2 x3 xo5) := by
    unfold out1_B_5
    rw [View.read_writes_eq_canon _ _ _ (cover1_B_5 c i a2 h2 a3 h3 a4 h4 a5 h5 a6 h6 a7 h7 hc x0 x1 x2 x3 xo5)]
    unfold kernelRun1_B
    dsimp only
    sl_unfold_words
    rw [View.canon_unit_zero hz]
    simp only [View.readAt_eq_ld, h2.read_unread, h3.read_unread, h4.read_unread, h5.read_unread, h7.read_unread, View.ld_unit_zero (S := S1x160x13824) hz, View.ld_unit_zero (S := S1x160x1) hz, View.ld_unit_zero (S := S1x1x1) hz, View.ld_unit_zero (S := S1x1x13824) hz]
  rw [hv]
  exact pay1_apply x0 x1 x2 x3 xo5 d

end Cert.StepBody1

end
-- ==== Proof.StepArr1a.lean ====
/-
  The coefficient-renewal step, pipeline 1: a grid point's four input blocks read at explicit coordinates off the
  arrays the region finds, and what the point's body makes of them, in the words of the mathematics.

  Point `t = 6·b + k` (`b < 4` batches, `k < 6` tiles of 13824 positions) holds the data's entries
  `(b, d, 13824·k + j)`, the basis `(b, d)`, its squared length `(b)` and the old coefficients `(b, 13824·k + j)`.
  So the coefficients it renews are those of the positions of tile `k` of batch `b`, and what it adds to the
  accumulator is tile `k`'s share of the data's projection on the renewed coefficients.
-/
import proofs.«119537_j3693671875223_2_alg».proof.Proof.StepBody1
import proofs.«119537_j3693671875223_2_alg».proof.Proof.StepMath

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr1

open Cert.StepBody1

variable (V : (c : Dev nD) → (b : Ref sig .tc) → Buf (Elt Ideal) ((c : Thread nD τ).loc b))

/-- The data the region finds, by batch, feature and position. -/
def Xof (c : Dev nD) : Fin 4 → Fin 160 → Fin 82944 → EReal :=
  fun b d n => (V c (Pipeline.arrRef spec1 0) : S4x160x82944.Idx → EReal) (ix3 b d n)
/-- The basis the region finds, by batch and feature. -/
def Bof (c : Dev nD) : Fin 4 → Fin 160 → EReal :=
  fun b d => (V c (Pipeline.arrRef spec1 1) : S4x160x1.Idx → EReal) (ix3 b d 0)
/-- The basis' squared length the region finds, by batch. -/
def Tof (c : Dev nD) : Fin 4 → EReal :=
  fun b => (V c (Pipeline.arrRef spec1 2) : S4x1x1.Idx → EReal) (ix3 b 0 0)
/-- The old coefficients the region finds, by batch and position. -/
def Cof (c : Dev nD) : Fin 4 → Fin 82944 → EReal :=
  fun b n => (V c (Pipeline.arrRef spec1 3) : S4x1x82944.Idx → EReal) (ix3 b 0 n)

/-- The grid has 24 points. -/
theorem hN : cfg1.N = 24 := N_1

/-- The batch of point `t`. -/
def bat (t : Fin cfg1.N) : Fin 4 := ⟨t.val / 6, by have := t.isLt; have := hN; omega⟩
/-- Position `j` of point `t`'s tile, as a position of the whole row. -/
def pos (t : Fin cfg1.N) (j : Fin 13824) : Fin 82944 := ⟨13824 * (t.val % 6) + j.val, by omega⟩

/-! ## The windows' block indices, decided over the grid -/

theorem idx_0 : ∀ t : Fin cfg1.N, win1_0.index t (0 : Fin 3) = t.val / 6 ∧ win1_0.index t (1 : Fin 3) = 0
    ∧ win1_0.index t (2 : Fin 3) = t.val % 6 :=
  (by decide +kernel : ∀ t : Fin grid1.N, _)
theorem idx_1 : ∀ t : Fin cfg1.N, win1_1.index t (0 : Fin 3) = t.val / 6 ∧ win1_1.index t (1 : Fin 3) = 0
    ∧ win1_1.index t (2 : Fin 3) = 0 :=
  (by decide +kernel : ∀ t : Fin grid1.N, _)
theorem idx_2 : ∀ t : Fin cfg1.N, win1_2.index t (0 : Fin 3) = t.val / 6 ∧ win1_2.index t (1 : Fin 3) = 0
    ∧ win1_2.index t (2 : Fin 3) = 0 :=
  (by decide +kernel : ∀ t : Fin grid1.N, _)
theorem idx_3 : ∀ t : Fin cfg1.N, win1_3.index t (0 : Fin 3) = t.val / 6 ∧ win1_3.index t (1 : Fin 3) = 0
    ∧ win1_3.index t (2 : Fin 3) = t.val % 6 :=
  (by decide +kernel : ∀ t : Fin grid1.N, _)
theorem idx_4 : ∀ t : Fin cfg1.N, win1_4.index t (0 : Fin 3) = t.val / 6 ∧ win1_4.index t (1 : Fin 3) = 0
    ∧ win1_4.index t (2 : Fin 3) = t.val % 6 :=
  (by decide +kernel : ∀ t : Fin grid1.N, _)
theorem idx_5 : ∀ t : Fin cfg1.N, win1_5.index t (0 : Fin 3) = t.val / 6 ∧ win1_5.index t (1 : Fin 3) = 0
    ∧ win1_5.index t (2 : Fin 3) = 0 :=
  (by decide +kernel : ∀ t : Fin grid1.N, _)

/-! ## The input blocks at explicit coordinates

An element of a block sits in the array, on each axis, at the block's index times the block's size plus its own coordinate. -/

/-- The data block of point `t`: entry `(d, j)` is the data at batch `t / 6`, feature `d`, position `13824·(t % 6) + j`. -/
theorem iblk_0 (c : Dev nD) (t : Fin cfg1.N) (d : Fin 160) (j : Fin 13824) :
    (iblk1 V c 0 t : Vec Ideal S1x160x13824 .f32) (ix3 0 d j) = Xof V c (bat t) d (pos t j) := by
  obtain ⟨e0, e1, e2⟩ := idx_0 t
  unfold iblk1 Xof
  rw [View.read_apply]
  show V c (Pipeline.arrRef spec1 0) (((cfg1.win 0).blk t).view.emb (ix3 0 d j)) = V c (Pipeline.arrRef spec1 0) (ix3 (bat t) d (pos t j))
  refine congrArg (V c (Pipeline.arrRef spec1 0)) (funext fun a => Fin.ext ?_)
  match a with
  | ⟨0, _⟩ => show win1_0.index t (0 : Fin 3) * 1 + 1 * 0 = t.val / 6; rw [e0]; omega
  | ⟨1, _⟩ => show win1_0.index t (1 : Fin 3) * 160 + 1 * d.val = d.val; rw [e1]; omega
  | ⟨2, _⟩ => show win1_0.index t (2 : Fin 3) * 13824 + 1 * j.val = 13824 * (t.val % 6) + j.val; rw [e2]; omega

/-- The basis block of point `t`: entry `d` is the basis at batch `t / 6`, feature `d`. -/
theorem iblk_1 (c : Dev nD) (t : Fin cfg1.N) (d : Fin 160) :
    (iblk1 V c 1 t : Vec Ideal S1x160x1 .f32) (ix3 0 d 0) = Bof V c (bat t) d := by
  obtain ⟨e0, e1, e2⟩ := idx_1 t
  unfold iblk1 Bof
  rw [View.read_apply]
  show V c (Pipeline.arrRef spec1 1) (((cfg1.win 1).blk t).view.emb (ix3 0 d 0)) = V c (Pipeline.arrRef spec1 1) (ix3 (bat t) d 0)
  refine congrArg (V c (Pipeline.arrRef spec1 1)) (funext fun a => Fin.ext ?_)
  match a with
  | ⟨0, _⟩ => show win1_1.index t (0 : Fin 3) * 1 + 1 * 0 = t.val / 6; rw [e0]; omega
  | ⟨1, _⟩ => show win1_1.index t (1 : Fin 3) * 160 + 1 * d.val = d.val; rw [e1]; omega
  | ⟨2, _⟩ => show win1_1.index t (2 : Fin 3) * 1 + 1 * 0 = 0; rw [e2]

/-- The squared-length block of point `t` is the squared length at batch `t / 6`. -/
theorem iblk_2 (c : Dev nD) (t : Fin cfg1.N) :
    (iblk1 V c 2 t : Vec Ideal S1x1x1 .f32) (ix3 0 0 0) = Tof V c (bat t) := by
  obtain ⟨e0, e1, e2⟩ := idx_2 t
  unfold iblk1 Tof
  rw [View.read_apply]
  show V c (Pipeline.arrRef spec1 2) (((cfg1.win 2).blk t).view.emb (ix3 0 0 0)) = V c (Pipeline.arrRef spec1 2) (ix3 (bat t) 0 0)
  refine congrArg (V c (Pipeline.arrRef spec1 2)) (funext fun a => Fin.ext ?_)
  match a with
  | ⟨0, _⟩ => show win1_2.index t (0 : Fin 3) * 1 + 1 * 0 = t.val / 6; rw [e0]; omega
  | ⟨1, _⟩ => show win1_2.index t (1 : Fin 3) * 1 + 1 * 0 = 0; rw [e1]
  | ⟨2, _⟩ => show win1_2.index t (2 : Fin 3) * 1 + 1 * 0 = 0; rw [e2]

/-- The old-coefficient block of point `t`: entry `j` is the old coefficient at batch `t / 6`, position `13824·(t % 6) + j`. -/
theorem iblk_3 (c : Dev nD) (t : Fin cfg1.N) (j : Fin 13824) :
    (iblk1 V c 3 t : Vec Ideal S1x1x13824 .f32) (ix3 0 0 j) = Cof V c (bat t) (pos t j) := by
  obtain ⟨e0, e1, e2⟩ := idx_3 t
  unfold iblk1 Cof
  rw [View.read_apply]
  show V c (Pipeline.arrRef spec1 3) (((cfg1.win 3).blk t).view.emb (ix3 0 0 j)) = V c (Pipeline.arrRef spec1 3) (ix3 (bat t) 0 (pos t j))
  refine congrArg (V c (Pipeline.arrRef spec1 3)) (funext fun a => Fin.ext ?_)
  match a with
  | ⟨0, _⟩ => show win1_3.index t (0 : Fin 3) * 1 + 1 * 0 = t.val / 6; rw [e0]; omega
  | ⟨1, _⟩ => show win1_3.index t (1 : Fin 3) * 1 + 1 * 0 = 0; rw [e1]
  | ⟨2, _⟩ => show win1_3.index t (2 : Fin 3) * 13824 + 1 * j.val = 13824 * (t.val % 6) + j.val; rw [e2]; omega

/-! ## What a point computes, over blocks given by their entries -/

/-- Blocks whose entries are those of tile `k` of batch `b` renew the coefficients of that tile's positions. -/
theorem coefBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (n : Fin 13824) :
    coefBlk x0 x1 x2 x3 n = Cert.Nmf.coefUpd X B T C b (p n) := by
  unfold coefBlk Cert.Nmf.coefUpd Cert.Nmf.projB
  rw [h3 n, h2]
  refine congrArg (fun z => Ideal.div (C b (p n) * z) (C b (p n) * T b + Cert.Nmf.eps)) ?_
  exact Finset.sum_congr rfl fun d _ => by rw [h0 d n, h1 d]

/-- And add to the accumulator that tile's part of the data's projection on the renewed coefficients. -/
theorem contribBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (d : Fin 160) :
    contribBlk x0 x1 x2 x3 d = ∑ j : Fin 13824, X b d (p j) * Cert.Nmf.coefUpd X B T C b (p j) := by
  unfold contribBlk
  exact Finset.sum_congr rfl fun j _ => by rw [h0 d j, coefBlk_tile X B T C b p x0 x1 x2 x3 h0 h1 h2 h3 j]

/-- The renewed coefficients, as the mathematics names them from the arrays the region finds. -/
def Cnew (c : Dev nD) : Fin 4 → Fin 82944 → EReal :=
  Cert.Nmf.coefUpd (Xof V c) (Bof V c) (Tof V c) (Cof V c)

/-- Point `t`'s blocks renew the coefficients of its tile. -/
theorem coef_point (c : Dev nD) (t : Fin cfg1.N) (j : Fin 13824) :
    coefBlk (iblk1 V c 0 t) (iblk1 V c 1 t) (iblk1 V c 2 t) (iblk1 V c 3 t) j = Cnew V c (bat t) (pos t j) :=
  coefBlk_tile (Xof V c) (Bof V c) (Tof V c) (Cof V c) (bat t) (pos t) (iblk1 V c 0 t) (iblk1 V c 1 t)
    (iblk1 V c 2 t) (iblk1 V c 3 t) (iblk_0 V c t) (iblk_1 V c t) (iblk_2 V c t) (iblk_3 V c t) j

/-- Point `t`'s blocks add its tile's share of the projection. -/
theorem contrib_point (c : Dev nD) (t : Fin cfg1.N) (d : Fin 160) :
    contribBlk (iblk1 V c 0 t) (iblk1 V c 1 t) (iblk1 V c 2 t) (iblk1 V c 3 t) d
      = Cert.StepMath.tileSum (Xof V c) (Cnew V c) (bat t) d (t.val % 6) := by
  rw [Cert.StepMath.tileSum_eq _ _ _ _ _ (Nat.mod_lt _ (by norm_num))]
  exact contribBlk_tile (Xof V c) (Bof V c) (Tof V c) (Cof V c) (bat t) (pos t) (iblk1 V c 0 t) (iblk1 V c 1 t)
    (iblk1 V c 2 t) (iblk1 V c 3 t) (iblk_0 V c t) (iblk_1 V c t) (iblk_2 V c t) (iblk_3 V c t) d

end Cert.StepArr1

end
-- ==== Proof.StepArr1b.lean ====
/-
  The coefficient-renewal step, pipeline 1: the array of renewed coefficients after the run.

  Every grid point writes its coefficient block back, and the block of point `t = 6·b + k` is positions
  `13824·k … 13824·k + 13823` of row `b`; the blocks tile the array, so the array ends holding the renewed coefficient
  at every batch and position.
-/
import proofs.«119537_j3693671875223_2_alg».proof.Proof.StepArr1a

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr1

open Cert.StepBody1

variable (V : (c : Dev nD) → (b : Ref sig .tc) → Buf (Elt Ideal) ((c : Thread nD τ).loc b))

/-- After every point the coefficient output block holds the renewed coefficients of the point's tile. -/
theorem outs_coef (c : Dev nD) (t : Fin cfg1.N) (j : Fin 13824) :
    (outsAt1 V c t.val t.isLt).1 (ix3 0 0 j) = Cnew V c (bat t) (pos t j) := by
  by_cases h0 : t.val % 6 = 0
  · rw [outsAt1_A V c t h0]
    dsimp only
    exact ((out_A_4 c (grid1.coords t) (ms1_0 t) (hs1_0 t) (ms1_1 t) (hs1_1 t) (ms1_2 t) (hs1_2 t) (ms1_3 t) (hs1_3 t)
        (ms1_4 t) (hs1_4 t) (ms1_5 t) (hs1_5 t) ((hcond1_0 t).mpr h0) (iblk1 V c 0 t) (iblk1 V c 1 t) (iblk1 V c 2 t)
        (iblk1 V c 3 t) j).trans (coef_point V c t j))
  · rw [outsAt1_B V c t h0]
    dsimp only
    exact ((out_B_4 c (grid1.coords t) (ms1_0 t) (hs1_0 t) (ms1_1 t) (hs1_1 t) (ms1_2 t) (hs1_2 t) (ms1_3 t) (hs1_3 t)
        (ms1_4 t) (hs1_4 t) (ms1_5 t) (hs1_5 t) (fun h => h0 ((hcond1_0 t).mp h)) (iblk1 V c 0 t) (iblk1 V c 1 t)
        (iblk1 V c 2 t) (iblk1 V c 3 t)
        (outsAt1 V c (t.val - 1) (Nat.lt_of_le_of_lt (Nat.sub_le _ _) t.isLt)).2 j).trans (coef_point V c t j))

/-- The array of renewed coefficients, by its index. -/
def G4 (c : Dev nD) : S4x1x82944.Idx → EReal := fun i => Cnew V c (i 0) (i 2)

/-- What point `t` writes back is its block of the array of renewed coefficients. -/
theorem flushed_4 (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  obtain ⟨e0, e1, e2⟩ := idx_4 t
  funext y
  obtain ⟨a, b, j, rfl⟩ : ∃ (a : Fin 1) (b : Fin 1) (j : Fin 13824), y = ix3 a b j :=
    ⟨y 0, y 1, y 2, @eq_ix3 1 1 13824 y⟩
  obtain rfl : a = 0 := Subsingleton.elim _ _
  obtain rfl : b = 0 := Subsingleton.elim _ _
  show (outsAt1 V c t.val t.isLt).1 (ix3 0 0 j)
    = Cnew V c ((((cfg1.win 4).blk t).view.emb (ix3 0 0 j)) 0) ((((cfg1.win 4).blk t).view.emb (ix3 0 0 j)) 2)
  rw [outs_coef V c t j]
  refine congrArg₂ (Cnew V c) (Fin.ext ?_) (Fin.ext ?_)
  · show t.val / 6 = win1_4.index t (0 : Fin 3) * 1 + 1 * 0
    rw [e0]; omega
  · show 13824 * (t.val % 6) + j.val = win1_4.index t (2 : Fin 3) * 13824 + 1 * j.val
    rw [e2]; omega

/-- An index of the array is in point `t`'s block iff each coordinate is in the block's range on its axis. -/
theorem mem_blk_4 (t : Fin cfg1.N) (i : S4x1x82944.Idx) :
    i ∈ ((cfg1.win 4).blk t).view.set ↔ ∀ a : Fin 3, win1_4.index t a * S1x1x13824.size a ≤ (i a).val
      ∧ (i a).val < win1_4.index t a * S1x1x13824.size a + S1x1x13824.size a := by
  show i ∈ ((View.whole main_v18_0).slice (win1_4.rect t)).set ↔ _
  rw [View.set_slice_whole, Rect.mem_set_unit]
  exact Iff.rfl

/-- Position `n` of row `b` lies in the block of point `6·b + n / 13824`, which writes its block back. -/
theorem cover_4 (i : S4x1x82944.Idx) :
    ∃ t : Fin cfg1.N, (cfg1.win 4).flush t = true ∧ i ∈ ((cfg1.win 4).blk t).view.set := by
  have h0 : (i 0).val < 4 := (i 0).isLt
  have h1 : (i 1).val < 1 := (i 1).isLt
  have h2 : (i 2).val < 82944 := (i 2).isLt
  have hlt : 6 * (i 0).val + (i 2).val / 13824 < cfg1.N := by rw [hN]; omega
  obtain ⟨e0, e1, e2⟩ := idx_4 ⟨6 * (i 0).val + (i 2).val / 13824, hlt⟩
  refine ⟨⟨6 * (i 0).val + (i 2).val / 13824, hlt⟩, flush1_4 _, ?_⟩
  rw [mem_blk_4]
  intro a
  match a with
  | ⟨0, _⟩ =>
    show win1_4.index ⟨6 * (i 0).val + (i 2).val / 13824, hlt⟩ (0 : Fin 3) * 1 ≤ (i 0).val
      ∧ (i 0).val < win1_4.index ⟨6 * (i 0).val + (i 2).val / 13824, hlt⟩ (0 : Fin 3) * 1 + 1
    rw [e0]; show (6 * (i 0).val + (i 2).val / 13824) / 6 * 1 ≤ (i 0).val ∧ (i 0).val < (6 * (i 0).val + (i 2).val / 13824) / 6 * 1 + 1
    omega
  | ⟨1, _⟩ =>
    show win1_4.index ⟨6 * (i 0).val + (i 2).val / 13824, hlt⟩ (1 : Fin 3) * 1 ≤ (i 1).val
      ∧ (i 1).val < win1_4.index ⟨6 * (i 0).val + (i 2).val / 13824, hlt⟩ (1 : Fin 3) * 1 + 1
    rw [e1]; omega
  | ⟨2, _⟩ =>
    show win1_4.index ⟨6 * (i 0).val + (i 2).val / 13824, hlt⟩ (2 : Fin 3) * 13824 ≤ (i 2).val
      ∧ (i 2).val < win1_4.index ⟨6 * (i 0).val + (i 2).val / 13824, hlt⟩ (2 : Fin 3) * 13824 + 13824
    rw [e2]; show (6 * (i 0).val + (i 2).val / 13824) % 6 * 13824 ≤ (i 2).val ∧ (i 2).val < (6 * (i 0).val + (i 2).val / 13824) % 6 * 13824 + 13824
    omega

/-- The array of renewed coefficients after the run. -/
theorem arr_4 (c : Dev nD) : (dat1 V c).arrAt 4 cfg1.N = G4 V c :=
  (dat1 V c).arrAt_eq_of_cover 4 (G4 V c) (fun t _ => flushed_4 V c t) cover_4

end Cert.StepArr1

end
-- ==== Proof.StepArr1.lean ====
/-
  The coefficient-renewal step, pipeline 1: the accumulator array after the run, and the step's two output arrays in
  the words of the mathematics.

  The accumulator block of batch `b` is set to zero at the batch's first point and increased at each of its six points
  by that point's tile's share of `∑ n, X b d n · C' b n` (`C'` the renewed coefficients); it is written back after the
  sixth, when it holds `0 +` the six shares added in order, which is the whole sum.
-/
import proofs.«119537_j3693671875223_2_alg».proof.Proof.StepArr1b

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr1

open Cert.StepBody1

variable (V : (c : Dev nD) → (b : Ref sig .tc) → Buf (Elt Ideal) ((c : Thread nD τ).loc b))

/-- What point `n` adds to feature `d` of the accumulator (nothing past the grid: a total function of `n`). -/
def addend (c : Dev nD) (d : Fin 160) (n : ℕ) : EReal :=
  if h : n < cfg1.N then Cert.StepMath.tileSum (Xof V c) (Cnew V c) (bat ⟨n, h⟩) d (n % 6) else 0

/-- At a batch's first point the accumulator block is zero plus the point's addend. -/
theorem acc_first (c : Dev nD) (d : Fin 160) (n : ℕ) (h : n < cfg1.N) (h0 : n % 6 = 0) :
    (outsAt1 V c n h).2 (ix3 0 d 0) = 0 + addend V c d n := by
  rw [outsAt1_A V c ⟨n, h⟩ h0]
  dsimp only
  refine (out_A_5 c (grid1.coords ⟨n, h⟩) (ms1_0 ⟨n, h⟩) (hs1_0 ⟨n, h⟩) (ms1_1 ⟨n, h⟩) (hs1_1 ⟨n, h⟩) (ms1_2 ⟨n, h⟩)
    (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩)
    ((hcond1_0 ⟨n, h⟩).mpr h0) (iblk1 V c 0 ⟨n, h⟩) (iblk1 V c 1 ⟨n, h⟩) (iblk1 V c 2 ⟨n, h⟩) (iblk1 V c 3 ⟨n, h⟩) d).trans ?_
  rw [contrib_point V c ⟨n, h⟩ d]
  unfold addend
  rw [dif_pos h]

/-- At a later point it is what the point before left plus the point's addend. -/
theorem acc_step (c : Dev nD) (d : Fin 160) (n : ℕ) (h : n + 1 < cfg1.N) (h0 : ¬(n + 1) % 6 = 0) :
    (outsAt1 V c (n + 1) h).2 (ix3 0 d 0)
      = (outsAt1 V c n (Nat.lt_of_succ_lt h)).2 (ix3 0 d 0) + addend V c d (n + 1) := by
  rw [outsAt1_B V c ⟨n + 1, h⟩ h0]
  dsimp only
  refine (out_B_5 c (grid1.coords ⟨n + 1, h⟩) (ms1_0 ⟨n + 1, h⟩) (hs1_0 ⟨n + 1, h⟩) (ms1_1 ⟨n + 1, h⟩) (hs1_1 ⟨n + 1, h⟩)
    (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
    (ms1_5 ⟨n + 1, h⟩) (hs1_5 ⟨n + 1, h⟩) (fun hc => h0 ((hcond1_0 ⟨n + 1, h⟩).mp hc)) (iblk1 V c 0 ⟨n + 1, h⟩)
    (iblk1 V c 1 ⟨n + 1, h⟩) (iblk1 V c 2 ⟨n + 1, h⟩) (iblk1 V c 3 ⟨n + 1, h⟩)
    (outsAt1 V c ((⟨n + 1, h⟩ : Fin cfg1.N).val - 1) (Nat.lt_of_le_of_lt (Nat.sub_le _ _) (⟨n + 1, h⟩ : Fin cfg1.N).isLt)).2 d).trans ?_
  rw [contrib_point V c ⟨n + 1, h⟩ d]
  unfold addend
  rw [dif_pos h]
  rfl

/-- At the sixth point of a batch the accumulator block holds the data's projection on the renewed coefficients. -/
theorem acc_last (c : Dev nD) (d : Fin 160) (t : Fin cfg1.N) (h5 : t.val % 6 = 5) :
    (outsAt1 V c t.val t.isLt).2 (ix3 0 d 0) = Cert.Nmf.projC (Xof V c) (Cnew V c) (bat t) d := by
  have hN' : cfg1.N = 24 := hN
  have ht := t.isLt
  rw [Cert.StepMath.running_sum_last (fun n h => (outsAt1 V c n h).2 (ix3 0 d 0)) (addend V c d)
    (acc_first V c d) (acc_step V c d) t.val t.isLt h5, Cert.StepMath.projC_eq_tiles]
  refine Finset.sum_congr rfl fun k hk => ?_
  have hk6 : k < 6 := Finset.mem_range.mp hk
  have hlt : 6 * (t.val / 6) + k < cfg1.N := by omega
  unfold addend
  rw [dif_pos hlt]
  have hb : bat (⟨6 * (t.val / 6) + k, hlt⟩ : Fin cfg1.N) = bat t := Fin.ext (by show (6 * (t.val / 6) + k) / 6 = t.val / 6; omega)
  rw [hb]
  exact congrArg (Cert.StepMath.tileSum (Xof V c) (Cnew V c) (bat t) d) (by omega)

/-- The accumulator array, by its index. -/
def G5 (c : Dev nD) : S4x160x1.Idx → EReal := fun i => Cert.Nmf.projC (Xof V c) (Cnew V c) (i 0) (i 1)

/-- A block of the accumulator array, read at an index of the block, is the array at the index's place in it. -/
theorem read_blk_5 (t : Fin cfg1.N) (G : S4x160x1.Idx → EReal) (y : S1x160x1.Idx) :
    ((cfg1.win 5).blk t).view.read (Elt Ideal) G y = G (((cfg1.win 5).blk t).view.emb y) := rfl

/-- What a batch's sixth point writes back is its block of the array of projections. -/
theorem flushed_5 (c : Dev nD) (t : Fin cfg1.N) (hf : (cfg1.win 5).flush t = true) :
    (dat1 V c).flushed 5 t = ((cfg1.win 5).blk t).view.read (Elt Ideal) (G5 V c) := by
  have h5 : t.val % 6 = 5 := (flush1_5 t).mp hf
  show (cfg1.win 5).cut (grid1.coords t) ((dat1 V c).after 5 t) = _
  rw [after1_5]
  obtain ⟨e0, e1, e2⟩ := idx_5 t
  funext y
  obtain ⟨a, d, b, rfl⟩ : ∃ (a : Fin 1) (d : Fin 160) (b : Fin 1), y = ix3 a d b :=
    ⟨y 0, y 1, y 2, @eq_ix3 1 160 1 y⟩
  obtain rfl : a = 0 := Subsingleton.elim _ _
  obtain rfl : b = 0 := Subsingleton.elim _ _
  refine Eq.trans ?_ (read_blk_5 t (G5 V c) (ix3 0 d 0)).symm
  show (outsAt1 V c t.val t.isLt).2 (ix3 0 d 0) = G5 V c (((cfg1.win 5).blk t).view.emb (ix3 0 d 0))
  rw [acc_last V c d t h5]
  unfold G5
  refine congrArg₂ (Cert.Nmf.projC (Xof V c) (Cnew V c)) (Fin.ext ?_) (Fin.ext ?_)
  · show t.val / 6 = win1_5.index t (0 : Fin 3) * 1 + 1 * 0
    rw [e0]; omega
  · show d.val = win1_5.index t (1 : Fin 3) * 160 + 1 * d.val
    rw [e1]; omega

/-- An index of the array is in point `t`'s block iff each coordinate is in the block's range on its axis. -/
theorem mem_blk_5 (t : Fin cfg1.N) (i : S4x160x1.Idx) :
    i ∈ ((cfg1.win 5).blk t).view.set ↔ ∀ a : Fin 3, win1_5.index t a * S1x160x1.size a ≤ (i a).val
      ∧ (i a).val < win1_5.index t a * S1x160x1.size a + S1x160x1.size a := by
  show i ∈ ((View.whole main_v18_1).slice (win1_5.rect t)).set ↔ _
  rw [View.set_slice_whole, Rect.mem_set_unit]
  exact Iff.rfl

/-- Row `b` of the accumulator array lies in the block of point `6·b + 5`, the batch's sixth, which writes it back. -/
theorem cover_5 (i : S4x160x1.Idx) :
    ∃ t : Fin cfg1.N, (cfg1.win 5).flush t = true ∧ i ∈ ((cfg1.win 5).blk t).view.set := by
  have h0 : (i 0).val < 4 := (i 0).isLt
  have h1 : (i 1).val < 160 := (i 1).isLt
  have h2 : (i 2).val < 1 := (i 2).isLt
  have hlt : 6 * (i 0).val + 5 < cfg1.N := by rw [hN]; omega
  obtain ⟨e0, e1, e2⟩ := idx_5 ⟨6 * (i 0).val + 5, hlt⟩
  refine ⟨⟨6 * (i 0).val + 5, hlt⟩, (flush1_5 _).mpr (by show (6 * (i 0).val + 5) % 6 = 5; omega), ?_⟩
  rw [mem_blk_5]
  intro a
  match a with
  | ⟨0, _⟩ =>
    show win1_5.index ⟨6 * (i 0).val + 5, hlt⟩ (0 : Fin 3) * 1 ≤ (i 0).val
      ∧ (i 0).val < win1_5.index ⟨6 * (i 0).val + 5, hlt⟩ (0 : Fin 3) * 1 + 1
    rw [e0]; show (6 * (i 0).val + 5) / 6 * 1 ≤ (i 0).val ∧ (i 0).val < (6 * (i 0).val + 5) / 6 * 1 + 1
    omega
  | ⟨1, _⟩ =>
    show win1_5.index ⟨6 * (i 0).val + 5, hlt⟩ (1 : Fin 3) * 160 ≤ (i 1).val
      ∧ (i 1).val < win1_5.index ⟨6 * (i 0).val + 5, hlt⟩ (1 : Fin 3) * 160 + 160
    rw [e1]; omega
  | ⟨2, _⟩ =>
    show win1_5.index ⟨6 * (i 0).val + 5, hlt⟩ (2 : Fin 3) * 1 ≤ (i 2).val
      ∧ (i 2).val < win1_5.index ⟨6 * (i 0).val + 5, hlt⟩ (2 : Fin 3) * 1 + 1
    rw [e2]; omega

/-- The accumulator array after the run. -/
theorem arr_5 (c : Dev nD) : (dat1 V c).arrAt 5 cfg1.N = G5 V c :=
  (dat1 V c).arrAt_eq_of_cover 5 (G5 V c) (flushed_5 V c) cover_5

/-! ## The step's two output arrays -/

/-- After the run the coefficient array holds, at batch `b` and position `n`, the renewed coefficient. -/
theorem coef_final (c : Dev nD) (b : Fin 4) (n : Fin 82944) :
    ((dat1 (F := Ideal) V c).arrAt 4 cfg1.N : S4x1x82944.Idx → EReal) (ix3 b 0 n)
      = Cert.Nmf.coefUpd (Xof V c) (Bof V c) (Tof V c) (Cof V c) b n :=
  congrFun (arr_4 V c) (ix3 b 0 n)

/-- After the run the accumulator array holds, at batch `b` and feature `d`, the data's projection on the renewed
    coefficients. -/
theorem numb_final (c : Dev nD) (b : Fin 4) (d : Fin 160) :
    ((dat1 (F := Ideal) V c).arrAt 5 cfg1.N : S4x160x1.Idx → EReal) (ix3 b d 0)
      = Cert.Nmf.projC (Xof V c) (Cert.Nmf.coefUpd (Xof V c) (Bof V c) (Tof V c) (Cof V c)) b d :=
  congrFun (arr_5 V c) (ix3 b d 0)

end Cert.StepArr1

end
-- ==== Proof.StepBody2.lean ====
/-
  One grid point of the coefficient-renewal kernel, as mathematics.  The point holds a block of the data
  `x0 (0, d, n)` (160 features, 13824 positions), the basis `x1 (0, d, 0)`, its squared length `x2 (0, 0, 0)` and the old
  coefficients `x3 (0, 0, n)`.  It leaves the renewed coefficients
      x3 n · (∑ d, x0 d n · x1 d) / (x3 n · x2 + ε)
  in one output block, and adds `∑ n, x0 d n · (renewed coefficient n)` to the accumulator block — which it first sets
  to zero when the point is the first of its batch.
-/
import proofs.«119537_j3693671875223_2_alg».proof.Proof.Gen.KernelIdeal.Frame
import proofs.«119537_j3693671875223_2_alg».proof.Proof.Spec
import proofs.«119537_j3693671875223_2_alg».proof.Proof.StepPay
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Tactic
open Cert.KernelIdeal Cert.KernelIdeal.Gen

namespace Cert.StepBody2

/-- The renewed coefficient at position `n` of the block. -/
def coefBlk (x0 : Vec Ideal S1x160x13824 .f32) (x1 : Vec Ideal S1x160x1 .f32) (x2 : Vec Ideal S1x1x1 .f32) (x3 : Vec Ideal S1x1x13824 .f32) (n : Fin 13824) : EReal :=
  Ideal.div (x3 (ix3 0 0 n) * ∑ d : Fin 160, x0 (ix3 0 d n) * x1 (ix3 0 d 0)) (x3 (ix3 0 0 n) * x2 (ix3 0 0 0) + Cert.Nmf.eps)

/-- What the block adds to feature `d` of the accumulator. -/
def contribBlk (x0 : Vec Ideal S1x160x13824 .f32) (x1 : Vec Ideal S1x160x1 .f32) (x2 : Vec Ideal S1x1x1 .f32) (x3 : Vec Ideal S1x1x13824 .f32) (d : Fin 160) : EReal :=
  ∑ n : Fin 13824, x0 (ix3 0 d n) * coefBlk x0 x1 x2 x3 n

/-- The zero offsets of a whole-block access, however they are spelt. -/
theorem hz : (![0, 0, 0] : Fin 3 → Nat) = fun _ => 0 := funext fun a => by fin_cases a <;> rfl

/-- The renewed coefficient is the kernel's coefficient vector read at `(0, n)`. -/
theorem coefBlk_eq (x0 : Vec Ideal S1x160x13824 .f32) (x1 : Vec Ideal S1x160x1 .f32) (x2 : Vec Ideal S1x1x1 .f32) (x3 : Vec Ideal S1x1x13824 .f32) (n : Fin 13824) :
    coefBlk x0 x1 x2 x3 n = Cert.StepPay.coefVec x0 x1 x2 x3 (ix2 (0 : Fin 1) n) := by
  unfold coefBlk Cert.Nmf.eps
  exact (Cert.StepPay.coefVec_apply x0 x1 x2 x3 n).symm

/-- The stored coefficient block read at `(0, 0, n)`. -/
theorem pay5_apply (x0 : Vec Ideal S1x160x13824 .f32) (x1 : Vec Ideal S1x160x1 .f32) (x2 : Vec Ideal S1x1x1 .f32) (x3 : Vec Ideal S1x1x13824 .f32) (n : Fin 13824) :
    k2_pay5 (F := Ideal) x0 x1 x2 x3 (ix3 0 0 n) = coefBlk x0 x1 x2 x3 n := by
  rw [coefBlk_eq]
  exact shapeCast_ab_1ab_apply (Cert.StepPay.coefVec x0 x1 x2 x3) _ 0 0 n

/-- The stored accumulator block read at `(0, d, 0)`, from the accumulator `acc` the point reads. -/
theorem pay1_apply (x0 : Vec Ideal S1x160x13824 .f32) (x1 : Vec Ideal S1x160x1 .f32) (x2 : Vec Ideal S1x1x1 .f32) (x3 : Vec Ideal S1x1x13824 .f32)
    (acc : Vec Ideal S1x160x1 .f32) (d : Fin 160) :
    k2_pay1 (F := Ideal) (k2_pay6 x0 x1 x2 x3 acc) (ix3 0 d 0) = acc (ix3 0 d 0) + contribBlk x0 x1 x2 x3 d := by
  unfold contribBlk
  simp only [coefBlk_eq]
  refine (shapeCast_ab_1ab_apply (Cert.StepPay.accVec x0 x1 x2 x3 acc) _ 0 d 0).trans ?_
  exact Cert.StepPay.accVec_apply x0 x1 x2 x3 acc d

/-- The zero block read at any index. -/
theorem pay2_apply (y : S1x160x1.Idx) : k2_pay2 (F := Ideal) y = 0 := Ideal.ofBits_zero_f32

/-- At a batch's first point the coefficient output block holds the renewed coefficients. -/
theorem out_A_4 (c : Dev nD) (i : grid2.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond2_0 i)
    (x0 : Vec Ideal S1x160x13824 .f32) (x1 : Vec Ideal S1x160x1 .f32) (x2 : Vec Ideal S1x1x1 .f32) (x3 : Vec Ideal S1x1x13824 .f32) (n : Fin 13824) :
    out2_A_4 (F := Ideal) c i a2 h2 a3 h3 a4 h4 a5 h5 a6 h6 a7 h7 hc x0 x1 x2 x3 (ix3 0 0 n) = coefBlk x0 x1 x2 x3 n := by
  have hv : out2_A_4 (F := Ideal) c i a2 h2 a3 h3 a4 h4 a5 h5 a6 h6 a7 h7 hc x0 x1 x2 x3 = k2_pay5 x0 x1 x2 x3 := by
    unfold out2_A_4
    rw [View.read_writes_eq_canon _ _ _ (cover2_A_4 c i a2 h2 a3 h3 a4 h4 a5 h5 a6 h6 a7 h7 hc x0 x1 x2 x3)]
    unfold kernelRun2_A
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At any later point too. -/
theorem out_B_4 (c : Dev nD) (i : grid2.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond2_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (n : Fin 13824) :
    out2_B_4 (F := Ideal) c i a2 h2 a3 h3 a4 h4 a5 h5 a6 h6 a7 h7 hc x0 x1 x2 x3 xo5 (ix3 0 0 n) = coefBlk x0 x1 x2 x3 n := by
  have hv : out2_B_4 (F := Ideal) c i a2 h2 a3 h3 a4 h4 a5 h5 a6 h6 a7 h7 hc x0 x1 x2 x3 xo5 = k2_pay5 x0 x1 x2 x3 := by
    unfold out2_B_4
    rw [View.read_writes_eq_canon _ _ _ (cover2_B_4 c i a2 h2 a3 h3 a4 h4 a5 h5 a6 h6 a7 h7 hc x0 x1 x2 x3 xo5)]
    unfold kernelRun2_B
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At a batch's first point the accumulator block is zero plus the block's contribution. -/
theorem out_A_5 (c : Dev nD) (i : grid2.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond2_0 i)
    (x0 : Vec Ideal S1x160x13824 .f32) (x1 : Vec Ideal S1x160x1 .f32) (x2 : Vec Ideal S1x1x1 .f32) (x3 : Vec Ideal S1x1x13824 .f32) (d : Fin 160) :
    out2_A_5 (F := Ideal) c i a2 h2 a3 h3 a4 h4 a5 h5 a6 h6 a7 h7 hc x0 x1 x2 x3 (ix3 0 d 0) = 0 + contribBlk x0 x1 x2 x3 d := by
  have hv : out2_A_5 (F := Ideal) c i a2 h2 a3 h3 a4 h4 a5 h5 a6 h6 a7 h7 hc x0 x1 x2 x3 = k2_pay1 (k2_pay6 x0 x1 x2 x3 (k2_pay2 (F := Ideal))) := by
    unfold out2_A_5
    rw [View.read_writes_eq_canon _ _ _ (cover2_A_5 c i a2 h2 a3 h3 a4 h4 a5 h5 a6 h6 a7 h7 hc x0 x1 x2 x3)]
    unfold kernelRun2_A
    dsimp only
    sl_unfold_words
    rw [View.canon_cons_unit_zero (S := S1x160x1) hz, View.readCov_unit_zero (S := S1x160x1) _ hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv, pay1_apply, pay2_apply]

/-- At a later point it is what the point before left, plus the block's contribution. -/
theorem out_B_5 (c : Dev nD) (i : grid2.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond2_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (d : Fin 160) :
    out2_B_5 (F := Ideal) c i a2 h2 a3 h3 a4 h4 a5 h5 a6 h6 a7 h7 hc x0 x1 x2 x3 xo5 (ix3 0 d 0) = xo5 (ix3 0 d 0) + contribBlk x0 x1 x2 x3 d := by
  have hv : out2_B_5 (F := Ideal) c i a2 h2 a3 h3 a4 h4 a5 h5 a6 h6 a7 h7 hc x0 x1 x2 x3 xo5 = k2_pay1 (k2_pay6 x0 x1 x2 x3 xo5) := by
    unfold out2_B_5
    rw [View.read_writes_eq_canon _ _ _ (cover2_B_5 c i a2 h2 a3 h3 a4 h4 a5 h5 a6 h6 a7 h7 hc x0 x1 x2 x3 xo5)]
    unfold kernelRun2_B
    dsimp only
    sl_unfold_words
    rw [View.canon_unit_zero hz]
    simp only [View.readAt_eq_ld, h2.read_unread, h3.read_unread, h4.read_unread, h5.read_unread, h7.read_unread, View.ld_unit_zero (S := S1x160x13824) hz, View.ld_unit_zero (S := S1x160x1) hz, View.ld_unit_zero (S := S1x1x1) hz, View.ld_unit_zero (S := S1x1x13824) hz]
  rw [hv]
  exact pay1_apply x0 x1 x2 x3 xo5 d

end Cert.StepBody2

end
-- ==== Proof.StepArr2a.lean ====
/-
  The coefficient-renewal step, pipeline 2: a grid point's four input blocks read at explicit coordinates off the
  arrays the region finds, and what the point's body makes of them, in the words of the mathematics.

  Point `t = 6·b + k` (`b < 4` batches, `k < 6` tiles of 13824 positions) holds the data's entries
  `(b, d, 13824·k + j)`, the basis `(b, d)`, its squared length `(b)` and the old coefficients `(b, 13824·k + j)`.
  So the coefficients it renews are those of the positions of tile `k` of batch `b`, and what it adds to the
  accumulator is tile `k`'s share of the data's projection on the renewed coefficients.
-/
import proofs.«119537_j3693671875223_2_alg».proof.Proof.StepBody2
import proofs.«119537_j3693671875223_2_alg».proof.Proof.StepMath

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr2

open Cert.StepBody2

variable (V : (c : Dev nD) → (b : Ref sig .tc) → Buf (Elt Ideal) ((c : Thread nD τ).loc b))

/-- The data the region finds, by batch, feature and position. -/
def Xof (c : Dev nD) : Fin 4 → Fin 160 → Fin 82944 → EReal :=
  fun b d n => (V c (Pipeline.arrRef spec2 0) : S4x160x82944.Idx → EReal) (ix3 b d n)
/-- The basis the region finds, by batch and feature. -/
def Bof (c : Dev nD) : Fin 4 → Fin 160 → EReal :=
  fun b d => (V c (Pipeline.arrRef spec2 1) : S4x160x1.Idx → EReal) (ix3 b d 0)
/-- The basis' squared length the region finds, by batch. -/
def Tof (c : Dev nD) : Fin 4 → EReal :=
  fun b => (V c (Pipeline.arrRef spec2 2) : S4x1x1.Idx → EReal) (ix3 b 0 0)
/-- The old coefficients the region finds, by batch and position. -/
def Cof (c : Dev nD) : Fin 4 → Fin 82944 → EReal :=
  fun b n => (V c (Pipeline.arrRef spec2 3) : S4x1x82944.Idx → EReal) (ix3 b 0 n)

/-- The grid has 24 points. -/
theorem hN : cfg2.N = 24 := N_2

/-- The batch of point `t`. -/
def bat (t : Fin cfg2.N) : Fin 4 := ⟨t.val / 6, by have := t.isLt; have := hN; omega⟩
/-- Position `j` of point `t`'s tile, as a position of the whole row. -/
def pos (t : Fin cfg2.N) (j : Fin 13824) : Fin 82944 := ⟨13824 * (t.val % 6) + j.val, by omega⟩

/-! ## The windows' block indices, decided over the grid -/

theorem idx_0 : ∀ t : Fin cfg2.N, win2_0.index t (0 : Fin 3) = t.val / 6 ∧ win2_0.index t (1 : Fin 3) = 0
    ∧ win2_0.index t (2 : Fin 3) = t.val % 6 :=
  (by decide +kernel : ∀ t : Fin grid2.N, _)
theorem idx_1 : ∀ t : Fin cfg2.N, win2_1.index t (0 : Fin 3) = t.val / 6 ∧ win2_1.index t (1 : Fin 3) = 0
    ∧ win2_1.index t (2 : Fin 3) = 0 :=
  (by decide +kernel : ∀ t : Fin grid2.N, _)
theorem idx_2 : ∀ t : Fin cfg2.N, win2_2.index t (0 : Fin 3) = t.val / 6 ∧ win2_2.index t (1 : Fin 3) = 0
    ∧ win2_2.index t (2 : Fin 3) = 0 :=
  (by decide +kernel : ∀ t : Fin grid2.N, _)
theorem idx_3 : ∀ t : Fin cfg2.N, win2_3.index t (0 : Fin 3) = t.val / 6 ∧ win2_3.index t (1 : Fin 3) = 0
    ∧ win2_3.index t (2 : Fin 3) = t.val % 6 :=
  (by decide +kernel : ∀ t : Fin grid2.N, _)
theorem idx_4 : ∀ t : Fin cfg2.N, win2_4.index t (0 : Fin 3) = t.val / 6 ∧ win2_4.index t (1 : Fin 3) = 0
    ∧ win2_4.index t (2 : Fin 3) = t.val % 6 :=
  (by decide +kernel : ∀ t : Fin grid2.N, _)
theorem idx_5 : ∀ t : Fin cfg2.N, win2_5.index t (0 : Fin 3) = t.val / 6 ∧ win2_5.index t (1 : Fin 3) = 0
    ∧ win2_5.index t (2 : Fin 3) = 0 :=
  (by decide +kernel : ∀ t : Fin grid2.N, _)

/-! ## The input blocks at explicit coordinates

An element of a block sits in the array, on each axis, at the block's index times the block's size plus its own coordinate. -/

/-- The data block of point `t`: entry `(d, j)` is the data at batch `t / 6`, feature `d`, position `13824·(t % 6) + j`. -/
theorem iblk_0 (c : Dev nD) (t : Fin cfg2.N) (d : Fin 160) (j : Fin 13824) :
    (iblk2 V c 0 t : Vec Ideal S1x160x13824 .f32) (ix3 0 d j) = Xof V c (bat t) d (pos t j) := by
  obtain ⟨e0, e1, e2⟩ := idx_0 t
  unfold iblk2 Xof
  rw [View.read_apply]
  show V c (Pipeline.arrRef spec2 0) (((cfg2.win 0).blk t).view.emb (ix3 0 d j)) = V c (Pipeline.arrRef spec2 0) (ix3 (bat t) d (pos t j))
  refine congrArg (V c (Pipeline.arrRef spec2 0)) (funext fun a => Fin.ext ?_)
  match a with
  | ⟨0, _⟩ => show win2_0.index t (0 : Fin 3) * 1 + 1 * 0 = t.val / 6; rw [e0]; omega
  | ⟨1, _⟩ => show win2_0.index t (1 : Fin 3) * 160 + 1 * d.val = d.val; rw [e1]; omega
  | ⟨2, _⟩ => show win2_0.index t (2 : Fin 3) * 13824 + 1 * j.val = 13824 * (t.val % 6) + j.val; rw [e2]; omega

/-- The basis block of point `t`: entry `d` is the basis at batch `t / 6`, feature `d`. -/
theorem iblk_1 (c : Dev nD) (t : Fin cfg2.N) (d : Fin 160) :
    (iblk2 V c 1 t : Vec Ideal S1x160x1 .f32) (ix3 0 d 0) = Bof V c (bat t) d := by
  obtain ⟨e0, e1, e2⟩ := idx_1 t
  unfold iblk2 Bof
  rw [View.read_apply]
  show V c (Pipeline.arrRef spec2 1) (((cfg2.win 1).blk t).view.emb (ix3 0 d 0)) = V c (Pipeline.arrRef spec2 1) (ix3 (bat t) d 0)
  refine congrArg (V c (Pipeline.arrRef spec2 1)) (funext fun a => Fin.ext ?_)
  match a with
  | ⟨0, _⟩ => show win2_1.index t (0 : Fin 3) * 1 + 1 * 0 = t.val / 6; rw [e0]; omega
  | ⟨1, _⟩ => show win2_1.index t (1 : Fin 3) * 160 + 1 * d.val = d.val; rw [e1]; omega
  | ⟨2, _⟩ => show win2_1.index t (2 : Fin 3) * 1 + 1 * 0 = 0; rw [e2]

/-- The squared-length block of point `t` is the squared length at batch `t / 6`. -/
theorem iblk_2 (c : Dev nD) (t : Fin cfg2.N) :
    (iblk2 V c 2 t : Vec Ideal S1x1x1 .f32) (ix3 0 0 0) = Tof V c (bat t) := by
  obtain ⟨e0, e1, e2⟩ := idx_2 t
  unfold iblk2 Tof
  rw [View.read_apply]
  show V c (Pipeline.arrRef spec2 2) (((cfg2.win 2).blk t).view.emb (ix3 0 0 0)) = V c (Pipeline.arrRef spec2 2) (ix3 (bat t) 0 0)
  refine congrArg (V c (Pipeline.arrRef spec2 2)) (funext fun a => Fin.ext ?_)
  match a with
  | ⟨0, _⟩ => show win2_2.index t (0 : Fin 3) * 1 + 1 * 0 = t.val / 6; rw [e0]; omega
  | ⟨1, _⟩ => show win2_2.index t (1 : Fin 3) * 1 + 1 * 0 = 0; rw [e1]
  | ⟨2, _⟩ => show win2_2.index t (2 : Fin 3) * 1 + 1 * 0 = 0; rw [e2]

/-- The old-coefficient block of point `t`: entry `j` is the old coefficient at batch `t / 6`, position `13824·(t % 6) + j`. -/
theorem iblk_3 (c : Dev nD) (t : Fin cfg2.N) (j : Fin 13824) :
    (iblk2 V c 3 t : Vec Ideal S1x1x13824 .f32) (ix3 0 0 j) = Cof V c (bat t) (pos t j) := by
  obtain ⟨e0, e1, e2⟩ := idx_3 t
  unfold iblk2 Cof
  rw [View.read_apply]
  show V c (Pipeline.arrRef spec2 3) (((cfg2.win 3).blk t).view.emb (ix3 0 0 j)) = V c (Pipeline.arrRef spec2 3) (ix3 (bat t) 0 (pos t j))
  refine congrArg (V c (Pipeline.arrRef spec2 3)) (funext fun a => Fin.ext ?_)
  match a with
  | ⟨0, _⟩ => show win2_3.index t (0 : Fin 3) * 1 + 1 * 0 = t.val / 6; rw [e0]; omega
  | ⟨1, _⟩ => show win2_3.index t (1 : Fin 3) * 1 + 1 * 0 = 0; rw [e1]
  | ⟨2, _⟩ => show win2_3.index t (2 : Fin 3) * 13824 + 1 * j.val = 13824 * (t.val % 6) + j.val; rw [e2]; omega

/-! ## What a point computes, over blocks given by their entries -/

/-- Blocks whose entries are those of tile `k` of batch `b` renew the coefficients of that tile's positions. -/
theorem coefBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (n : Fin 13824) :
    coefBlk x0 x1 x2 x3 n = Cert.Nmf.coefUpd X B T C b (p n) := by
  unfold coefBlk Cert.Nmf.coefUpd Cert.Nmf.projB
  rw [h3 n, h2]
  refine congrArg (fun z => Ideal.div (C b (p n) * z) (C b (p n) * T b + Cert.Nmf.eps)) ?_
  exact Finset.sum_congr rfl fun d _ => by rw [h0 d n, h1 d]

/-- And add to the accumulator that tile's part of the data's projection on the renewed coefficients. -/
theorem contribBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (d : Fin 160) :
    contribBlk x0 x1 x2 x3 d = ∑ j : Fin 13824, X b d (p j) * Cert.Nmf.coefUpd X B T C b (p j) := by
  unfold contribBlk
  exact Finset.sum_congr rfl fun j _ => by rw [h0 d j, coefBlk_tile X B T C b p x0 x1 x2 x3 h0 h1 h2 h3 j]

/-- The renewed coefficients, as the mathematics names them from the arrays the region finds. -/
def Cnew (c : Dev nD) : Fin 4 → Fin 82944 → EReal :=
  Cert.Nmf.coefUpd (Xof V c) (Bof V c) (Tof V c) (Cof V c)

/-- Point `t`'s blocks renew the coefficients of its tile. -/
theorem coef_point (c : Dev nD) (t : Fin cfg2.N) (j : Fin 13824) :
    coefBlk (iblk2 V c 0 t) (iblk2 V c 1 t) (iblk2 V c 2 t) (iblk2 V c 3 t) j = Cnew V c (bat t) (pos t j) :=
  coefBlk_tile (Xof V c) (Bof V c) (Tof V c) (Cof V c) (bat t) (pos t) (iblk2 V c 0 t) (iblk2 V c 1 t)
    (iblk2 V c 2 t) (iblk2 V c 3 t) (iblk_0 V c t) (iblk_1 V c t) (iblk_2 V c t) (iblk_3 V c t) j

/-- Point `t`'s blocks add its tile's share of the projection. -/
theorem contrib_point (c : Dev nD) (t : Fin cfg2.N) (d : Fin 160) :
    contribBlk (iblk2 V c 0 t) (iblk2 V c 1 t) (iblk2 V c 2 t) (iblk2 V c 3 t) d
      = Cert.StepMath.tileSum (Xof V c) (Cnew V c) (bat t) d (t.val % 6) := by
  rw [Cert.StepMath.tileSum_eq _ _ _ _ _ (Nat.mod_lt _ (by norm_num))]
  exact contribBlk_tile (Xof V c) (Bof V c) (Tof V c) (Cof V c) (bat t) (pos t) (iblk2 V c 0 t) (iblk2 V c 1 t)
    (iblk2 V c 2 t) (iblk2 V c 3 t) (iblk_0 V c t) (iblk_1 V c t) (iblk_2 V c t) (iblk_3 V c t) d

end Cert.StepArr2

end
-- ==== Proof.StepArr2b.lean ====
/-
  The coefficient-renewal step, pipeline 2: the array of renewed coefficients after the run.

  Every grid point writes its coefficient block back, and the block of point `t = 6·b + k` is positions
  `13824·k … 13824·k + 13823` of row `b`; the blocks tile the array, so the array ends holding the renewed coefficient
  at every batch and position.
-/
import proofs.«119537_j3693671875223_2_alg».proof.Proof.StepArr2a

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr2

open Cert.StepBody2

variable (V : (c : Dev nD) → (b : Ref sig .tc) → Buf (Elt Ideal) ((c : Thread nD τ).loc b))

/-- After every point the coefficient output block holds the renewed coefficients of the point's tile. -/
theorem outs_coef (c : Dev nD) (t : Fin cfg2.N) (j : Fin 13824) :
    (outsAt2 V c t.val t.isLt).1 (ix3 0 0 j) = Cnew V c (bat t) (pos t j) := by
  by_cases h0 : t.val % 6 = 0
  · rw [outsAt2_A V c t h0]
    dsimp only
    exact ((out_A_4 c (grid2.coords t) (ms2_0 t) (hs2_0 t) (ms2_1 t) (hs2_1 t) (ms2_2 t) (hs2_2 t) (ms2_3 t) (hs2_3 t)
        (ms2_4 t) (hs2_4 t) (ms2_5 t) (hs2_5 t) ((hcond2_0 t).mpr h0) (iblk2 V c 0 t) (iblk2 V c 1 t) (iblk2 V c 2 t)
        (iblk2 V c 3 t) j).trans (coef_point V c t j))
  · rw [outsAt2_B V c t h0]
    dsimp only
    exact ((out_B_4 c (grid2.coords t) (ms2_0 t) (hs2_0 t) (ms2_1 t) (hs2_1 t) (ms2_2 t) (hs2_2 t) (ms2_3 t) (hs2_3 t)
        (ms2_4 t) (hs2_4 t) (ms2_5 t) (hs2_5 t) (fun h => h0 ((hcond2_0 t).mp h)) (iblk2 V c 0 t) (iblk2 V c 1 t)
        (iblk2 V c 2 t) (iblk2 V c 3 t)
        (outsAt2 V c (t.val - 1) (Nat.lt_of_le_of_lt (Nat.sub_le _ _) t.isLt)).2 j).trans (coef_point V c t j))

/-- The array of renewed coefficients, by its index. -/
def G4 (c : Dev nD) : S4x1x82944.Idx → EReal := fun i => Cnew V c (i 0) (i 2)

/-- What point `t` writes back is its block of the array of renewed coefficients. -/
theorem flushed_4 (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  obtain ⟨e0, e1, e2⟩ := idx_4 t
  funext y
  obtain ⟨a, b, j, rfl⟩ : ∃ (a : Fin 1) (b : Fin 1) (j : Fin 13824), y = ix3 a b j :=
    ⟨y 0, y 1, y 2, @eq_ix3 1 1 13824 y⟩
  obtain rfl : a = 0 := Subsingleton.elim _ _
  obtain rfl : b = 0 := Subsingleton.elim _ _
  show (outsAt2 V c t.val t.isLt).1 (ix3 0 0 j)
    = Cnew V c ((((cfg2.win 4).blk t).view.emb (ix3 0 0 j)) 0) ((((cfg2.win 4).blk t).view.emb (ix3 0 0 j)) 2)
  rw [outs_coef V c t j]
  refine congrArg₂ (Cnew V c) (Fin.ext ?_) (Fin.ext ?_)
  · show t.val / 6 = win2_4.index t (0 : Fin 3) * 1 + 1 * 0
    rw [e0]; omega
  · show 13824 * (t.val % 6) + j.val = win2_4.index t (2 : Fin 3) * 13824 + 1 * j.val
    rw [e2]; omega

/-- An index of the array is in point `t`'s block iff each coordinate is in the block's range on its axis. -/
theorem mem_blk_4 (t : Fin cfg2.N) (i : S4x1x82944.Idx) :
    i ∈ ((cfg2.win 4).blk t).view.set ↔ ∀ a : Fin 3, win2_4.index t a * S1x1x13824.size a ≤ (i a).val
      ∧ (i a).val < win2_4.index t a * S1x1x13824.size a + S1x1x13824.size a := by
  show i ∈ ((View.whole main_v31_0).slice (win2_4.rect t)).set ↔ _
  rw [View.set_slice_whole, Rect.mem_set_unit]
  exact Iff.rfl

/-- Position `n` of row `b` lies in the block of point `6·b + n / 13824`, which writes its block back. -/
theorem cover_4 (i : S4x1x82944.Idx) :
    ∃ t : Fin cfg2.N, (cfg2.win 4).flush t = true ∧ i ∈ ((cfg2.win 4).blk t).view.set := by
  have h0 : (i 0).val < 4 := (i 0).isLt
  have h1 : (i 1).val < 1 := (i 1).isLt
  have h2 : (i 2).val < 82944 := (i 2).isLt
  have hlt : 6 * (i 0).val + (i 2).val / 13824 < cfg2.N := by rw [hN]; omega
  obtain ⟨e0, e1, e2⟩ := idx_4 ⟨6 * (i 0).val + (i 2).val / 13824, hlt⟩
  refine ⟨⟨6 * (i 0).val + (i 2).val / 13824, hlt⟩, flush2_4 _, ?_⟩
  rw [mem_blk_4]
  intro a
  match a with
  | ⟨0, _⟩ =>
    show win2_4.index ⟨6 * (i 0).val + (i 2).val / 13824, hlt⟩ (0 : Fin 3) * 1 ≤ (i 0).val
      ∧ (i 0).val < win2_4.index ⟨6 * (i 0).val + (i 2).val / 13824, hlt⟩ (0 : Fin 3) * 1 + 1
    rw [e0]; show (6 * (i 0).val + (i 2).val / 13824) / 6 * 1 ≤ (i 0).val ∧ (i 0).val < (6 * (i 0).val + (i 2).val / 13824) / 6 * 1 + 1
    omega
  | ⟨1, _⟩ =>
    show win2_4.index ⟨6 * (i 0).val + (i 2).val / 13824, hlt⟩ (1 : Fin 3) * 1 ≤ (i 1).val
      ∧ (i 1).val < win2_4.index ⟨6 * (i 0).val + (i 2).val / 13824, hlt⟩ (1 : Fin 3) * 1 + 1
    rw [e1]; omega
  | ⟨2, _⟩ =>
    show win2_4.index ⟨6 * (i 0).val + (i 2).val / 13824, hlt⟩ (2 : Fin 3) * 13824 ≤ (i 2).val
      ∧ (i 2).val < win2_4.index ⟨6 * (i 0).val + (i 2).val / 13824, hlt⟩ (2 : Fin 3) * 13824 + 13824
    rw [e2]; show (6 * (i 0).val + (i 2).val / 13824) % 6 * 13824 ≤ (i 2).val ∧ (i 2).val < (6 * (i 0).val + (i 2).val / 13824) % 6 * 13824 + 13824
    omega

/-- The array of renewed coefficients after the run. -/
theorem arr_4 (c : Dev nD) : (dat2 V c).arrAt 4 cfg2.N = G4 V c :=
  (dat2 V c).arrAt_eq_of_cover 4 (G4 V c) (fun t _ => flushed_4 V c t) cover_4

end Cert.StepArr2

end
-- ==== Proof.StepArr2.lean ====
/-
  The coefficient-renewal step, pipeline 2: the accumulator array after the run, and the step's two output arrays in
  the words of the mathematics.

  The accumulator block of batch `b` is set to zero at the batch's first point and increased at each of its six points
  by that point's tile's share of `∑ n, X b d n · C' b n` (`C'` the renewed coefficients); it is written back after the
  sixth, when it holds `0 +` the six shares added in order, which is the whole sum.
-/
import proofs.«119537_j3693671875223_2_alg».proof.Proof.StepArr2b

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr2

open Cert.StepBody2

variable (V : (c : Dev nD) → (b : Ref sig .tc) → Buf (Elt Ideal) ((c : Thread nD τ).loc b))

/-- What point `n` adds to feature `d` of the accumulator (nothing past the grid: a total function of `n`). -/
def addend (c : Dev nD) (d : Fin 160) (n : ℕ) : EReal :=
  if h : n < cfg2.N then Cert.StepMath.tileSum (Xof V c) (Cnew V c) (bat ⟨n, h⟩) d (n % 6) else 0

/-- At a batch's first point the accumulator block is zero plus the point's addend. -/
theorem acc_first (c : Dev nD) (d : Fin 160) (n : ℕ) (h : n < cfg2.N) (h0 : n % 6 = 0) :
    (outsAt2 V c n h).2 (ix3 0 d 0) = 0 + addend V c d n := by
  rw [outsAt2_A V c ⟨n, h⟩ h0]
  dsimp only
  refine (out_A_5 c (grid2.coords ⟨n, h⟩) (ms2_0 ⟨n, h⟩) (hs2_0 ⟨n, h⟩) (ms2_1 ⟨n, h⟩) (hs2_1 ⟨n, h⟩) (ms2_2 ⟨n, h⟩)
    (hs2_2 ⟨n, h⟩) (ms2_3 ⟨n, h⟩) (hs2_3 ⟨n, h⟩) (ms2_4 ⟨n, h⟩) (hs2_4 ⟨n, h⟩) (ms2_5 ⟨n, h⟩) (hs2_5 ⟨n, h⟩)
    ((hcond2_0 ⟨n, h⟩).mpr h0) (iblk2 V c 0 ⟨n, h⟩) (iblk2 V c 1 ⟨n, h⟩) (iblk2 V c 2 ⟨n, h⟩) (iblk2 V c 3 ⟨n, h⟩) d).trans ?_
  rw [contrib_point V c ⟨n, h⟩ d]
  unfold addend
  rw [dif_pos h]

/-- At a later point it is what the point before left plus the point's addend. -/
theorem acc_step (c : Dev nD) (d : Fin 160) (n : ℕ) (h : n + 1 < cfg2.N) (h0 : ¬(n + 1) % 6 = 0) :
    (outsAt2 V c (n + 1) h).2 (ix3 0 d 0)
      = (outsAt2 V c n (Nat.lt_of_succ_lt h)).2 (ix3 0 d 0) + addend V c d (n + 1) := by
  rw [outsAt2_B V c ⟨n + 1, h⟩ h0]
  dsimp only
  refine (out_B_5 c (grid2.coords ⟨n + 1, h⟩) (ms2_0 ⟨n + 1, h⟩) (hs2_0 ⟨n + 1, h⟩) (ms2_1 ⟨n + 1, h⟩) (hs2_1 ⟨n + 1, h⟩)
    (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩)
    (ms2_5 ⟨n + 1, h⟩) (hs2_5 ⟨n + 1, h⟩) (fun hc => h0 ((hcond2_0 ⟨n + 1, h⟩).mp hc)) (iblk2 V c 0 ⟨n + 1, h⟩)
    (iblk2 V c 1 ⟨n + 1, h⟩) (iblk2 V c 2 ⟨n + 1, h⟩) (iblk2 V c 3 ⟨n + 1, h⟩)
    (outsAt2 V c ((⟨n + 1, h⟩ : Fin cfg2.N).val - 1) (Nat.lt_of_le_of_lt (Nat.sub_le _ _) (⟨n + 1, h⟩ : Fin cfg2.N).isLt)).2 d).trans ?_
  rw [contrib_point V c ⟨n + 1, h⟩ d]
  unfold addend
  rw [dif_pos h]
  rfl

/-- At the sixth point of a batch the accumulator block holds the data's projection on the renewed coefficients. -/
theorem acc_last (c : Dev nD) (d : Fin 160) (t : Fin cfg2.N) (h5 : t.val % 6 = 5) :
    (outsAt2 V c t.val t.isLt).2 (ix3 0 d 0) = Cert.Nmf.projC (Xof V c) (Cnew V c) (bat t) d := by
  have hN' : cfg2.N = 24 := hN
  have ht := t.isLt
  rw [Cert.StepMath.running_sum_last (fun n h => (outsAt2 V c n h).2 (ix3 0 d 0)) (addend V c d)
    (acc_first V c d) (acc_step V c d) t.val t.isLt h5, Cert.StepMath.projC_eq_tiles]
  refine Finset.sum_congr rfl fun k hk => ?_
  have hk6 : k < 6 := Finset.mem_range.mp hk
  have hlt : 6 * (t.val / 6) + k < cfg2.N := by omega
  unfold addend
  rw [dif_pos hlt]
  have hb : bat (⟨6 * (t.val / 6) + k, hlt⟩ : Fin cfg2.N) = bat t := Fin.ext (by show (6 * (t.val / 6) + k) / 6 = t.val / 6; omega)
  rw [hb]
  exact congrArg (Cert.StepMath.tileSum (Xof V c) (Cnew V c) (bat t) d) (by omega)

/-- The accumulator array, by its index. -/
def G5 (c : Dev nD) : S4x160x1.Idx → EReal := fun i => Cert.Nmf.projC (Xof V c) (Cnew V c) (i 0) (i 1)

/-- A block of the accumulator array, read at an index of the block, is the array at the index's place in it. -/
theorem read_blk_5 (t : Fin cfg2.N) (G : S4x160x1.Idx → EReal) (y : S1x160x1.Idx) :
    ((cfg2.win 5).blk t).view.read (Elt Ideal) G y = G (((cfg2.win 5).blk t).view.emb y) := rfl

/-- What a batch's sixth point writes back is its block of the array of projections. -/
theorem flushed_5 (c : Dev nD) (t : Fin cfg2.N) (hf : (cfg2.win 5).flush t = true) :
    (dat2 V c).flushed 5 t = ((cfg2.win 5).blk t).view.read (Elt Ideal) (G5 V c) := by
  have h5 : t.val % 6 = 5 := (flush2_5 t).mp hf
  show (cfg2.win 5).cut (grid2.coords t) ((dat2 V c).after 5 t) = _
  rw [after2_5]
  obtain ⟨e0, e1, e2⟩ := idx_5 t
  funext y
  obtain ⟨a, d, b, rfl⟩ : ∃ (a : Fin 1) (d : Fin 160) (b : Fin 1), y = ix3 a d b :=
    ⟨y 0, y 1, y 2, @eq_ix3 1 160 1 y⟩
  obtain rfl : a = 0 := Subsingleton.elim _ _
  obtain rfl : b = 0 := Subsingleton.elim _ _
  refine Eq.trans ?_ (read_blk_5 t (G5 V c) (ix3 0 d 0)).symm
  show (outsAt2 V c t.val t.isLt).2 (ix3 0 d 0) = G5 V c (((cfg2.win 5).blk t).view.emb (ix3 0 d 0))
  rw [acc_last V c d t h5]
  unfold G5
  refine congrArg₂ (Cert.Nmf.projC (Xof V c) (Cnew V c)) (Fin.ext ?_) (Fin.ext ?_)
  · show t.val / 6 = win2_5.index t (0 : Fin 3) * 1 + 1 * 0
    rw [e0]; omega
  · show d.val = win2_5.index t (1 : Fin 3) * 160 + 1 * d.val
    rw [e1]; omega

/-- An index of the array is in point `t`'s block iff each coordinate is in the block's range on its axis. -/
theorem mem_blk_5 (t : Fin cfg2.N) (i : S4x160x1.Idx) :
    i ∈ ((cfg2.win 5).blk t).view.set ↔ ∀ a : Fin 3, win2_5.index t a * S1x160x1.size a ≤ (i a).val
      ∧ (i a).val < win2_5.index t a * S1x160x1.size a + S1x160x1.size a := by
  show i ∈ ((View.whole main_v31_1).slice (win2_5.rect t)).set ↔ _
  rw [View.set_slice_whole, Rect.mem_set_unit]
  exact Iff.rfl

/-- Row `b` of the accumulator array lies in the block of point `6·b + 5`, the batch's sixth, which writes it back. -/
theorem cover_5 (i : S4x160x1.Idx) :
    ∃ t : Fin cfg2.N, (cfg2.win 5).flush t = true ∧ i ∈ ((cfg2.win 5).blk t).view.set := by
  have h0 : (i 0).val < 4 := (i 0).isLt
  have h1 : (i 1).val < 160 := (i 1).isLt
  have h2 : (i 2).val < 1 := (i 2).isLt
  have hlt : 6 * (i 0).val + 5 < cfg2.N := by rw [hN]; omega
  obtain ⟨e0, e1, e2⟩ := idx_5 ⟨6 * (i 0).val + 5, hlt⟩
  refine ⟨⟨6 * (i 0).val + 5, hlt⟩, (flush2_5 _).mpr (by show (6 * (i 0).val + 5) % 6 = 5; omega), ?_⟩
  rw [mem_blk_5]
  intro a
  match a with
  | ⟨0, _⟩ =>
    show win2_5.index ⟨6 * (i 0).val + 5, hlt⟩ (0 : Fin 3) * 1 ≤ (i 0).val
      ∧ (i 0).val < win2_5.index ⟨6 * (i 0).val + 5, hlt⟩ (0 : Fin 3) * 1 + 1
    rw [e0]; show (6 * (i 0).val + 5) / 6 * 1 ≤ (i 0).val ∧ (i 0).val < (6 * (i 0).val + 5) / 6 * 1 + 1
    omega
  | ⟨1, _⟩ =>
    show win2_5.index ⟨6 * (i 0).val + 5, hlt⟩ (1 : Fin 3) * 160 ≤ (i 1).val
      ∧ (i 1).val < win2_5.index ⟨6 * (i 0).val + 5, hlt⟩ (1 : Fin 3) * 160 + 160
    rw [e1]; omega
  | ⟨2, _⟩ =>
    show win2_5.index ⟨6 * (i 0).val + 5, hlt⟩ (2 : Fin 3) * 1 ≤ (i 2).val
      ∧ (i 2).val < win2_5.index ⟨6 * (i 0).val + 5, hlt⟩ (2 : Fin 3) * 1 + 1
    rw [e2]; omega

/-- The accumulator array after the run. -/
theorem arr_5 (c : Dev nD) : (dat2 V c).arrAt 5 cfg2.N = G5 V c :=
  (dat2 V c).arrAt_eq_of_cover 5 (G5 V c) (flushed_5 V c) cover_5

/-! ## The step's two output arrays -/

/-- After the run the coefficient array holds, at batch `b` and position `n`, the renewed coefficient. -/
theorem coef_final (c : Dev nD) (b : Fin 4) (n : Fin 82944) :
    ((dat2 (F := Ideal) V c).arrAt 4 cfg2.N : S4x1x82944.Idx → EReal) (ix3 b 0 n)
      = Cert.Nmf.coefUpd (Xof V c) (Bof V c) (Tof V c) (Cof V c) b n :=
  congrFun (arr_4 V c) (ix3 b 0 n)

/-- After the run the accumulator array holds, at batch `b` and feature `d`, the data's projection on the renewed
    coefficients. -/
theorem numb_final (c : Dev nD) (b : Fin 4) (d : Fin 160) :
    ((dat2 (F := Ideal) V c).arrAt 5 cfg2.N : S4x160x1.Idx → EReal) (ix3 b d 0)
      = Cert.Nmf.projC (Xof V c) (Cert.Nmf.coefUpd (Xof V c) (Bof V c) (Tof V c) (Cof V c)) b d :=
  congrFun (arr_5 V c) (ix3 b d 0)

end Cert.StepArr2

end
-- ==== Proof.StepBody3.lean ====
/-
  One grid point of the coefficient-renewal kernel, as mathematics.  The point holds a block of the data
  `x0 (0, d, n)` (160 features, 13824 positions), the basis `x1 (0, d, 0)`, its squared length `x2 (0, 0, 0)` and the old
  coefficients `x3 (0, 0, n)`.  It leaves the renewed coefficients
      x3 n · (∑ d, x0 d n · x1 d) / (x3 n · x2 + ε)
  in one output block, and adds `∑ n, x0 d n · (renewed coefficient n)` to the accumulator block — which it first sets
  to zero when the point is the first of its batch.
-/
import proofs.«119537_j3693671875223_2_alg».proof.Proof.Gen.KernelIdeal.Frame
import proofs.«119537_j3693671875223_2_alg».proof.Proof.Spec
import proofs.«119537_j3693671875223_2_alg».proof.Proof.StepPay
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Tactic
open Cert.KernelIdeal Cert.KernelIdeal.Gen

namespace Cert.StepBody3

/-- The renewed coefficient at position `n` of the block. -/
def coefBlk (x0 : Vec Ideal S1x160x13824 .f32) (x1 : Vec Ideal S1x160x1 .f32) (x2 : Vec Ideal S1x1x1 .f32) (x3 : Vec Ideal S1x1x13824 .f32) (n : Fin 13824) : EReal :=
  Ideal.div (x3 (ix3 0 0 n) * ∑ d : Fin 160, x0 (ix3 0 d n) * x1 (ix3 0 d 0)) (x3 (ix3 0 0 n) * x2 (ix3 0 0 0) + Cert.Nmf.eps)

/-- What the block adds to feature `d` of the accumulator. -/
def contribBlk (x0 : Vec Ideal S1x160x13824 .f32) (x1 : Vec Ideal S1x160x1 .f32) (x2 : Vec Ideal S1x1x1 .f32) (x3 : Vec Ideal S1x1x13824 .f32) (d : Fin 160) : EReal :=
  ∑ n : Fin 13824, x0 (ix3 0 d n) * coefBlk x0 x1 x2 x3 n

/-- The zero offsets of a whole-block access, however they are spelt. -/
theorem hz : (![0, 0, 0] : Fin 3 → Nat) = fun _ => 0 := funext fun a => by fin_cases a <;> rfl

/-- The renewed coefficient is the kernel's coefficient vector read at `(0, n)`. -/
theorem coefBlk_eq (x0 : Vec Ideal S1x160x13824 .f32) (x1 : Vec Ideal S1x160x1 .f32) (x2 : Vec Ideal S1x1x1 .f32) (x3 : Vec Ideal S1x1x13824 .f32) (n : Fin 13824) :
    coefBlk x0 x1 x2 x3 n = Cert.StepPay.coefVec x0 x1 x2 x3 (ix2 (0 : Fin 1) n) := by
  unfold coefBlk Cert.Nmf.eps
  exact (Cert.StepPay.coefVec_apply x0 x1 x2 x3 n).symm

/-- The stored coefficient block read at `(0, 0, n)`. -/
theorem pay5_apply (x0 : Vec Ideal S1x160x13824 .f32) (x1 : Vec Ideal S1x160x1 .f32) (x2 : Vec Ideal S1x1x1 .f32) (x3 : Vec Ideal S1x1x13824 .f32) (n : Fin 13824) :
    k3_pay5 (F := Ideal) x0 x1 x2 x3 (ix3 0 0 n) = coefBlk x0 x1 x2 x3 n := by
  rw [coefBlk_eq]
  exact shapeCast_ab_1ab_apply (Cert.StepPay.coefVec x0 x1 x2 x3) _ 0 0 n

/-- The stored accumulator block read at `(0, d, 0)`, from the accumulator `acc` the point reads. -/
theorem pay1_apply (x0 : Vec Ideal S1x160x13824 .f32) (x1 : Vec Ideal S1x160x1 .f32) (x2 : Vec Ideal S1x1x1 .f32) (x3 : Vec Ideal S1x1x13824 .f32)
    (acc : Vec Ideal S1x160x1 .f32) (d : Fin 160) :
    k3_pay1 (F := Ideal) (k3_pay6 x0 x1 x2 x3 acc) (ix3 0 d 0) = acc (ix3 0 d 0) + contribBlk x0 x1 x2 x3 d := by
  unfold contribBlk
  simp only [coefBlk_eq]
  refine (shapeCast_ab_1ab_apply (Cert.StepPay.accVec x0 x1 x2 x3 acc) _ 0 d 0).trans ?_
  exact Cert.StepPay.accVec_apply x0 x1 x2 x3 acc d

/-- The zero block read at any index. -/
theorem pay2_apply (y : S1x160x1.Idx) : k3_pay2 (F := Ideal) y = 0 := Ideal.ofBits_zero_f32

/-- At a batch's first point the coefficient output block holds the renewed coefficients. -/
theorem out_A_4 (c : Dev nD) (i : grid3.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond3_0 i)
    (x0 : Vec Ideal S1x160x13824 .f32) (x1 : Vec Ideal S1x160x1 .f32) (x2 : Vec Ideal S1x1x1 .f32) (x3 : Vec Ideal S1x1x13824 .f32) (n : Fin 13824) :
    out3_A_4 (F := Ideal) c i a2 h2 a3 h3 a4 h4 a5 h5 a6 h6 a7 h7 hc x0 x1 x2 x3 (ix3 0 0 n) = coefBlk x0 x1 x2 x3 n := by
  have hv : out3_A_4 (F := Ideal) c i a2 h2 a3 h3 a4 h4 a5 h5 a6 h6 a7 h7 hc x0 x1 x2 x3 = k3_pay5 x0 x1 x2 x3 := by
    unfold out3_A_4
    rw [View.read_writes_eq_canon _ _ _ (cover3_A_4 c i a2 h2 a3 h3 a4 h4 a5 h5 a6 h6 a7 h7 hc x0 x1 x2 x3)]
    unfold kernelRun3_A
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At any later point too. -/
theorem out_B_4 (c : Dev nD) (i : grid3.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond3_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (n : Fin 13824) :
    out3_B_4 (F := Ideal) c i a2 h2 a3 h3 a4 h4 a5 h5 a6 h6 a7 h7 hc x0 x1 x2 x3 xo5 (ix3 0 0 n) = coefBlk x0 x1 x2 x3 n := by
  have hv : out3_B_4 (F := Ideal) c i a2 h2 a3 h3 a4 h4 a5 h5 a6 h6 a7 h7 hc x0 x1 x2 x3 xo5 = k3_pay5 x0 x1 x2 x3 := by
    unfold out3_B_4
    rw [View.read_writes_eq_canon _ _ _ (cover3_B_4 c i a2 h2 a3 h3 a4 h4 a5 h5 a6 h6 a7 h7 hc x0 x1 x2 x3 xo5)]
    unfold kernelRun3_B
    dsimp only
    rw [View.canon_unit_zero hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv]
  exact pay5_apply x0 x1 x2 x3 n

/-- At a batch's first point the accumulator block is zero plus the block's contribution. -/
theorem out_A_5 (c : Dev nD) (i : grid3.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : cond3_0 i)
    (x0 : Vec Ideal S1x160x13824 .f32) (x1 : Vec Ideal S1x160x1 .f32) (x2 : Vec Ideal S1x1x1 .f32) (x3 : Vec Ideal S1x1x13824 .f32) (d : Fin 160) :
    out3_A_5 (F := Ideal) c i a2 h2 a3 h3 a4 h4 a5 h5 a6 h6 a7 h7 hc x0 x1 x2 x3 (ix3 0 d 0) = 0 + contribBlk x0 x1 x2 x3 d := by
  have hv : out3_A_5 (F := Ideal) c i a2 h2 a3 h3 a4 h4 a5 h5 a6 h6 a7 h7 hc x0 x1 x2 x3 = k3_pay1 (k3_pay6 x0 x1 x2 x3 (k3_pay2 (F := Ideal))) := by
    unfold out3_A_5
    rw [View.read_writes_eq_canon _ _ _ (cover3_A_5 c i a2 h2 a3 h3 a4 h4 a5 h5 a6 h6 a7 h7 hc x0 x1 x2 x3)]
    unfold kernelRun3_A
    dsimp only
    sl_unfold_words
    rw [View.canon_cons_unit_zero (S := S1x160x1) hz, View.readCov_unit_zero (S := S1x160x1) _ hz]
    simp only [View.readAt_eq_ld, h2.read_unread, h3.read_unread, h4.read_unread, h5.read_unread, View.ld_unit_zero (S := S1x160x13824) hz, View.ld_unit_zero (S := S1x160x1) hz, View.ld_unit_zero (S := S1x1x1) hz, View.ld_unit_zero (S := S1x1x13824) hz]
  rw [hv, pay1_apply, pay2_apply]

/-- At a later point it is what the point before left, plus the block's contribution. -/
theorem out_B_5 (c : Dev nD) (i : grid3.Coords) (a2 : Memref sig .tc .vmem S1x160x13824 .f32) (h2 : a2.IsWhole) (a3 : Memref sig .tc .vmem S1x160x1 .f32) (h3 : a3.IsWhole) (a4 : Memref sig .tc .vmem S1x1x1 .f32) (h4 : a4.IsWhole) (a5 : Memref sig .tc .vmem S1x1x13824 .f32) (h5 : a5.IsWhole) (a6 : Memref sig .tc .vmem S1x1x13824 .f32) (h6 : a6.IsWhole) (a7 : Memref sig .tc .vmem S1x160x1 .f32) (h7 : a7.IsWhole) (hc : ¬cond3_0 i)
    (x0 : Vec Ideal S1x160x13824 .f32) (x1 : Vec Ideal S1x160x1 .f32) (x2 : Vec Ideal S1x1x1 .f32) (x3 : Vec Ideal S1x1x13824 .f32) (xo5 : Vec Ideal S1x160x1 .f32) (d : Fin 160) :
    out3_B_5 (F := Ideal) c i a2 h2 a3 h3 a4 h4 a5 h5 a6 h6 a7 h7 hc x0 x1 x2 x3 xo5 (ix3 0 d 0) = xo5 (ix3 0 d 0) + contribBlk x0 x1 x2 x3 d := by
  have hv : out3_B_5 (F := Ideal) c i a2 h2 a3 h3 a4 h4 a5 h5 a6 h6 a7 h7 hc x0 x1 x2 x3 xo5 = k3_pay1 (k3_pay6 x0 x1 x2 x3 xo5) := by
    unfold out3_B_5
    rw [View.read_writes_eq_canon _ _ _ (cover3_B_5 c i a2 h2 a3 h3 a4 h4 a5 h5 a6 h6 a7 h7 hc x0 x1 x2 x3 xo5)]
    unfold kernelRun3_B
    dsimp only
    sl_unfold_words
    rw [View.canon_unit_zero hz]
    simp only [View.readAt_eq_ld, h2.read_unread, h3.read_unread, h4.read_unread, h5.read_unread, h7.read_unread, View.ld_unit_zero (S := S1x160x13824) hz, View.ld_unit_zero (S := S1x160x1) hz, View.ld_unit_zero (S := S1x1x1) hz, View.ld_unit_zero (S := S1x1x13824) hz]
  rw [hv]
  exact pay1_apply x0 x1 x2 x3 xo5 d

end Cert.StepBody3

end
-- ==== Proof.StepArr3a.lean ====
/-
  The coefficient-renewal step, pipeline 3: a grid point's four input blocks read at explicit coordinates off the
  arrays the region finds, and what the point's body makes of them, in the words of the mathematics.

  Point `t = 6·b + k` (`b < 4` batches, `k < 6` tiles of 13824 positions) holds the data's entries
  `(b, d, 13824·k + j)`, the basis `(b, d)`, its squared length `(b)` and the old coefficients `(b, 13824·k + j)`.
  So the coefficients it renews are those of the positions of tile `k` of batch `b`, and what it adds to the
  accumulator is tile `k`'s share of the data's projection on the renewed coefficients.
-/
import proofs.«119537_j3693671875223_2_alg».proof.Proof.StepBody3
import proofs.«119537_j3693671875223_2_alg».proof.Proof.StepMath

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr3

open Cert.StepBody3

variable (V : (c : Dev nD) → (b : Ref sig .tc) → Buf (Elt Ideal) ((c : Thread nD τ).loc b))

/-- The data the region finds, by batch, feature and position. -/
def Xof (c : Dev nD) : Fin 4 → Fin 160 → Fin 82944 → EReal :=
  fun b d n => (V c (Pipeline.arrRef spec3 0) : S4x160x82944.Idx → EReal) (ix3 b d n)
/-- The basis the region finds, by batch and feature. -/
def Bof (c : Dev nD) : Fin 4 → Fin 160 → EReal :=
  fun b d => (V c (Pipeline.arrRef spec3 1) : S4x160x1.Idx → EReal) (ix3 b d 0)
/-- The basis' squared length the region finds, by batch. -/
def Tof (c : Dev nD) : Fin 4 → EReal :=
  fun b => (V c (Pipeline.arrRef spec3 2) : S4x1x1.Idx → EReal) (ix3 b 0 0)
/-- The old coefficients the region finds, by batch and position. -/
def Cof (c : Dev nD) : Fin 4 → Fin 82944 → EReal :=
  fun b n => (V c (Pipeline.arrRef spec3 3) : S4x1x82944.Idx → EReal) (ix3 b 0 n)

/-- The grid has 24 points. -/
theorem hN : cfg3.N = 24 := N_3

/-- The batch of point `t`. -/
def bat (t : Fin cfg3.N) : Fin 4 := ⟨t.val / 6, by have := t.isLt; have := hN; omega⟩
/-- Position `j` of point `t`'s tile, as a position of the whole row. -/
def pos (t : Fin cfg3.N) (j : Fin 13824) : Fin 82944 := ⟨13824 * (t.val % 6) + j.val, by omega⟩

/-! ## The windows' block indices, decided over the grid -/

theorem idx_0 : ∀ t : Fin cfg3.N, win3_0.index t (0 : Fin 3) = t.val / 6 ∧ win3_0.index t (1 : Fin 3) = 0
    ∧ win3_0.index t (2 : Fin 3) = t.val % 6 :=
  (by decide +kernel : ∀ t : Fin grid3.N, _)
theorem idx_1 : ∀ t : Fin cfg3.N, win3_1.index t (0 : Fin 3) = t.val / 6 ∧ win3_1.index t (1 : Fin 3) = 0
    ∧ win3_1.index t (2 : Fin 3) = 0 :=
  (by decide +kernel : ∀ t : Fin grid3.N, _)
theorem idx_2 : ∀ t : Fin cfg3.N, win3_2.index t (0 : Fin 3) = t.val / 6 ∧ win3_2.index t (1 : Fin 3) = 0
    ∧ win3_2.index t (2 : Fin 3) = 0 :=
  (by decide +kernel : ∀ t : Fin grid3.N, _)
theorem idx_3 : ∀ t : Fin cfg3.N, win3_3.index t (0 : Fin 3) = t.val / 6 ∧ win3_3.index t (1 : Fin 3) = 0
    ∧ win3_3.index t (2 : Fin 3) = t.val % 6 :=
  (by decide +kernel : ∀ t : Fin grid3.N, _)
theorem idx_4 : ∀ t : Fin cfg3.N, win3_4.index t (0 : Fin 3) = t.val / 6 ∧ win3_4.index t (1 : Fin 3) = 0
    ∧ win3_4.index t (2 : Fin 3) = t.val % 6 :=
  (by decide +kernel : ∀ t : Fin grid3.N, _)
theorem idx_5 : ∀ t : Fin cfg3.N, win3_5.index t (0 : Fin 3) = t.val / 6 ∧ win3_5.index t (1 : Fin 3) = 0
    ∧ win3_5.index t (2 : Fin 3) = 0 :=
  (by decide +kernel : ∀ t : Fin grid3.N, _)

/-! ## The input blocks at explicit coordinates

An element of a block sits in the array, on each axis, at the block's index times the block's size plus its own coordinate. -/

/-- The data block of point `t`: entry `(d, j)` is the data at batch `t / 6`, feature `d`, position `13824·(t % 6) + j`. -/
theorem iblk_0 (c : Dev nD) (t : Fin cfg3.N) (d : Fin 160) (j : Fin 13824) :
    (iblk3 V c 0 t : Vec Ideal S1x160x13824 .f32) (ix3 0 d j) = Xof V c (bat t) d (pos t j) := by
  obtain ⟨e0, e1, e2⟩ := idx_0 t
  unfold iblk3 Xof
  rw [View.read_apply]
  show V c (Pipeline.arrRef spec3 0) (((cfg3.win 0).blk t).view.emb (ix3 0 d j)) = V c (Pipeline.arrRef spec3 0) (ix3 (bat t) d (pos t j))
  refine congrArg (V c (Pipeline.arrRef spec3 0)) (funext fun a => Fin.ext ?_)
  match a with
  | ⟨0, _⟩ => show win3_0.index t (0 : Fin 3) * 1 + 1 * 0 = t.val / 6; rw [e0]; omega
  | ⟨1, _⟩ => show win3_0.index t (1 : Fin 3) * 160 + 1 * d.val = d.val; rw [e1]; omega
  | ⟨2, _⟩ => show win3_0.index t (2 : Fin 3) * 13824 + 1 * j.val = 13824 * (t.val % 6) + j.val; rw [e2]; omega

/-- The basis block of point `t`: entry `d` is the basis at batch `t / 6`, feature `d`. -/
theorem iblk_1 (c : Dev nD) (t : Fin cfg3.N) (d : Fin 160) :
    (iblk3 V c 1 t : Vec Ideal S1x160x1 .f32) (ix3 0 d 0) = Bof V c (bat t) d := by
  obtain ⟨e0, e1, e2⟩ := idx_1 t
  unfold iblk3 Bof
  rw [View.read_apply]
  show V c (Pipeline.arrRef spec3 1) (((cfg3.win 1).blk t).view.emb (ix3 0 d 0)) = V c (Pipeline.arrRef spec3 1) (ix3 (bat t) d 0)
  refine congrArg (V c (Pipeline.arrRef spec3 1)) (funext fun a => Fin.ext ?_)
  match a with
  | ⟨0, _⟩ => show win3_1.index t (0 : Fin 3) * 1 + 1 * 0 = t.val / 6; rw [e0]; omega
  | ⟨1, _⟩ => show win3_1.index t (1 : Fin 3) * 160 + 1 * d.val = d.val; rw [e1]; omega
  | ⟨2, _⟩ => show win3_1.index t (2 : Fin 3) * 1 + 1 * 0 = 0; rw [e2]

/-- The squared-length block of point `t` is the squared length at batch `t / 6`. -/
theorem iblk_2 (c : Dev nD) (t : Fin cfg3.N) :
    (iblk3 V c 2 t : Vec Ideal S1x1x1 .f32) (ix3 0 0 0) = Tof V c (bat t) := by
  obtain ⟨e0, e1, e2⟩ := idx_2 t
  unfold iblk3 Tof
  rw [View.read_apply]
  show V c (Pipeline.arrRef spec3 2) (((cfg3.win 2).blk t).view.emb (ix3 0 0 0)) = V c (Pipeline.arrRef spec3 2) (ix3 (bat t) 0 0)
  refine congrArg (V c (Pipeline.arrRef spec3 2)) (funext fun a => Fin.ext ?_)
  match a with
  | ⟨0, _⟩ => show win3_2.index t (0 : Fin 3) * 1 + 1 * 0 = t.val / 6; rw [e0]; omega
  | ⟨1, _⟩ => show win3_2.index t (1 : Fin 3) * 1 + 1 * 0 = 0; rw [e1]
  | ⟨2, _⟩ => show win3_2.index t (2 : Fin 3) * 1 + 1 * 0 = 0; rw [e2]

/-- The old-coefficient block of point `t`: entry `j` is the old coefficient at batch `t / 6`, position `13824·(t % 6) + j`. -/
theorem iblk_3 (c : Dev nD) (t : Fin cfg3.N) (j : Fin 13824) :
    (iblk3 V c 3 t : Vec Ideal S1x1x13824 .f32) (ix3 0 0 j) = Cof V c (bat t) (pos t j) := by
  obtain ⟨e0, e1, e2⟩ := idx_3 t
  unfold iblk3 Cof
  rw [View.read_apply]
  show V c (Pipeline.arrRef spec3 3) (((cfg3.win 3).blk t).view.emb (ix3 0 0 j)) = V c (Pipeline.arrRef spec3 3) (ix3 (bat t) 0 (pos t j))
  refine congrArg (V c (Pipeline.arrRef spec3 3)) (funext fun a => Fin.ext ?_)
  match a with
  | ⟨0, _⟩ => show win3_3.index t (0 : Fin 3) * 1 + 1 * 0 = t.val / 6; rw [e0]; omega
  | ⟨1, _⟩ => show win3_3.index t (1 : Fin 3) * 1 + 1 * 0 = 0; rw [e1]
  | ⟨2, _⟩ => show win3_3.index t (2 : Fin 3) * 13824 + 1 * j.val = 13824 * (t.val % 6) + j.val; rw [e2]; omega

/-! ## What a point computes, over blocks given by their entries -/

/-- Blocks whose entries are those of tile `k` of batch `b` renew the coefficients of that tile's positions. -/
theorem coefBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (n : Fin 13824) :
    coefBlk x0 x1 x2 x3 n = Cert.Nmf.coefUpd X B T C b (p n) := by
  unfold coefBlk Cert.Nmf.coefUpd Cert.Nmf.projB
  rw [h3 n, h2]
  refine congrArg (fun z => Ideal.div (C b (p n) * z) (C b (p n) * T b + Cert.Nmf.eps)) ?_
  exact Finset.sum_congr rfl fun d _ => by rw [h0 d n, h1 d]

/-- And add to the accumulator that tile's part of the data's projection on the renewed coefficients. -/
theorem contribBlk_tile (X : Fin 4 → Fin 160 → Fin 82944 → EReal) (B : Fin 4 → Fin 160 → EReal) (T : Fin 4 → EReal)
    (C : Fin 4 → Fin 82944 → EReal) (b : Fin 4) (p : Fin 13824 → Fin 82944)
    (x0 : Vec Ideal S1x160x13824 .f32) (x1 : Vec Ideal S1x160x1 .f32) (x2 : Vec Ideal S1x1x1 .f32)
    (x3 : Vec Ideal S1x1x13824 .f32)
    (h0 : ∀ (d : Fin 160) (j : Fin 13824), x0 (ix3 0 d j) = X b d (p j))
    (h1 : ∀ d : Fin 160, x1 (ix3 0 d 0) = B b d) (h2 : x2 (ix3 0 0 0) = T b)
    (h3 : ∀ j : Fin 13824, x3 (ix3 0 0 j) = C b (p j)) (d : Fin 160) :
    contribBlk x0 x1 x2 x3 d = ∑ j : Fin 13824, X b d (p j) * Cert.Nmf.coefUpd X B T C b (p j) := by
  unfold contribBlk
  exact Finset.sum_congr rfl fun j _ => by rw [h0 d j, coefBlk_tile X B T C b p x0 x1 x2 x3 h0 h1 h2 h3 j]

/-- The renewed coefficients, as the mathematics names them from the arrays the region finds. -/
def Cnew (c : Dev nD) : Fin 4 → Fin 82944 → EReal :=
  Cert.Nmf.coefUpd (Xof V c) (Bof V c) (Tof V c) (Cof V c)

/-- Point `t`'s blocks renew the coefficients of its tile. -/
theorem coef_point (c : Dev nD) (t : Fin cfg3.N) (j : Fin 13824) :
    coefBlk (iblk3 V c 0 t) (iblk3 V c 1 t) (iblk3 V c 2 t) (iblk3 V c 3 t) j = Cnew V c (bat t) (pos t j) :=
  coefBlk_tile (Xof V c) (Bof V c) (Tof V c) (Cof V c) (bat t) (pos t) (iblk3 V c 0 t) (iblk3 V c 1 t)
    (iblk3 V c 2 t) (iblk3 V c 3 t) (iblk_0 V c t) (iblk_1 V c t) (iblk_2 V c t) (iblk_3 V c t) j

/-- Point `t`'s blocks add its tile's share of the projection. -/
theorem contrib_point (c : Dev nD) (t : Fin cfg3.N) (d : Fin 160) :
    contribBlk (iblk3 V c 0 t) (iblk3 V c 1 t) (iblk3 V c 2 t) (iblk3 V c 3 t) d
      = Cert.StepMath.tileSum (Xof V c) (Cnew V c) (bat t) d (t.val % 6) := by
  rw [Cert.StepMath.tileSum_eq _ _ _ _ _ (Nat.mod_lt _ (by norm_num))]
  exact contribBlk_tile (Xof V c) (Bof V c) (Tof V c) (Cof V c) (bat t) (pos t) (iblk3 V c 0 t) (iblk3 V c 1 t)
    (iblk3 V c 2 t) (iblk3 V c 3 t) (iblk_0 V c t) (iblk_1 V c t) (iblk_2 V c t) (iblk_3 V c t) d

end Cert.StepArr3

end
-- ==== Proof.StepArr3b.lean ====
/-
  The coefficient-renewal step, pipeline 3: the array of renewed coefficients after the run.

  Every grid point writes its coefficient block back, and the block of point `t = 6·b + k` is positions
  `13824·k … 13824·k + 13823` of row `b`; the blocks tile the array, so the array ends holding the renewed coefficient
  at every batch and position.
-/
import proofs.«119537_j3693671875223_2_alg».proof.Proof.StepArr3a

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr3

open Cert.StepBody3

variable (V : (c : Dev nD) → (b : Ref sig .tc) → Buf (Elt Ideal) ((c : Thread nD τ).loc b))

/-- After every point the coefficient output block holds the renewed coefficients of the point's tile. -/
theorem outs_coef (c : Dev nD) (t : Fin cfg3.N) (j : Fin 13824) :
    (outsAt3 V c t.val t.isLt).1 (ix3 0 0 j) = Cnew V c (bat t) (pos t j) := by
  by_cases h0 : t.val % 6 = 0
  · rw [outsAt3_A V c t h0]
    dsimp only
    exact ((out_A_4 c (grid3.coords t) (ms3_0 t) (hs3_0 t) (ms3_1 t) (hs3_1 t) (ms3_2 t) (hs3_2 t) (ms3_3 t) (hs3_3 t)
        (ms3_4 t) (hs3_4 t) (ms3_5 t) (hs3_5 t) ((hcond3_0 t).mpr h0) (iblk3 V c 0 t) (iblk3 V c 1 t) (iblk3 V c 2 t)
        (iblk3 V c 3 t) j).trans (coef_point V c t j))
  · rw [outsAt3_B V c t h0]
    dsimp only
    exact ((out_B_4 c (grid3.coords t) (ms3_0 t) (hs3_0 t) (ms3_1 t) (hs3_1 t) (ms3_2 t) (hs3_2 t) (ms3_3 t) (hs3_3 t)
        (ms3_4 t) (hs3_4 t) (ms3_5 t) (hs3_5 t) (fun h => h0 ((hcond3_0 t).mp h)) (iblk3 V c 0 t) (iblk3 V c 1 t)
        (iblk3 V c 2 t) (iblk3 V c 3 t)
        (outsAt3 V c (t.val - 1) (Nat.lt_of_le_of_lt (Nat.sub_le _ _) t.isLt)).2 j).trans (coef_point V c t j))

/-- The array of renewed coefficients, by its index. -/
def G4 (c : Dev nD) : S4x1x82944.Idx → EReal := fun i => Cnew V c (i 0) (i 2)

/-- What point `t` writes back is its block of the array of renewed coefficients. -/
theorem flushed_4 (c : Dev nD) (t : Fin cfg3.N) :
    (dat3 V c).flushed 4 t = ((cfg3.win 4).blk t).view.read (Elt Ideal) (G4 V c) := by
  show (cfg3.win 4).cut (grid3.coords t) ((dat3 V c).after 4 t) = _
  rw [after3_4]
  obtain ⟨e0, e1, e2⟩ := idx_4 t
  funext y
  obtain ⟨a, b, j, rfl⟩ : ∃ (a : Fin 1) (b : Fin 1) (j : Fin 13824), y = ix3 a b j :=
    ⟨y 0, y 1, y 2, @eq_ix3 1 1 13824 y⟩
  obtain rfl : a = 0 := Subsingleton.elim _ _
  obtain rfl : b = 0 := Subsingleton.elim _ _
  show (outsAt3 V c t.val t.isLt).1 (ix3 0 0 j)
    = Cnew V c ((((cfg3.win 4).blk t).view.emb (ix3 0 0 j)) 0) ((((cfg3.win 4).blk t).view.emb (ix3 0 0 j)) 2)
  rw [outs_coef V c t j]
  refine congrArg₂ (Cnew V c) (Fin.ext ?_) (Fin.ext ?_)
  · show t.val / 6 = win3_4.index t (0 : Fin 3) * 1 + 1 * 0
    rw [e0]; omega
  · show 13824 * (t.val % 6) + j.val = win3_4.index t (2 : Fin 3) * 13824 + 1 * j.val
    rw [e2]; omega

/-- An index of the array is in point `t`'s block iff each coordinate is in the block's range on its axis. -/
theorem mem_blk_4 (t : Fin cfg3.N) (i : S4x1x82944.Idx) :
    i ∈ ((cfg3.win 4).blk t).view.set ↔ ∀ a : Fin 3, win3_4.index t a * S1x1x13824.size a ≤ (i a).val
      ∧ (i a).val < win3_4.index t a * S1x1x13824.size a + S1x1x13824.size a := by
  show i ∈ ((View.whole main_v44_0).slice (win3_4.rect t)).set ↔ _
  rw [View.set_slice_whole, Rect.mem_set_unit]
  exact Iff.rfl

/-- Position `n` of row `b` lies in the block of point `6·b + n / 13824`, which writes its block back. -/
theorem cover_4 (i : S4x1x82944.Idx) :
    ∃ t : Fin cfg3.N, (cfg3.win 4).flush t = true ∧ i ∈ ((cfg3.win 4).blk t).view.set := by
  have h0 : (i 0).val < 4 := (i 0).isLt
  have h1 : (i 1).val < 1 := (i 1).isLt
  have h2 : (i 2).val < 82944 := (i 2).isLt
  have hlt : 6 * (i 0).val + (i 2).val / 13824 < cfg3.N := by rw [hN]; omega
  obtain ⟨e0, e1, e2⟩ := idx_4 ⟨6 * (i 0).val + (i 2).val / 13824, hlt⟩
  refine ⟨⟨6 * (i 0).val + (i 2).val / 13824, hlt⟩, flush3_4 _, ?_⟩
  rw [mem_blk_4]
  intro a
  match a with
  | ⟨0, _⟩ =>
    show win3_4.index ⟨6 * (i 0).val + (i 2).val / 13824, hlt⟩ (0 : Fin 3) * 1 ≤ (i 0).val
      ∧ (i 0).val < win3_4.index ⟨6 * (i 0).val + (i 2).val / 13824, hlt⟩ (0 : Fin 3) * 1 + 1
    rw [e0]; show (6 * (i 0).val + (i 2).val / 13824) / 6 * 1 ≤ (i 0).val ∧ (i 0).val < (6 * (i 0).val + (i 2).val / 13824) / 6 * 1 + 1
    omega
  | ⟨1, _⟩ =>
    show win3_4.index ⟨6 * (i 0).val + (i 2).val / 13824, hlt⟩ (1 : Fin 3) * 1 ≤ (i 1).val
      ∧ (i 1).val < win3_4.index ⟨6 * (i 0).val + (i 2).val / 13824, hlt⟩ (1 : Fin 3) * 1 + 1
    rw [e1]; omega
  | ⟨2, _⟩ =>
    show win3_4.index ⟨6 * (i 0).val + (i 2).val / 13824, hlt⟩ (2 : Fin 3) * 13824 ≤ (i 2).val
      ∧ (i 2).val < win3_4.index ⟨6 * (i 0).val + (i 2).val / 13824, hlt⟩ (2 : Fin 3) * 13824 + 13824
    rw [e2]; show (6 * (i 0).val + (i 2).val / 13824) % 6 * 13824 ≤ (i 2).val ∧ (i 2).val < (6 * (i 0).val + (i 2).val / 13824) % 6 * 13824 + 13824
    omega

/-- The array of renewed coefficients after the run. -/
theorem arr_4 (c : Dev nD) : (dat3 V c).arrAt 4 cfg3.N = G4 V c :=
  (dat3 V c).arrAt_eq_of_cover 4 (G4 V c) (fun t _ => flushed_4 V c t) cover_4

end Cert.StepArr3

end
-- ==== Proof.StepArr3.lean ====
/-
  The coefficient-renewal step, pipeline 3: the accumulator array after the run, and the step's two output arrays in
  the words of the mathematics.

  The accumulator block of batch `b` is set to zero at the batch's first point and increased at each of its six points
  by that point's tile's share of `∑ n, X b d n · C' b n` (`C'` the renewed coefficients); it is written back after the
  sixth, when it holds `0 +` the six shares added in order, which is the whole sum.
-/
import proofs.«119537_j3693671875223_2_alg».proof.Proof.StepArr3b

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.StepArr3

open Cert.StepBody3

variable (V : (c : Dev nD) → (b : Ref sig .tc) → Buf (Elt Ideal) ((c : Thread nD τ).loc b))

/-- What point `n` adds to feature `d` of the accumulator (nothing past the grid: a total function of `n`). -/
def addend (c : Dev nD) (d : Fin 160) (n : ℕ) : EReal :=
  if h : n < cfg3.N then Cert.StepMath.tileSum (Xof V c) (Cnew V c) (bat ⟨n, h⟩) d (n % 6) else 0

/-- At a batch's first point the accumulator block is zero plus the point's addend. -/
theorem acc_first (c : Dev nD) (d : Fin 160) (n : ℕ) (h : n < cfg3.N) (h0 : n % 6 = 0) :
    (outsAt3 V c n h).2 (ix3 0 d 0) = 0 + addend V c d n := by
  rw [outsAt3_A V c ⟨n, h⟩ h0]
  dsimp only
  refine (out_A_5 c (grid3.coords ⟨n, h⟩) (ms3_0 ⟨n, h⟩) (hs3_0 ⟨n, h⟩) (ms3_1 ⟨n, h⟩) (hs3_1 ⟨n, h⟩) (ms3_2 ⟨n, h⟩)
    (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩)
    ((hcond3_0 ⟨n, h⟩).mpr h0) (iblk3 V c 0 ⟨n, h⟩) (iblk3 V c 1 ⟨n, h⟩) (iblk3 V c 2 ⟨n, h⟩) (iblk3 V c 3 ⟨n, h⟩) d).trans ?_
  rw [contrib_point V c ⟨n, h⟩ d]
  unfold addend
  rw [dif_pos h]

/-- At a later point it is what the point before left plus the point's addend. -/
theorem acc_step (c : Dev nD) (d : Fin 160) (n : ℕ) (h : n + 1 < cfg3.N) (h0 : ¬(n + 1) % 6 = 0) :
    (outsAt3 V c (n + 1) h).2 (ix3 0 d 0)
      = (outsAt3 V c n (Nat.lt_of_succ_lt h)).2 (ix3 0 d 0) + addend V c d (n + 1) := by
  rw [outsAt3_B V c ⟨n + 1, h⟩ h0]
  dsimp only
  refine (out_B_5 c (grid3.coords ⟨n + 1, h⟩) (ms3_0 ⟨n + 1, h⟩) (hs3_0 ⟨n + 1, h⟩) (ms3_1 ⟨n + 1, h⟩) (hs3_1 ⟨n + 1, h⟩)
    (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩)
    (ms3_5 ⟨n + 1, h⟩) (hs3_5 ⟨n + 1, h⟩) (fun hc => h0 ((hcond3_0 ⟨n + 1, h⟩).mp hc)) (iblk3 V c 0 ⟨n + 1, h⟩)
    (iblk3 V c 1 ⟨n + 1, h⟩) (iblk3 V c 2 ⟨n + 1, h⟩) (iblk3 V c 3 ⟨n + 1, h⟩)
    (outsAt3 V c ((⟨n + 1, h⟩ : Fin cfg3.N).val - 1) (Nat.lt_of_le_of_lt (Nat.sub_le _ _) (⟨n + 1, h⟩ : Fin cfg3.N).isLt)).2 d).trans ?_
  rw [contrib_point V c ⟨n + 1, h⟩ d]
  unfold addend
  rw [dif_pos h]
  rfl

/-- At the sixth point of a batch the accumulator block holds the data's projection on the renewed coefficients. -/
theorem acc_last (c : Dev nD) (d : Fin 160) (t : Fin cfg3.N) (h5 : t.val % 6 = 5) :
    (outsAt3 V c t.val t.isLt).2 (ix3 0 d 0) = Cert.Nmf.projC (Xof V c) (Cnew V c) (bat t) d := by
  have hN' : cfg3.N = 24 := hN
  have ht := t.isLt
  rw [Cert.StepMath.running_sum_last (fun n h => (outsAt3 V c n h).2 (ix3 0 d 0)) (addend V c d)
    (acc_first V c d) (acc_step V c d) t.val t.isLt h5, Cert.StepMath.projC_eq_tiles]
  refine Finset.sum_congr rfl fun k hk => ?_
  have hk6 : k < 6 := Finset.mem_range.mp hk
  have hlt : 6 * (t.val / 6) + k < cfg3.N := by omega
  unfold addend
  rw [dif_pos hlt]
  have hb : bat (⟨6 * (t.val / 6) + k, hlt⟩ : Fin cfg3.N) = bat t := Fin.ext (by show (6 * (t.val / 6) + k) / 6 = t.val / 6; omega)
  rw [hb]
  exact congrArg (Cert.StepMath.tileSum (Xof V c) (Cnew V c) (bat t) d) (by omega)

/-- The accumulator array, by its index. -/
def G5 (c : Dev nD) : S4x160x1.Idx → EReal := fun i => Cert.Nmf.projC (Xof V c) (Cnew V c) (i 0) (i 1)

/-- A block of the accumulator array, read at an index of the block, is the array at the index's place in it. -/
theorem read_blk_5 (t : Fin cfg3.N) (G : S4x160x1.Idx → EReal) (y : S1x160x1.Idx) :
    ((cfg3.win 5).blk t).view.read (Elt Ideal) G y = G (((cfg3.win 5).blk t).view.emb y) := rfl

/-- What a batch's sixth point writes back is its block of the array of projections. -/
theorem flushed_5 (c : Dev nD) (t : Fin cfg3.N) (hf : (cfg3.win 5).flush t = true) :
    (dat3 V c).flushed 5 t = ((cfg3.win 5).blk t).view.read (Elt Ideal) (G5 V c) := by
  have h5 : t.val % 6 = 5 := (flush3_5 t).mp hf
  show (cfg3.win 5).cut (grid3.coords t) ((dat3 V c).after 5 t) = _
  rw [after3_5]
  obtain ⟨e0, e1, e2⟩ := idx_5 t
  funext y
  obtain ⟨a, d, b, rfl⟩ : ∃ (a : Fin 1) (d : Fin 160) (b : Fin 1), y = ix3 a d b :=
    ⟨y 0, y 1, y 2, @eq_ix3 1 160 1 y⟩
  obtain rfl : a = 0 := Subsingleton.elim _ _
  obtain rfl : b = 0 := Subsingleton.elim _ _
  refine Eq.trans ?_ (read_blk_5 t (G5 V c) (ix3 0 d 0)).symm
  show (outsAt3 V c t.val t.isLt).2 (ix3 0 d 0) = G5 V c (((cfg3.win 5).blk t).view.emb (ix3 0 d 0))
  rw [acc_last V c d t h5]
  unfold G5
  refine congrArg₂ (Cert.Nmf.projC (Xof V c) (Cnew V c)) (Fin.ext ?_) (Fin.ext ?_)
  · show t.val / 6 = win3_5.index t (0 : Fin 3) * 1 + 1 * 0
    rw [e0]; omega
  · show d.val = win3_5.index t (1 : Fin 3) * 160 + 1 * d.val
    rw [e1]; omega

/-- An index of the array is in point `t`'s block iff each coordinate is in the block's range on its axis. -/
theorem mem_blk_5 (t : Fin cfg3.N) (i : S4x160x1.Idx) :
    i ∈ ((cfg3.win 5).blk t).view.set ↔ ∀ a : Fin 3, win3_5.index t a * S1x160x1.size a ≤ (i a).val
      ∧ (i a).val < win3_5.index t a * S1x160x1.size a + S1x160x1.size a := by
  show i ∈ ((View.whole main_v44_1).slice (win3_5.rect t)).set ↔ _
  rw [View.set_slice_whole, Rect.mem_set_unit]
  exact Iff.rfl

/-- Row `b` of the accumulator array lies in the block of point `6·b + 5`, the batch's sixth, which writes it back. -/
theorem cover_5 (i : S4x160x1.Idx) :
    ∃ t : Fin cfg3.N, (cfg3.win 5).flush t = true ∧ i ∈ ((cfg3.win 5).blk t).view.set := by
  have h0 : (i 0).val < 4 := (i 0).isLt
  have h1 : (i 1).val < 160 := (i 1).isLt
  have h2 : (i 2).val < 1 := (i 2).isLt
  have hlt : 6 * (i 0).val + 5 < cfg3.N := by rw [hN]; omega
  obtain ⟨e0, e1, e2⟩ := idx_5 ⟨6 * (i 0).val + 5, hlt⟩
  refine ⟨⟨6 * (i 0).val + 5, hlt⟩, (flush3_5 _).mpr (by show (6 * (i 0).val + 5) % 6 = 5; omega), ?_⟩
  rw [mem_blk_5]
  intro a
  match a with
  | ⟨0, _⟩ =>
    show win3_5.index ⟨6 * (i 0).val + 5, hlt⟩ (0 : Fin 3) * 1 ≤ (i 0).val
      ∧ (i 0).val < win3_5.index ⟨6 * (i 0).val + 5, hlt⟩ (0 : Fin 3) * 1 + 1
    rw [e0]; show (6 * (i 0).val + 5) / 6 * 1 ≤ (i 0).val ∧ (i 0).val < (6 * (i 0).val + 5) / 6 * 1 + 1
    omega
  | ⟨1, _⟩ =>
    show win3_5.index ⟨6 * (i 0).val + 5, hlt⟩ (1 : Fin 3) * 160 ≤ (i 1).val
      ∧ (i 1).val < win3_5.index ⟨6 * (i 0).val + 5, hlt⟩ (1 : Fin 3) * 160 + 160
    rw [e1]; omega
  | ⟨2, _⟩ =>
    show win3_5.index ⟨6 * (i 0).val + 5, hlt⟩ (2 : Fin 3) * 1 ≤ (i 2).val
      ∧ (i 2).val < win3_5.index ⟨6 * (i 0).val + 5, hlt⟩ (2 : Fin 3) * 1 + 1
    rw [e2]; omega

/-- The accumulator array after the run. -/
theorem arr_5 (c : Dev nD) : (dat3 V c).arrAt 5 cfg3.N = G5 V c :=
  (dat3 V c).arrAt_eq_of_cover 5 (G5 V c) (flushed_5 V c) cover_5

/-! ## The step's two output arrays -/

/-- After the run the coefficient array holds, at batch `b` and position `n`, the renewed coefficient. -/
theorem coef_final (c : Dev nD) (b : Fin 4) (n : Fin 82944) :
    ((dat3 (F := Ideal) V c).arrAt 4 cfg3.N : S4x1x82944.Idx → EReal) (ix3 b 0 n)
      = Cert.Nmf.coefUpd (Xof V c) (Bof V c) (Tof V c) (Cof V c) b n :=
  congrFun (arr_4 V c) (ix3 b 0 n)

/-- After the run the accumulator array holds, at batch `b` and feature `d`, the data's projection on the renewed
    coefficients. -/
theorem numb_final (c : Dev nD) (b : Fin 4) (d : Fin 160) :
    ((dat3 (F := Ideal) V c).arrAt 5 cfg3.N : S4x160x1.Idx → EReal) (ix3 b d 0)
      = Cert.Nmf.projC (Xof V c) (Cert.Nmf.coefUpd (Xof V c) (Bof V c) (Tof V c) (Cof V c)) b d :=
  congrFun (arr_5 V c) (ix3 b d 0)

end Cert.StepArr3

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.FinalBody.lean ====
/-
  One grid point of the last kernel, as mathematics.  The point holds a block of the data `x0 (0, d, n)` (160 features,
  9216 positions), the fitted basis `x1 (0, d, 0)`, its squared length `x2 (0, 0, 0)` and the coefficients
  `x3 (0, 0, n)`.  It leaves, at feature `d` and position `n` of its output block, the basis entry times the
  coefficient renewed once more:
      x1 d · ( x3 n · (∑ d', x0 d' n · x1 d') / (x3 n · x2 + ε) ).
-/
import proofs.«119537_j3693671875223_2_alg».proof.Proof.Gen.KernelIdeal.Frame
import proofs.«119537_j3693671875223_2_alg».proof.Proof.Spec
import proofs.«119537_j3693671875223_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Cert.KernelIdeal Cert.KernelIdeal.Gen

namespace Cert.FinalArr

/-- The index a sum over the feature axis inserts: feature `d'` at position `j`. -/
theorem lift_feature (j : Fin 9216) (d' : Fin 160) :
    (reduces_S160x9216_S9216.lift (ix1 j) d' : S160x9216.Idx) = ix2 d' j :=
  funext fun a => Fin.ext (by match a with | ⟨0, _⟩ => rfl | ⟨1, _⟩ => rfl)

/-- One block of the last kernel, entry by entry: the basis entry of feature `d` times the renewed coefficient of
    position `j`, which is the old coefficient times the data's projection on the basis, over the old coefficient
    times the basis' squared length plus the regulariser. -/
theorem pay_final (x0 : Vec Ideal S1x160x9216 .f32) (x1 : Vec Ideal S1x160x1 .f32) (x2 : Vec Ideal S1x1x1 .f32)
    (x3 : Vec Ideal S1x1x9216 .f32) (d : Fin 160) (j : Fin 9216) :
    k4_pay1 (F := Ideal) x0 x1 x2 x3 (ix3 0 d j)
      = x1 (ix3 0 d 0) * Ideal.div (x3 (ix3 0 0 j) * ∑ d' : Fin 160, x0 (ix3 0 d' j) * x1 (ix3 0 d' 0))
          (x3 (ix3 0 0 j) * x2 (ix3 0 0 0) + Cert.Nmf.eps) := by
  unfold k4_pay1
  refine (shapeCast_ab_1ab_apply _ _ 0 d j).trans ?_
  refine (mulf_apply _ _ _).trans ?_
  refine congrArg₂ (· * ·) ?_ ?_
  · exact (broadcastTo_a1_ab_apply _ _ d j).trans (shapeCast_1ab_ab_apply _ _ d 0)
  refine (broadcastTo_1b_ab_apply _ _ d j).trans ?_
  refine (divf_apply _ _ _).trans ?_
  refine congrArg₂ Ideal.div ?_ ?_
  · refine (mulf_apply _ _ _).trans ?_
    refine congrArg₂ (· * ·) ?_ ?_
    · exact shapeCast_1ab_ab_apply _ _ 0 j
    refine (shapeCast_a_1a_apply _ _ 0 j).trans ?_
    refine (Ideal.multiReduction_add_single _ _ reduces_S160x9216_S9216 _ _ (ix1 j)).trans ?_
    refine Finset.sum_congr rfl fun (d' : Fin 160) _ => ?_
    refine (congrArg _ (lift_feature j d')).trans ?_
    refine (mulf_apply _ _ _).trans ?_
    refine congrArg₂ (· * ·) ?_ ?_
    · exact shapeCast_1ab_ab_apply _ _ d' j
    · exact (broadcastTo_a1_ab_apply _ _ d' j).trans (shapeCast_1ab_ab_apply _ _ d' 0)
  · refine (addf_apply _ _ _).trans ?_
    refine congrArg₂ (· + ·) ?_ ?_
    · refine (mulf_apply _ _ _).trans ?_
      refine congrArg₂ (· * ·) ?_ ?_
      · exact shapeCast_1ab_ab_apply _ _ 0 j
      · exact (broadcastTo_a1_ab_apply _ _ 0 j).trans (shapeCast_1ab_ab_apply _ _ 0 0)
    · rfl

/-- The offset of a store that fills its whole buffer is zero on every axis. -/
theorem zero_offset : (![0, 0, 0] : Fin 3 → Nat) = fun _ => 0 := funext fun a => by fin_cases a <;> rfl

/-- What the point leaves in its output block, entry by entry: its one store fills the block with the product above
    of the four blocks it loaded whole. -/
theorem blk_final (x0 : Vec Ideal S1x160x9216 .f32) (x1 : Vec Ideal S1x160x1 .f32) (x2 : Vec Ideal S1x1x1 .f32)
    (x3 : Vec Ideal S1x1x9216 .f32) (d : Fin 160) (j : Fin 9216) :
    out4_4 (F := Ideal) x0 x1 x2 x3 (ix3 0 d j)
      = x1 (ix3 0 d 0) * Ideal.div (x3 (ix3 0 0 j) * ∑ d' : Fin 160, x0 (ix3 0 d' j) * x1 (ix3 0 d' 0))
          (x3 (ix3 0 0 j) * x2 (ix3 0 0 0) + Cert.Nmf.eps) := by
  unfold out4_4
  rw [View.canon_unit_zero zero_offset]
  simp only [View.ld_unit_zero (S := S1x160x9216) zero_offset, View.ld_unit_zero (S := S1x160x1) zero_offset,
    View.ld_unit_zero (S := S1x1x1) zero_offset, View.ld_unit_zero (S := S1x1x9216) zero_offset]
  exact pay_final x0 x1 x2 x3 d j

end Cert.FinalArr

end
-- ==== Proof.FinalArr.lean ====
/-
  The last kernel, from its grid points to its output array.  The grid has 36 points: point `t` serves batch `t / 9`
  and the tile of 9216 positions `9216 · (t % 9) … 9216 · (t % 9) + 9215`.  At that point the kernel holds the data
  block of that batch and tile (all 160 features), the batch's basis vector and its squared length, and the tile of
  the batch's coefficients; it writes back, at feature `d` and position `n` of the same batch and tile, the basis
  entry times the coefficient renewed once more.  Every entry `(b, d, n)` of the output lies in the block of exactly
  the point `9 b + n / 9216`, so after the run the array is that product everywhere.
-/
import proofs.«119537_j3693671875223_2_alg».proof.Proof.Gen.KernelIdeal.Frame
import proofs.«119537_j3693671875223_2_alg».proof.Proof.Spec
import proofs.«119537_j3693671875223_2_alg».proof.Proof.FinalBody
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Cert.KernelIdeal Cert.KernelIdeal.Gen

namespace Cert.FinalArr

variable (V : (c : Dev nD) → (b : Ref sig .tc) → Buf (Elt Ideal) ((c : Thread nD τ).loc b))

/-- The data as the last kernel finds it, by batch, feature and position. -/
def Xof (c : Dev nD) : Fin 4 → Fin 160 → Fin 82944 → EReal :=
  fun b d n => (V c (Pipeline.arrRef spec4 0) : S4x160x82944.Idx → EReal) (ix3 b d n)

/-- The fitted basis as the last kernel finds it, by batch and feature. -/
def Bof (c : Dev nD) : Fin 4 → Fin 160 → EReal :=
  fun b d => (V c (Pipeline.arrRef spec4 1) : S4x160x1.Idx → EReal) (ix3 b d 0)

/-- The basis' squared length as the last kernel finds it, by batch. -/
def Tof (c : Dev nD) : Fin 4 → EReal :=
  fun b => (V c (Pipeline.arrRef spec4 2) : S4x1x1.Idx → EReal) (ix3 b 0 0)

/-- The coefficients as the last kernel finds them, by batch and position. -/
def Cof (c : Dev nD) : Fin 4 → Fin 82944 → EReal :=
  fun b n => (V c (Pipeline.arrRef spec4 3) : S4x1x82944.Idx → EReal) (ix3 b 0 n)

/-- What the output array ends holding: the basis entry times the coefficient renewed once more. -/
def outerArr (c : Dev nD) : S4x160x82944.Idx → EReal := fun i =>
  Bof V c (i 0) (i 1) * Cert.Nmf.coefUpd (Xof V c) (Bof V c) (Tof V c) (Cof V c) (i 0) (i 2)

/-- The batch a grid point serves. -/
def batchOf (t : Fin cfg4.N) : Fin 4 :=
  ⟨t.val / 9, by have := t.isLt; have hN : cfg4.N = 36 := N_4; omega⟩

/-- The position in the whole array of position `j` of a grid point's tile. -/
def posOf (t : Fin cfg4.N) (j : Fin 9216) : Fin 82944 :=
  ⟨9216 * (t.val % 9) + j.val, by have := j.isLt; omega⟩

/-- The block indices of the five windows at every grid point, decided over the 36 points: every window follows the
    point's batch; the data, the coefficients and the output also follow its tile. -/
theorem block_indices : ∀ t : Fin cfg4.N,
    win4_0.index t (0 : Fin 3) = t.val / 9 ∧ win4_0.index t (1 : Fin 3) = 0 ∧ win4_0.index t (2 : Fin 3) = t.val % 9
    ∧ win4_1.index t (0 : Fin 3) = t.val / 9 ∧ win4_1.index t (1 : Fin 3) = 0 ∧ win4_1.index t (2 : Fin 3) = 0
    ∧ win4_2.index t (0 : Fin 3) = t.val / 9 ∧ win4_2.index t (1 : Fin 3) = 0 ∧ win4_2.index t (2 : Fin 3) = 0
    ∧ win4_3.index t (0 : Fin 3) = t.val / 9 ∧ win4_3.index t (1 : Fin 3) = 0 ∧ win4_3.index t (2 : Fin 3) = t.val % 9
    ∧ win4_4.index t (0 : Fin 3) = t.val / 9 ∧ win4_4.index t (1 : Fin 3) = 0 ∧ win4_4.index t (2 : Fin 3) = t.val % 9 :=
  (by decide +kernel : ∀ t : Fin grid4.N, _)

/-- The data block at a point is the data of the point's batch and tile. -/
theorem data_blk (c : Dev nD) (t : Fin cfg4.N) (d' : Fin 160) (j : Fin 9216) :
    iblk4 V c 0 t (ix3 0 d' j) = Xof V c (batchOf t) d' (posOf t j) := by
  obtain ⟨e0, e1, e2, -⟩ := block_indices t
  show V c (Pipeline.arrRef spec4 0) (((cfg4.win 0).blk t).view.emb (ix3 0 d' j))
    = V c (Pipeline.arrRef spec4 0) (ix3 (batchOf t) d' (posOf t j))
  refine congrArg (V c (Pipeline.arrRef spec4 0)) ?_
  funext a; apply Fin.ext
  match a with
  | ⟨0, _⟩ => show win4_0.index t (0 : Fin 3) * 1 + 1 * 0 = t.val / 9; omega
  | ⟨1, _⟩ => show win4_0.index t (1 : Fin 3) * 160 + 1 * d'.val = d'.val; omega
  | ⟨2, _⟩ => show win4_0.index t (2 : Fin 3) * 9216 + 1 * j.val = 9216 * (t.val % 9) + j.val; omega

/-- The basis block at a point is the basis vector of the point's batch. -/
theorem basis_blk (c : Dev nD) (t : Fin cfg4.N) (d' : Fin 160) :
    iblk4 V c 1 t (ix3 0 d' 0) = Bof V c (batchOf t) d' := by
  obtain ⟨-, -, -, e0, e1, e2, -⟩ := block_indices t
  show V c (Pipeline.arrRef spec4 1) (((cfg4.win 1).blk t).view.emb (ix3 0 d' 0))
    = V c (Pipeline.arrRef spec4 1) (ix3 (batchOf t) d' 0)
  refine congrArg (V c (Pipeline.arrRef spec4 1)) ?_
  funext a; apply Fin.ext
  match a with
  | ⟨0, _⟩ => show win4_1.index t (0 : Fin 3) * 1 + 1 * 0 = t.val / 9; omega
  | ⟨1, _⟩ => show win4_1.index t (1 : Fin 3) * 160 + 1 * d'.val = d'.val; omega
  | ⟨2, _⟩ => show win4_1.index t (2 : Fin 3) * 1 + 1 * 0 = 0; omega

/-- The one-entry block at a point is the squared length of the basis of the point's batch. -/
theorem sq_blk (c : Dev nD) (t : Fin cfg4.N) :
    iblk4 V c 2 t (ix3 0 0 0) = Tof V c (batchOf t) := by
  obtain ⟨-, -, -, -, -, -, e0, e1, e2, -⟩ := block_indices t
  show V c (Pipeline.arrRef spec4 2) (((cfg4.win 2).blk t).view.emb (ix3 0 0 0))
    = V c (Pipeline.arrRef spec4 2) (ix3 (batchOf t) 0 0)
  refine congrArg (V c (Pipeline.arrRef spec4 2)) ?_
  funext a; apply Fin.ext
  match a with
  | ⟨0, _⟩ => show win4_2.index t (0 : Fin 3) * 1 + 1 * 0 = t.val / 9; omega
  | ⟨1, _⟩ => show win4_2.index t (1 : Fin 3) * 1 + 1 * 0 = 0; omega
  | ⟨2, _⟩ => show win4_2.index t (2 : Fin 3) * 1 + 1 * 0 = 0; omega

/-- The coefficient block at a point is the coefficients of the point's batch and tile. -/
theorem coef_blk (c : Dev nD) (t : Fin cfg4.N) (j : Fin 9216) :
    iblk4 V c 3 t (ix3 0 0 j) = Cof V c (batchOf t) (posOf t j) := by
  obtain ⟨-, -, -, -, -, -, -, -, -, e0, e1, e2, -⟩ := block_indices t
  show V c (Pipeline.arrRef spec4 3) (((cfg4.win 3).blk t).view.emb (ix3 0 0 j))
    = V c (Pipeline.arrRef spec4 3) (ix3 (batchOf t) 0 (posOf t j))
  refine congrArg (V c (Pipeline.arrRef spec4 3)) ?_
  funext a; apply Fin.ext
  match a with
  | ⟨0, _⟩ => show win4_3.index t (0 : Fin 3) * 1 + 1 * 0 = t.val / 9; omega
  | ⟨1, _⟩ => show win4_3.index t (1 : Fin 3) * 1 + 1 * 0 = 0; omega
  | ⟨2, _⟩ => show win4_3.index t (2 : Fin 3) * 9216 + 1 * j.val = 9216 * (t.val % 9) + j.val; omega

/-- Where an entry of a point's output block sits in the array: same feature, the point's batch and tile. -/
theorem out_blk_emb (t : Fin cfg4.N) (d : Fin 160) (j : Fin 9216) :
    (((cfg4.win 4).blk t).view.emb (ix3 0 d j) : S4x160x82944.Idx) = ix3 (batchOf t) d (posOf t j) := by
  obtain ⟨-, -, -, -, -, -, -, -, -, -, -, -, e0, e1, e2⟩ := block_indices t
  funext a; apply Fin.ext
  match a with
  | ⟨0, _⟩ => show win4_4.index t (0 : Fin 3) * 1 + 1 * 0 = t.val / 9; omega
  | ⟨1, _⟩ => show win4_4.index t (1 : Fin 3) * 160 + 1 * d.val = d.val; omega
  | ⟨2, _⟩ => show win4_4.index t (2 : Fin 3) * 9216 + 1 * j.val = 9216 * (t.val % 9) + j.val; omega

/-- WHAT POINT `t` WRITES BACK is block `t` of `outerArr`. -/
theorem flushed_final (c : Dev nD) (t : Fin cfg4.N) :
    (dat4 (F := Ideal) V c).flushed 4 t = ((cfg4.win 4).blk t).view.read (Elt Ideal) (outerArr V c) := by
  show (cfg4.win 4).cut (grid4.coords t) ((dat4 V c).after 4 t) = _
  rw [after4_4]
  funext y
  obtain ⟨u, d, j, rfl⟩ : ∃ (u : Fin 1) (d : Fin 160) (j : Fin 9216), y = ix3 u d j := ⟨y 0, y 1, y 2, eq_ix3 y⟩
  obtain rfl : u = 0 := Subsingleton.elim _ _
  show out4_4 (iblk4 V c 0 t) (iblk4 V c 1 t) (iblk4 V c 2 t) (iblk4 V c 3 t) (ix3 0 d j)
    = outerArr V c (((cfg4.win 4).blk t).view.emb (ix3 0 d j))
  refine (blk_final (iblk4 V c 0 t) (iblk4 V c 1 t) (iblk4 V c 2 t) (iblk4 V c 3 t) d j).trans ?_
  refine Eq.trans ?_ (congrArg (outerArr V c) (out_blk_emb t d j)).symm
  simp only [data_blk V c t, basis_blk V c t, sq_blk V c t, coef_blk V c t]
  rfl

/-- An index of the array is in point `t`'s block iff each coordinate is in the block's range on its axis. -/
theorem mem_out_blk (t : Fin cfg4.N) (i : S4x160x82944.Idx) :
    i ∈ ((cfg4.win 4).blk t).view.set ↔ ∀ a : Fin 3, win4_4.index t a * S1x160x9216.size a ≤ (i a).val
      ∧ (i a).val < win4_4.index t a * S1x160x9216.size a + S1x160x9216.size a := by
  show i ∈ ((View.whole main_v57).slice (win4_4.rect t)).set ↔ _
  rw [View.set_slice_whole, Rect.mem_set_unit]
  exact Iff.rfl

/-- Every entry of the output is in some point's block: entry `(b, d, n)` in that of point `9 b + n / 9216`. -/
theorem out_covered (i : S4x160x82944.Idx) :
    ∃ t : Fin cfg4.N, (cfg4.win 4).flush t = true ∧ i ∈ ((cfg4.win 4).blk t).view.set := by
  have hN : cfg4.N = 36 := N_4
  have h0 : (i 0).val < 4 := (i 0).isLt
  have h1 : (i 1).val < 160 := (i 1).isLt
  have h2 : (i 2).val < 82944 := (i 2).isLt
  obtain ⟨t, ht⟩ : ∃ t : Fin cfg4.N, t.val = 9 * (i 0).val + (i 2).val / 9216 := ⟨⟨_, by omega⟩, rfl⟩
  obtain ⟨-, -, -, -, -, -, -, -, -, -, -, -, e0, e1, e2⟩ := block_indices t
  refine ⟨t, flush4_4 t, ?_⟩
  rw [mem_out_blk]
  intro a
  match a with
  | ⟨0, _⟩ =>
    show win4_4.index t (0 : Fin 3) * 1 ≤ (i 0).val ∧ (i 0).val < win4_4.index t (0 : Fin 3) * 1 + 1
    omega
  | ⟨1, _⟩ =>
    show win4_4.index t (1 : Fin 3) * 160 ≤ (i 1).val ∧ (i 1).val < win4_4.index t (1 : Fin 3) * 160 + 160
    omega
  | ⟨2, _⟩ =>
    show win4_4.index t (2 : Fin 3) * 9216 ≤ (i 2).val ∧ (i 2).val < win4_4.index t (2 : Fin 3) * 9216 + 9216
    omega

/-- THE ARRAY after the last kernel's run: `outerArr` of the arrays the kernel found. -/
theorem arr_final (c : Dev nD) : (dat4 (F := Ideal) V c).arrAt 4 cfg4.N = outerArr V c :=
  (dat4 (F := Ideal) V c).arrAt_eq_of_cover 4 (outerArr V c) (fun t _ => flushed_final V c t) out_covered

/-- Entry by entry: the output at batch `b`, feature `d`, position `n` is the basis entry times the coefficient
    renewed once more from the data, the basis, its squared length and the coefficients the kernel found. -/
theorem out_final (c : Dev nD) (b : Fin 4) (d : Fin 160) (n : Fin 82944) :
    ((dat4 (F := Ideal) V c).arrAt 4 cfg4.N : S4x160x82944.Idx → EReal) (ix3 b d n)
      = Bof V c b d * Cert.Nmf.coefUpd (Xof V c) (Bof V c) (Tof V c) (Cof V c) b n := by
  rw [arr_final]
  rfl

end Cert.FinalArr

end
-- ==== Proof.KChain.lean ====
/-
  The kernel program's chain of host stretches and kernel regions, read as mathematics.  Writing `X` for the data as a
  [4,160,82944] array and `(B, C)` for the current basis and coefficients, every step region renews the coefficients
  and accumulates the projection `∑ n, X b d n · C' b n`; the host stretch after it renews the basis from that
  projection and the coefficients' squared length, and recomputes the basis' squared length — together one round of
  the iteration.  Four rounds from coefficients all one, then the final region forms the outer product with the
  coefficients renewed once more, and the last stretch gives the result its five-axis shape.
-/
import proofs.«119537_j3693671875223_2_alg».proof.Proof.KRun
import proofs.«119537_j3693671875223_2_alg».proof.Proof.HostMath
import proofs.«119537_j3693671875223_2_alg».proof.Proof.StepArr0
import proofs.«119537_j3693671875223_2_alg».proof.Proof.StepArr1
import proofs.«119537_j3693671875223_2_alg».proof.Proof.StepArr2
import proofs.«119537_j3693671875223_2_alg».proof.Proof.StepArr3
import proofs.«119537_j3693671875223_2_alg».proof.Proof.FinalArr
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

namespace Cert.KChain

/-! ## The host stretches' two computed arrays -/

/-- The renewed basis as the host computes it: `B · P / (B · |C|² + ε)`. -/
def basesArr (Bv Nb : S4x160x1.Idx → EReal) (Co : S4x1x82944.Idx → EReal) : S4x160x1.Idx → EReal :=
  Host.divf (F := Ideal) (mulf (F := Ideal) Bv Nb)
    (addf (F := Ideal) (mulf (F := Ideal) Bv (broadcastInDim S4x160x1 ![0, 1, 2] bcast_S4x1x1_S4x160x1_0_1_2
      (broadcastInDim S4x1x1 ![0, 1] bcast_S4x1_S4x1x1_0_1
        (Host.reduceAdd (F := Ideal) (mulf (F := Ideal) Co Co) (constant (F := Ideal) S_ .f32 0x00000000#32) reducesTo_S4x1x82944_S4x1_d2 h_S_))))
      (broadcastInDim S4x160x1 ![] bcast_S_S4x160x1 (constant (F := Ideal) S_ .f32 0x358637BD#32)))

/-- A basis' squared length as the host computes it, a [4,1,1] array. -/
def sqArr (Bv : S4x160x1.Idx → EReal) : S4x1x1.Idx → EReal :=
  broadcastInDim S4x1x1 ![0, 2] bcast_S4x1_S4x1x1_0_2
    (Host.reduceAdd (F := Ideal) (mulf (F := Ideal) Bv Bv) (constant (F := Ideal) S_ .f32 0x00000000#32) reducesTo_S4x160x1_S4x1_d1 h_S_)

theorem basesArr_apply (Bv Nb : S4x160x1.Idx → EReal) (Co : S4x1x82944.Idx → EReal) (b : Fin 4) (d : Fin 160) :
    basesArr Bv Nb Co (ix3 b d (0 : Fin 1))
      = Cert.Nmf.basesUpd (fun b d => Bv (ix3 b d (0 : Fin 1))) (fun b d => Nb (ix3 b d (0 : Fin 1)))
          (Cert.Nmf.sqC (fun b n => Co (ix3 b (0 : Fin 1) n))) b d := by
  unfold basesArr
  rw [Cert.HostMath.bases_host]
  exact congrArg (fun S => Cert.Nmf.basesUpd (fun b d => Bv (ix3 b d (0 : Fin 1))) (fun b d => Nb (ix3 b d (0 : Fin 1))) S b d)
    (funext fun b' => Cert.HostMath.sqC_host Co _ (by decide) _ _ b')

theorem sqArr_apply (Bv : S4x160x1.Idx → EReal) (b : Fin 4) :
    sqArr Bv (ix3 b (0 : Fin 1) (0 : Fin 1)) = Cert.Nmf.sqB (fun b d => Bv (ix3 b d (0 : Fin 1))) b :=
  Cert.HostMath.sqB_host Bv _ (by decide) _ _ b

/-! ## Each host stretch, from any contents `W` -/

section Stretches
variable (W : Valuation τ sig (Elt Ideal))

set_option maxHeartbeats 4000000 in
theorem stretch0_0 :
    after (hostOps0 (F := Ideal)) W (Proc.devRef .tc main_v0) = shapeCast S4x160x82944 (W (Proc.devRef .tc main_arg0)) shapeCasts_S4x16x160x72x72_S4x160x82944 := by
  after_results_simp <;> rfl

set_option maxHeartbeats 4000000 in
theorem stretch0_1 :
    after (hostOps0 (F := Ideal)) W (Proc.devRef .tc main_arg1) = W (Proc.devRef .tc main_arg1) := by
  after_results_simp <;> rfl

set_option maxHeartbeats 4000000 in
theorem stretch0_2 :
    after (hostOps0 (F := Ideal)) W (Proc.devRef .tc main_v4) = sqArr (W (Proc.devRef .tc main_arg1)) := by
  after_results_simp <;> rfl

set_option maxHeartbeats 4000000 in
theorem stretch0_3 :
    after (hostOps0 (F := Ideal)) W (Proc.devRef .tc main_v1) = broadcastInDim S4x1x82944 ![] bcast_S_S4x1x82944 (constant (F := Ideal) S_ .f32 0x3F800000#32) := by
  after_results_simp <;> rfl

theorem stretch0 :
    after (hostOps0 (F := Ideal)) W (Proc.devRef .tc main_v0) = shapeCast S4x160x82944 (W (Proc.devRef .tc main_arg0)) shapeCasts_S4x16x160x72x72_S4x160x82944
    ∧ after (hostOps0 (F := Ideal)) W (Proc.devRef .tc main_arg1) = W (Proc.devRef .tc main_arg1)
    ∧ after (hostOps0 (F := Ideal)) W (Proc.devRef .tc main_v4) = sqArr (W (Proc.devRef .tc main_arg1))
    ∧ after (hostOps0 (F := Ideal)) W (Proc.devRef .tc main_v1) = broadcastInDim S4x1x82944 ![] bcast_S_S4x1x82944 (constant (F := Ideal) S_ .f32 0x3F800000#32) :=
  ⟨stretch0_0 W, stretch0_1 W, stretch0_2 W, stretch0_3 W⟩

set_option maxHeartbeats 4000000 in
theorem stretch1_0 :
    after (hostOps1 (F := Ideal)) W (Proc.devRef .tc main_v0) = W (Proc.devRef .tc main_v0) := by
  after_results_simp <;> rfl

set_option maxHeartbeats 4000000 in
theorem stretch1_1 :
    after (hostOps1 (F := Ideal)) W (Proc.devRef .tc main_v5_0) = W (Proc.devRef .tc main_v5_0) := by
  after_results_simp <;> rfl

set_option maxHeartbeats 4000000 in
theorem stretch1_2 :
    after (hostOps1 (F := Ideal)) W (Proc.devRef .tc main_v14) = basesArr (W (Proc.devRef .tc main_arg1)) (W (Proc.devRef .tc main_v5_1)) (W (Proc.devRef .tc main_v5_0)) := by
  after_results_simp <;> rfl

set_option maxHeartbeats 4000000 in
theorem stretch1_3 :
    after (hostOps1 (F := Ideal)) W (Proc.devRef .tc main_v17) = sqArr (basesArr (W (Proc.devRef .tc main_arg1)) (W (Proc.devRef .tc main_v5_1)) (W (Proc.devRef .tc main_v5_0))) := by
  after_results_simp <;> rfl

theorem stretch1 :
    after (hostOps1 (F := Ideal)) W (Proc.devRef .tc main_v0) = W (Proc.devRef .tc main_v0)
    ∧ after (hostOps1 (F := Ideal)) W (Proc.devRef .tc main_v5_0) = W (Proc.devRef .tc main_v5_0)
    ∧ after (hostOps1 (F := Ideal)) W (Proc.devRef .tc main_v14) = basesArr (W (Proc.devRef .tc main_arg1)) (W (Proc.devRef .tc main_v5_1)) (W (Proc.devRef .tc main_v5_0))
    ∧ after (hostOps1 (F := Ideal)) W (Proc.devRef .tc main_v17) = sqArr (basesArr (W (Proc.devRef .tc main_arg1)) (W (Proc.devRef .tc main_v5_1)) (W (Proc.devRef .tc main_v5_0))) :=
  ⟨stretch1_0 W, stretch1_1 W, stretch1_2 W, stretch1_3 W⟩

set_option maxHeartbeats 4000000 in
theorem stretch2_0 :
    after (hostOps2 (F := Ideal)) W (Proc.devRef .tc main_v0) = W (Proc.devRef .tc main_v0) := by
  after_results_simp <;> rfl

set_option maxHeartbeats 4000000 in
theorem stretch2_1 :
    after (hostOps2 (F := Ideal)) W (Proc.devRef .tc main_v18_0) = W (Proc.devRef .tc main_v18_0) := by
  after_results_simp <;> rfl

set_option maxHeartbeats 4000000 in
theorem stretch2_2 :
    after (hostOps2 (F := Ideal)) W (Proc.devRef .tc main_v27) = basesArr (W (Proc.devRef .tc main_v14)) (W (Proc.devRef .tc main_v18_1)) (W (Proc.devRef .tc main_v18_0)) := by
  after_results_simp <;> rfl

set_option maxHeartbeats 4000000 in
theorem stretch2_3 :
    after (hostOps2 (F := Ideal)) W (Proc.devRef .tc main_v30) = sqArr (basesArr (W (Proc.devRef .tc main_v14)) (W (Proc.devRef .tc main_v18_1)) (W (Proc.devRef .tc main_v18_0))) := by
  after_results_simp <;> rfl

theorem stretch2 :
    after (hostOps2 (F := Ideal)) W (Proc.devRef .tc main_v0) = W (Proc.devRef .tc main_v0)
    ∧ after (hostOps2 (F := Ideal)) W (Proc.devRef .tc main_v18_0) = W (Proc.devRef .tc main_v18_0)
    ∧ after (hostOps2 (F := Ideal)) W (Proc.devRef .tc main_v27) = basesArr (W (Proc.devRef .tc main_v14)) (W (Proc.devRef .tc main_v18_1)) (W (Proc.devRef .tc main_v18_0))
    ∧ after (hostOps2 (F := Ideal)) W (Proc.devRef .tc main_v30) = sqArr (basesArr (W (Proc.devRef .tc main_v14)) (W (Proc.devRef .tc main_v18_1)) (W (Proc.devRef .tc main_v18_0))) :=
  ⟨stretch2_0 W, stretch2_1 W, stretch2_2 W, stretch2_3 W⟩

set_option maxHeartbeats 4000000 in
theorem stretch3_0 :
    after (hostOps3 (F := Ideal)) W (Proc.devRef .tc main_v0) = W (Proc.devRef .tc main_v0) := by
  after_results_simp <;> rfl

set_option maxHeartbeats 4000000 in
theorem stretch3_1 :
    after (hostOps3 (F := Ideal)) W (Proc.devRef .tc main_v31_0) = W (Proc.devRef .tc main_v31_0) := by
  after_results_simp <;> rfl

set_option maxHeartbeats 4000000 in
theorem stretch3_2 :
    after (hostOps3 (F := Ideal)) W (Proc.devRef .tc main_v40) = basesArr (W (Proc.devRef .tc main_v27)) (W (Proc.devRef .tc main_v31_1)) (W (Proc.devRef .tc main_v31_0)) := by
  after_results_simp <;> rfl

set_option maxHeartbeats 4000000 in
theorem stretch3_3 :
    after (hostOps3 (F := Ideal)) W (Proc.devRef .tc main_v43) = sqArr (basesArr (W (Proc.devRef .tc main_v27)) (W (Proc.devRef .tc main_v31_1)) (W (Proc.devRef .tc main_v31_0))) := by
  after_results_simp <;> rfl

theorem stretch3 :
    after (hostOps3 (F := Ideal)) W (Proc.devRef .tc main_v0) = W (Proc.devRef .tc main_v0)
    ∧ after (hostOps3 (F := Ideal)) W (Proc.devRef .tc main_v31_0) = W (Proc.devRef .tc main_v31_0)
    ∧ after (hostOps3 (F := Ideal)) W (Proc.devRef .tc main_v40) = basesArr (W (Proc.devRef .tc main_v27)) (W (Proc.devRef .tc main_v31_1)) (W (Proc.devRef .tc main_v31_0))
    ∧ after (hostOps3 (F := Ideal)) W (Proc.devRef .tc main_v43) = sqArr (basesArr (W (Proc.devRef .tc main_v27)) (W (Proc.devRef .tc main_v31_1)) (W (Proc.devRef .tc main_v31_0))) :=
  ⟨stretch3_0 W, stretch3_1 W, stretch3_2 W, stretch3_3 W⟩

set_option maxHeartbeats 4000000 in
theorem stretch4_0 :
    after (hostOps4 (F := Ideal)) W (Proc.devRef .tc main_v0) = W (Proc.devRef .tc main_v0) := by
  after_results_simp <;> rfl

set_option maxHeartbeats 4000000 in
theorem stretch4_1 :
    after (hostOps4 (F := Ideal)) W (Proc.devRef .tc main_v44_0) = W (Proc.devRef .tc main_v44_0) := by
  after_results_simp <;> rfl

set_option maxHeartbeats 4000000 in
theorem stretch4_2 :
    after (hostOps4 (F := Ideal)) W (Proc.devRef .tc main_v53) = basesArr (W (Proc.devRef .tc main_v40)) (W (Proc.devRef .tc main_v44_1)) (W (Proc.devRef .tc main_v44_0)) := by
  after_results_simp <;> rfl

set_option maxHeartbeats 4000000 in
theorem stretch4_3 :
    after (hostOps4 (F := Ideal)) W (Proc.devRef .tc main_v56) = sqArr (basesArr (W (Proc.devRef .tc main_v40)) (W (Proc.devRef .tc main_v44_1)) (W (Proc.devRef .tc main_v44_0))) := by
  after_results_simp <;> rfl

theorem stretch4 :
    after (hostOps4 (F := Ideal)) W (Proc.devRef .tc main_v0) = W (Proc.devRef .tc main_v0)
    ∧ after (hostOps4 (F := Ideal)) W (Proc.devRef .tc main_v44_0) = W (Proc.devRef .tc main_v44_0)
    ∧ after (hostOps4 (F := Ideal)) W (Proc.devRef .tc main_v53) = basesArr (W (Proc.devRef .tc main_v40)) (W (Proc.devRef .tc main_v44_1)) (W (Proc.devRef .tc main_v44_0))
    ∧ after (hostOps4 (F := Ideal)) W (Proc.devRef .tc main_v56) = sqArr (basesArr (W (Proc.devRef .tc main_v40)) (W (Proc.devRef .tc main_v44_1)) (W (Proc.devRef .tc main_v44_0))) :=
  ⟨stretch4_0 W, stretch4_1 W, stretch4_2 W, stretch4_3 W⟩

theorem stretch5 :
    after (hostOps5 (F := Ideal)) W (Proc.devRef .tc main_v58) = shapeCast S4x16x160x72x72 (W (Proc.devRef .tc main_v57)) shapeCasts_S4x160x82944_S4x16x160x72x72 := by
  after_results_simp <;> rfl

end Stretches

/-! ## The chain's state at a region's entry and exit -/

/-- At a step region's entry: the data, the basis, its squared length, the coefficients. -/
structure Entry (X : Fin 4 → Fin 160 → Fin 82944 → EReal) (P : (Fin 4 → Fin 160 → EReal) × (Fin 4 → Fin 82944 → EReal))
    (xa : S4x160x82944.Idx → EReal) (ba : S4x160x1.Idx → EReal) (ta : S4x1x1.Idx → EReal) (ca : S4x1x82944.Idx → EReal) : Prop where
  hx : (fun b d n => xa (ix3 b d n)) = X
  hb : (fun b d => ba (ix3 b d (0 : Fin 1))) = P.1
  ht : (fun b => ta (ix3 b (0 : Fin 1) (0 : Fin 1))) = Cert.Nmf.sqB P.1
  hc : (fun b n => ca (ix3 b (0 : Fin 1) n)) = P.2

/-- At a step region's exit: the data and the basis as entered, the renewed coefficients, the projection on them. -/
structure Exit (X : Fin 4 → Fin 160 → Fin 82944 → EReal) (P : (Fin 4 → Fin 160 → EReal) × (Fin 4 → Fin 82944 → EReal))
    (xa : S4x160x82944.Idx → EReal) (ba : S4x160x1.Idx → EReal) (co : S4x1x82944.Idx → EReal) (nb : S4x160x1.Idx → EReal) : Prop where
  hx : (fun b d n => xa (ix3 b d n)) = X
  hb : (fun b d => ba (ix3 b d (0 : Fin 1))) = P.1
  hco : (fun b n => co (ix3 b (0 : Fin 1) n)) = (Cert.Nmf.round X P).2
  hnb : (fun b d => nb (ix3 b d (0 : Fin 1))) = Cert.Nmf.projC X (Cert.Nmf.round X P).2

/-- A host stretch after a step region completes the round. -/
theorem entry_of_exit {X : Fin 4 → Fin 160 → Fin 82944 → EReal} {P : (Fin 4 → Fin 160 → EReal) × (Fin 4 → Fin 82944 → EReal)}
    {xa : S4x160x82944.Idx → EReal} {ba nb : S4x160x1.Idx → EReal} {co : S4x1x82944.Idx → EReal} (h : Exit X P xa ba co nb) :
    Entry X (Cert.Nmf.round X P) xa (basesArr ba nb co) (sqArr (basesArr ba nb co)) co := by
  have hb : (fun b d => basesArr ba nb co (ix3 b d (0 : Fin 1))) = (Cert.Nmf.round X P).1 := by
    funext b d
    rw [basesArr_apply, h.hb, h.hnb, h.hco]
    rfl
  refine ⟨h.hx, hb, ?_, h.hco⟩
  funext b
  rw [sqArr_apply, hb]

variable (m : (ℓ : Loc nD τ sig) → Buf (Elt Ideal) ℓ) (ρ : Dev nD → PrngReg) (c : Dev nD)

/-- The data as a [4,160,82944] array of coordinates. -/
def Xm : Fin 4 → Fin 160 → Fin 82944 → EReal := fun b d n =>
  shapeCast S4x160x82944 (m ((c : Thread nD τ).loc main_arg0)) shapeCasts_S4x16x160x72x72_S4x160x82944 (ix3 b d n)

/-- The basis the iteration starts from. -/
def Bm : Fin 4 → Fin 160 → EReal := fun b d => (m ((c : Thread nD τ).loc main_arg1) : S4x160x1.Idx → EReal) (ix3 b d (0 : Fin 1))

/-- Region 0's entry: the reshaped data, the given basis, its squared length, coefficients all one. -/
theorem entry0 : Entry (Xm m c) (Bm m c, fun _ _ => 1)
    (W1 m ρ c (Proc.devRef .tc main_v0)) (W1 m ρ c (Proc.devRef .tc main_arg1)) (W1 m ρ c (Proc.devRef .tc main_v4)) (W1 m ρ c (Proc.devRef .tc main_v1)) := by
  obtain ⟨e0, e1, e2, e3⟩ := stretch0 (W0 m ρ c)
  refine ⟨?_, ?_, ?_, ?_⟩
  · rw [show W1 m ρ c (Proc.devRef .tc main_v0) = _ from e0]; rfl
  · rw [show W1 m ρ c (Proc.devRef .tc main_arg1) = _ from e1]; rfl
  · rw [show W1 m ρ c (Proc.devRef .tc main_v4) = _ from e2]
    funext b; rw [sqArr_apply]; rfl
  · rw [show W1 m ρ c (Proc.devRef .tc main_v1) = _ from e3]
    funext b n; exact Cert.HostMath.ones_host _ _

/-- Step region 0: the coefficients renewed, the projection accumulated, the inputs untouched. -/
theorem exit0 (P : (Fin 4 → Fin 160 → EReal) × (Fin 4 → Fin 82944 → EReal))
    (h : Entry (Xm m c) P (W1 m ρ c (Proc.devRef .tc main_v0)) (W1 m ρ c (Proc.devRef .tc main_arg1)) (W1 m ρ c (Proc.devRef .tc main_v4)) (W1 m ρ c (Proc.devRef .tc main_v1))) :
    Exit (Xm m c) P (W2 m ρ c (Proc.devRef .tc main_v0)) (W2 m ρ c (Proc.devRef .tc main_arg1)) (W2 m ρ c (Proc.devRef .tc main_v5_0)) (W2 m ρ c (Proc.devRef .tc main_v5_1)) := by
  have hX : Cert.StepArr0.Xof (V1 m ρ) c = Xm m c := h.hx
  have hB : Cert.StepArr0.Bof (V1 m ρ) c = P.1 := h.hb
  have hT : Cert.StepArr0.Tof (V1 m ρ) c = Cert.Nmf.sqB P.1 := h.ht
  have hC : Cert.StepArr0.Cof (V1 m ρ) c = P.2 := h.hc
  have ex : W2 m ρ c (Proc.devRef .tc main_v0) = W1 m ρ c (Proc.devRef .tc main_v0) :=
    (W2_arr m ρ c 0).trans ((Dat.arrAt_in (dat := dat0 (V1 m ρ) c) 0 rfl _).trans (A_eq0 (V1 m ρ) c 0))
  have eb : W2 m ρ c (Proc.devRef .tc main_arg1) = W1 m ρ c (Proc.devRef .tc main_arg1) :=
    (W2_arr m ρ c 1).trans ((Dat.arrAt_in (dat := dat0 (V1 m ρ) c) 1 rfl _).trans (A_eq0 (V1 m ρ) c 1))
  refine ⟨?_, ?_, ?_, ?_⟩
  · rw [ex]; exact h.hx
  · rw [eb]; exact h.hb
  · funext b n
    rw [show W2 m ρ c (Proc.devRef .tc main_v5_0) = _ from W2_arr m ρ c 4]
    rw [Cert.StepArr0.coef_final, hX, hB, hT, hC]
    rfl
  · funext b d
    rw [show W2 m ρ c (Proc.devRef .tc main_v5_1) = _ from W2_arr m ρ c 5]
    rw [Cert.StepArr0.numb_final, hX, hB, hT, hC]
    rfl

/-- Step region 1: the coefficients renewed, the projection accumulated, the inputs untouched. -/
theorem exit1 (P : (Fin 4 → Fin 160 → EReal) × (Fin 4 → Fin 82944 → EReal))
    (h : Entry (Xm m c) P (W3 m ρ c (Proc.devRef .tc main_v0)) (W3 m ρ c (Proc.devRef .tc main_v14)) (W3 m ρ c (Proc.devRef .tc main_v17)) (W3 m ρ c (Proc.devRef .tc main_v5_0))) :
    Exit (Xm m c) P (W4 m ρ c (Proc.devRef .tc main_v0)) (W4 m ρ c (Proc.devRef .tc main_v14)) (W4 m ρ c (Proc.devRef .tc main_v18_0)) (W4 m ρ c (Proc.devRef .tc main_v18_1)) := by
  have hX : Cert.StepArr1.Xof (V3 m ρ) c = Xm m c := h.hx
  have hB : Cert.StepArr1.Bof (V3 m ρ) c = P.1 := h.hb
  have hT : Cert.StepArr1.Tof (V3 m ρ) c = Cert.Nmf.sqB P.1 := h.ht
  have hC : Cert.StepArr1.Cof (V3 m ρ) c = P.2 := h.hc
  have ex : W4 m ρ c (Proc.devRef .tc main_v0) = W3 m ρ c (Proc.devRef .tc main_v0) :=
    (W4_arr m ρ c 0).trans ((Dat.arrAt_in (dat := dat1 (V3 m ρ) c) 0 rfl _).trans (A_eq1 (V3 m ρ) c 0))
  have eb : W4 m ρ c (Proc.devRef .tc main_v14) = W3 m ρ c (Proc.devRef .tc main_v14) :=
    (W4_arr m ρ c 1).trans ((Dat.arrAt_in (dat := dat1 (V3 m ρ) c) 1 rfl _).trans (A_eq1 (V3 m ρ) c 1))
  refine ⟨?_, ?_, ?_, ?_⟩
  · rw [ex]; exact h.hx
  · rw [eb]; exact h.hb
  · funext b n
    rw [show W4 m ρ c (Proc.devRef .tc main_v18_0) = _ from W4_arr m ρ c 4]
    rw [Cert.StepArr1.coef_final, hX, hB, hT, hC]
    rfl
  · funext b d
    rw [show W4 m ρ c (Proc.devRef .tc main_v18_1) = _ from W4_arr m ρ c 5]
    rw [Cert.StepArr1.numb_final, hX, hB, hT, hC]
    rfl

/-- Step region 2: the coefficients renewed, the projection accumulated, the inputs untouched. -/
theorem exit2 (P : (Fin 4 → Fin 160 → EReal) × (Fin 4 → Fin 82944 → EReal))
    (h : Entry (Xm m c) P (W5 m ρ c (Proc.devRef .tc main_v0)) (W5 m ρ c (Proc.devRef .tc main_v27)) (W5 m ρ c (Proc.devRef .tc main_v30)) (W5 m ρ c (Proc.devRef .tc main_v18_0))) :
    Exit (Xm m c) P (W6 m ρ c (Proc.devRef .tc main_v0)) (W6 m ρ c (Proc.devRef .tc main_v27)) (W6 m ρ c (Proc.devRef .tc main_v31_0)) (W6 m ρ c (Proc.devRef .tc main_v31_1)) := by
  have hX : Cert.StepArr2.Xof (V5 m ρ) c = Xm m c := h.hx
  have hB : Cert.StepArr2.Bof (V5 m ρ) c = P.1 := h.hb
  have hT : Cert.StepArr2.Tof (V5 m ρ) c = Cert.Nmf.sqB P.1 := h.ht
  have hC : Cert.StepArr2.Cof (V5 m ρ) c = P.2 := h.hc
  have ex : W6 m ρ c (Proc.devRef .tc main_v0) = W5 m ρ c (Proc.devRef .tc main_v0) :=
    (W6_arr m ρ c 0).trans ((Dat.arrAt_in (dat := dat2 (V5 m ρ) c) 0 rfl _).trans (A_eq2 (V5 m ρ) c 0))
  have eb : W6 m ρ c (Proc.devRef .tc main_v27) = W5 m ρ c (Proc.devRef .tc main_v27) :=
    (W6_arr m ρ c 1).trans ((Dat.arrAt_in (dat := dat2 (V5 m ρ) c) 1 rfl _).trans (A_eq2 (V5 m ρ) c 1))
  refine ⟨?_, ?_, ?_, ?_⟩
  · rw [ex]; exact h.hx
  · rw [eb]; exact h.hb
  · funext b n
    rw [show W6 m ρ c (Proc.devRef .tc main_v31_0) = _ from W6_arr m ρ c 4]
    rw [Cert.StepArr2.coef_final, hX, hB, hT, hC]
    rfl
  · funext b d
    rw [show W6 m ρ c (Proc.devRef .tc main_v31_1) = _ from W6_arr m ρ c 5]
    rw [Cert.StepArr2.numb_final, hX, hB, hT, hC]
    rfl

/-- Step region 3: the coefficients renewed, the projection accumulated, the inputs untouched. -/
theorem exit3 (P : (Fin 4 → Fin 160 → EReal) × (Fin 4 → Fin 82944 → EReal))
    (h : Entry (Xm m c) P (W7 m ρ c (Proc.devRef .tc main_v0)) (W7 m ρ c (Proc.devRef .tc main_v40)) (W7 m ρ c (Proc.devRef .tc main_v43)) (W7 m ρ c (Proc.devRef .tc main_v31_0))) :
    Exit (Xm m c) P (W8 m ρ c (Proc.devRef .tc main_v0)) (W8 m ρ c (Proc.devRef .tc main_v40)) (W8 m ρ c (Proc.devRef .tc main_v44_0)) (W8 m ρ c (Proc.devRef .tc main_v44_1)) := by
  have hX : Cert.StepArr3.Xof (V7 m ρ) c = Xm m c := h.hx
  have hB : Cert.StepArr3.Bof (V7 m ρ) c = P.1 := h.hb
  have hT : Cert.StepArr3.Tof (V7 m ρ) c = Cert.Nmf.sqB P.1 := h.ht
  have hC : Cert.StepArr3.Cof (V7 m ρ) c = P.2 := h.hc
  have ex : W8 m ρ c (Proc.devRef .tc main_v0) = W7 m ρ c (Proc.devRef .tc main_v0) :=
    (W8_arr m ρ c 0).trans ((Dat.arrAt_in (dat := dat3 (V7 m ρ) c) 0 rfl _).trans (A_eq3 (V7 m ρ) c 0))
  have eb : W8 m ρ c (Proc.devRef .tc main_v40) = W7 m ρ c (Proc.devRef .tc main_v40) :=
    (W8_arr m ρ c 1).trans ((Dat.arrAt_in (dat := dat3 (V7 m ρ) c) 1 rfl _).trans (A_eq3 (V7 m ρ) c 1))
  refine ⟨?_, ?_, ?_, ?_⟩
  · rw [ex]; exact h.hx
  · rw [eb]; exact h.hb
  · funext b n
    rw [show W8 m ρ c (Proc.devRef .tc main_v44_0) = _ from W8_arr m ρ c 4]
    rw [Cert.StepArr3.coef_final, hX, hB, hT, hC]
    rfl
  · funext b d
    rw [show W8 m ρ c (Proc.devRef .tc main_v44_1) = _ from W8_arr m ρ c 5]
    rw [Cert.StepArr3.numb_final, hX, hB, hT, hC]
    rfl

/-- The host stretch after step region 0 completes round 1. -/
theorem entry1 (P : (Fin 4 → Fin 160 → EReal) × (Fin 4 → Fin 82944 → EReal))
    (h : Exit (Xm m c) P (W2 m ρ c (Proc.devRef .tc main_v0)) (W2 m ρ c (Proc.devRef .tc main_arg1)) (W2 m ρ c (Proc.devRef .tc main_v5_0)) (W2 m ρ c (Proc.devRef .tc main_v5_1))) :
    Entry (Xm m c) (Cert.Nmf.round (Xm m c) P)
      (W3 m ρ c (Proc.devRef .tc main_v0)) (W3 m ρ c (Proc.devRef .tc main_v14)) (W3 m ρ c (Proc.devRef .tc main_v17)) (W3 m ρ c (Proc.devRef .tc main_v5_0)) := by
  obtain ⟨e0, e1, e2, e3⟩ := stretch1 (W2 m ρ c)
  rw [show W3 m ρ c (Proc.devRef .tc main_v0) = _ from e0, show W3 m ρ c (Proc.devRef .tc main_v5_0) = _ from e1,
    show W3 m ρ c (Proc.devRef .tc main_v14) = _ from e2, show W3 m ρ c (Proc.devRef .tc main_v17) = _ from e3]
  exact entry_of_exit h

/-- The host stretch after step region 1 completes round 2. -/
theorem entry2 (P : (Fin 4 → Fin 160 → EReal) × (Fin 4 → Fin 82944 → EReal))
    (h : Exit (Xm m c) P (W4 m ρ c (Proc.devRef .tc main_v0)) (W4 m ρ c (Proc.devRef .tc main_v14)) (W4 m ρ c (Proc.devRef .tc main_v18_0)) (W4 m ρ c (Proc.devRef .tc main_v18_1))) :
    Entry (Xm m c) (Cert.Nmf.round (Xm m c) P)
      (W5 m ρ c (Proc.devRef .tc main_v0)) (W5 m ρ c (Proc.devRef .tc main_v27)) (W5 m ρ c (Proc.devRef .tc main_v30)) (W5 m ρ c (Proc.devRef .tc main_v18_0)) := by
  obtain ⟨e0, e1, e2, e3⟩ := stretch2 (W4 m ρ c)
  rw [show W5 m ρ c (Proc.devRef .tc main_v0) = _ from e0, show W5 m ρ c (Proc.devRef .tc main_v18_0) = _ from e1,
    show W5 m ρ c (Proc.devRef .tc main_v27) = _ from e2, show W5 m ρ c (Proc.devRef .tc main_v30) = _ from e3]
  exact entry_of_exit h

/-- The host stretch after step region 2 completes round 3. -/
theorem entry3 (P : (Fin 4 → Fin 160 → EReal) × (Fin 4 → Fin 82944 → EReal))
    (h : Exit (Xm m c) P (W6 m ρ c (Proc.devRef .tc main_v0)) (W6 m ρ c (Proc.devRef .tc main_v27)) (W6 m ρ c (Proc.devRef .tc main_v31_0)) (W6 m ρ c (Proc.devRef .tc main_v31_1))) :
    Entry (Xm m c) (Cert.Nmf.round (Xm m c) P)
      (W7 m ρ c (Proc.devRef .tc main_v0)) (W7 m ρ c (Proc.devRef .tc main_v40)) (W7 m ρ c (Proc.devRef .tc main_v43)) (W7 m ρ c (Proc.devRef .tc main_v31_0)) := by
  obtain ⟨e0, e1, e2, e3⟩ := stretch3 (W6 m ρ c)
  rw [show W7 m ρ c (Proc.devRef .tc main_v0) = _ from e0, show W7 m ρ c (Proc.devRef .tc main_v31_0) = _ from e1,
    show W7 m ρ c (Proc.devRef .tc main_v40) = _ from e2, show W7 m ρ c (Proc.devRef .tc main_v43) = _ from e3]
  exact entry_of_exit h

/-- The host stretch after step region 3 completes round 4. -/
theorem entry4 (P : (Fin 4 → Fin 160 → EReal) × (Fin 4 → Fin 82944 → EReal))
    (h : Exit (Xm m c) P (W8 m ρ c (Proc.devRef .tc main_v0)) (W8 m ρ c (Proc.devRef .tc main_v40)) (W8 m ρ c (Proc.devRef .tc main_v44_0)) (W8 m ρ c (Proc.devRef .tc main_v44_1))) :
    Entry (Xm m c) (Cert.Nmf.round (Xm m c) P)
      (W9 m ρ c (Proc.devRef .tc main_v0)) (W9 m ρ c (Proc.devRef .tc main_v53)) (W9 m ρ c (Proc.devRef .tc main_v56)) (W9 m ρ c (Proc.devRef .tc main_v44_0)) := by
  obtain ⟨e0, e1, e2, e3⟩ := stretch4 (W8 m ρ c)
  rw [show W9 m ρ c (Proc.devRef .tc main_v0) = _ from e0, show W9 m ρ c (Proc.devRef .tc main_v44_0) = _ from e1,
    show W9 m ρ c (Proc.devRef .tc main_v53) = _ from e2, show W9 m ρ c (Proc.devRef .tc main_v56) = _ from e3]
  exact entry_of_exit h

/-- The fitted pair reaches the final region. -/
theorem entry_final : Entry (Xm m c) (Cert.Nmf.fitted (Xm m c) (Bm m c))
    (W9 m ρ c (Proc.devRef .tc main_v0)) (W9 m ρ c (Proc.devRef .tc main_v53)) (W9 m ρ c (Proc.devRef .tc main_v56)) (W9 m ρ c (Proc.devRef .tc main_v44_0)) :=
  entry4 m ρ c _ (exit3 m ρ c _ (entry3 m ρ c _ (exit2 m ρ c _ (entry2 m ρ c _ (exit1 m ρ c _ (entry1 m ρ c _ (exit0 m ρ c _ (entry0 m ρ c))))))))

/-- The outer product of the fitted basis and the coefficients renewed once more, in the result's five-axis shape. -/
def resultArr : S4x16x160x72x72.Idx → EReal :=
  shapeCast S4x16x160x72x72 (fun i : S4x160x82944.Idx => Cert.Nmf.out (Xm m c) (Bm m c) (i 0) (i 1) (i 2))
    shapeCasts_S4x160x82944_S4x16x160x72x72

/-- The program's result array ends holding it. -/
theorem result : W11 m ρ c (Proc.devRef .tc main_v58) = resultArr m c := by
  unfold resultArr
  have h := entry_final m ρ c
  have hX : Cert.FinalArr.Xof (V9 m ρ) c = Xm m c := h.hx
  have hB : Cert.FinalArr.Bof (V9 m ρ) c = (Cert.Nmf.fitted (Xm m c) (Bm m c)).1 := h.hb
  have hT : Cert.FinalArr.Tof (V9 m ρ) c = Cert.Nmf.sqB (Cert.Nmf.fitted (Xm m c) (Bm m c)).1 := h.ht
  have hC : Cert.FinalArr.Cof (V9 m ρ) c = (Cert.Nmf.fitted (Xm m c) (Bm m c)).2 := h.hc
  rw [show W11 m ρ c (Proc.devRef .tc main_v58) = _ from stretch5 (W10 m ρ c)]
  have e57 : (W10 m ρ c (Proc.devRef .tc main_v57) : S4x160x82944.Idx → EReal)
      = fun i => Cert.Nmf.out (Xm m c) (Bm m c) (i 0) (i 1) (i 2) := by
    refine ((W10_arr m ρ c 4).trans (Cert.FinalArr.arr_final (V9 m ρ) c)).trans ?_
    unfold Cert.FinalArr.outerArr
    rw [hX, hB, hT, hC]
    rfl
  exact congrArg (fun y : S4x160x82944.Idx → EReal => shapeCast S4x16x160x72x72 y shapeCasts_S4x160x82944_S4x16x160x72x72) e57

end Cert.KChain

end
-- ==== Proof.RefDots.lean ====
/-
  The reference's seven batched products, each read at one index as a finite sum over the contracted coordinate.

  Every product has the batch coordinate first on both operands and on the result.  Three ways of contracting occur:
  the middle coordinate of both operands (`[G,k,m] × [G,k,n] → [G,m,n]`), the last coordinate of the left operand
  against the middle one of the right (`[G,m,k] × [G,k,n] → [G,m,n]`, a stack of matrix products), and the last
  coordinate of both (`[G,m,k] × [G,n,k] → [G,m,n]`).  Where the contracted extent is one, the sum has a single term.
-/
import Idealize.ShloMosaic.Lib.StackMember
import Idealize.ShloMosaic.Lib.IdealHost
import proofs.«119537_j3693671875223_2_alg».proof.Proof.Gen.ReferenceIdeal

noncomputable section

open scoped BigOperators

namespace Cert.RefValue

open Cert.ReferenceIdeal Cert.ReferenceIdeal.Gen Idealize.ShloMosaic Idealize.ShloMosaic.ValueIdx

/-! ## The two contraction patterns the library does not already read -/

/-- Contracting the middle coordinate of both operands: at `(g, a, b)` the product is `∑ c, A (g, c, a) · B (g, c, b)`. -/
theorem dotGeneral_mid_mid_apply {G m n k : Nat} {φ₁ φ₂ : FTy}
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ix3 g a b)
      = ∑ c : Fin k, A (ix3 g c a) * B (ix3 g c b) := by
  show FloatOps.dotGeneral _ prec _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- Contracting the last coordinate of both operands: at `(g, a, b)` the product is `∑ c, A (g, a, c) · B (g, b, c)`. -/
theorem dotGeneral_last_last_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## The seven products of the reference -/

/-- The data projected on the basis: `[4,160,82944] × [4,160,1] → [4,82944,1]`, a sum over the 160 features. -/
theorem dot_projB_apply (X3 : FVec Ideal S4x160x82944 .f32) (Bv : FVec Ideal S4x160x1 .f32) (b : Fin 4) (n : Fin 82944) :
    Host.dotGeneral (F := Ideal) dot_S4x160x82944_S4x160x1_S4x82944x1_1_1_2_2_0_0 none X3 Bv (ix3 b n 0)
      = ∑ d : Fin 160, X3 (ix3 b d n) * Bv (ix3 b d 0) :=
  dotGeneral_mid_mid_apply dot_S4x160x82944_S4x160x1_S4x82944x1_1_1_2_2_0_0_wf none X3 Bv b n 0

/-- The basis' squared length: `[4,160,1] × [4,160,1] → [4,1,1]`. -/
theorem dot_sqB_apply (Bv Bw : FVec Ideal S4x160x1 .f32) (b : Fin 4) :
    Host.dotGeneral (F := Ideal) dot_S4x160x1_S4x160x1_S4x1x1_1_1_2_2_0_0 none Bv Bw (ix3 b 0 0)
      = ∑ d : Fin 160, Bv (ix3 b d 0) * Bw (ix3 b d 0) :=
  dotGeneral_mid_mid_apply dot_S4x160x1_S4x160x1_S4x1x1_1_1_2_2_0_0_wf none Bv Bw b 0 0

/-- The coefficients' squared length: `[4,82944,1] × [4,82944,1] → [4,1,1]`. -/
theorem dot_sqC_apply (Cv Cw : FVec Ideal S4x82944x1 .f32) (b : Fin 4) :
    Host.dotGeneral (F := Ideal) dot_S4x82944x1_S4x82944x1_S4x1x1_1_1_2_2_0_0 none Cv Cw (ix3 b 0 0)
      = ∑ n : Fin 82944, Cv (ix3 b n 0) * Cw (ix3 b n 0) :=
  dotGeneral_mid_mid_apply dot_S4x82944x1_S4x82944x1_S4x1x1_1_1_2_2_0_0_wf none Cv Cw b 0 0

/-- The data projected on the coefficients: `[4,160,82944] × [4,82944,1] → [4,160,1]`, a sum over the positions. -/
theorem dot_projC_apply (X3 : FVec Ideal S4x160x82944 .f32) (Cv : FVec Ideal S4x82944x1 .f32) (b : Fin 4) (d : Fin 160) :
    Host.dotGeneral (F := Ideal) dot_S4x160x82944_S4x82944x1_S4x160x1_2_1_1_2_0_0 none X3 Cv (ix3 b d 0)
      = ∑ n : Fin 82944, X3 (ix3 b d n) * Cv (ix3 b n 0) :=
  StackMember.dotGeneral_stack_apply dot_S4x160x82944_S4x82944x1_S4x160x1_2_1_1_2_0_0_wf none X3 Cv b d 0

/-- A coefficient times a `1 × 1` matrix: `[4,82944,1] × [4,1,1] → [4,82944,1]`, one term. -/
theorem dot_coefScale_apply (Cv : FVec Ideal S4x82944x1 .f32) (Tv : FVec Ideal S4x1x1 .f32) (b : Fin 4) (n : Fin 82944) :
    Host.dotGeneral (F := Ideal) dot_S4x82944x1_S4x1x1_S4x82944x1_2_1_1_2_0_0 none Cv Tv (ix3 b n 0)
      = Cv (ix3 b n 0) * Tv (ix3 b 0 0) := by
  refine (StackMember.dotGeneral_stack_apply dot_S4x82944x1_S4x1x1_S4x82944x1_2_1_1_2_0_0_wf none Cv Tv b n 0).trans ?_
  exact Fin.sum_univ_one _

/-- A basis entry times a `1 × 1` matrix: `[4,160,1] × [4,1,1] → [4,160,1]`, one term. -/
theorem dot_basisScale_apply (Bv : FVec Ideal S4x160x1 .f32) (Sv : FVec Ideal S4x1x1 .f32) (b : Fin 4) (d : Fin 160) :
    Host.dotGeneral (F := Ideal) dot_S4x160x1_S4x1x1_S4x160x1_2_1_1_2_0_0 none Bv Sv (ix3 b d 0)
      = Bv (ix3 b d 0) * Sv (ix3 b 0 0) := by
  refine (StackMember.dotGeneral_stack_apply dot_S4x160x1_S4x1x1_S4x160x1_2_1_1_2_0_0_wf none Bv Sv b d 0).trans ?_
  exact Fin.sum_univ_one _

/-- The outer product: `[4,160,1] × [4,82944,1] → [4,160,82944]`, one term. -/
theorem dot_outer_apply (Bv : FVec Ideal S4x160x1 .f32) (Cv : FVec Ideal S4x82944x1 .f32) (b : Fin 4) (d : Fin 160) (n : Fin 82944) :
    Host.dotGeneral (F := Ideal) dot_S4x160x1_S4x82944x1_S4x160x82944_2_2_1_1_0_0 none Bv Cv (ix3 b d n)
      = Bv (ix3 b d 0) * Cv (ix3 b n 0) := by
  refine (dotGeneral_last_last_apply dot_S4x160x1_S4x82944x1_S4x160x82944_2_2_1_1_0_0_wf none Bv Cv b d n).trans ?_
  exact Fin.sum_univ_one _

end Cert.RefValue

end
-- ==== Proof.RefSoftmax.lean ====
/-
  A softmax along an axis of extent one is identically one wherever its argument is a real number.

  For an array `Z` of shape `[4, 82944, 1]` the reference computes, along the last axis,
      m = max (-∞) (max over the axis, from -∞),   e = exp (Z - m),   s = 0 + (sum of e over the axis),   e / s.
  The axis has one coordinate, so `m = Z`; for a real entry `Z - Z = 0`, `exp 0 = 1`, `s = 0 + 1` and `1 / 1 = 1`.
  (At an infinite entry `Z - Z` is not zero on the extended reals: the hypothesis is needed.)
-/
import Idealize.ShloMosaic.Lib.IdealHost
import Idealize.ShloMosaic.Lib.Pipeline.Value
import proofs.«119537_j3693671875223_2_alg».proof.Proof.Gen.ReferenceIdeal

noncomputable section

open scoped BigOperators

namespace Cert.RefValue

open Cert.ReferenceIdeal Cert.ReferenceIdeal.Gen Idealize.ShloMosaic Idealize.ShloMosaic.ValueIdx

/-- The pattern `0xFF800000` is minus infinity. -/
theorem ofBits_negInf_f32 : Ideal.ofBits .f32 0xFF800000#32 = ⊥ := by simp [Ideal.ofBits, Ideal.ieee]

/-- A fold over a one-point range is one application of the operation. -/
theorem fold_univ_fin1 {α : Type} (op : α → α → α) [Std.Commutative op] [Std.Associative op] (b : α) (f : Fin 1 → α) :
    (Finset.univ : Finset (Fin 1)).fold op b f = op (f 0) b := by
  rw [Finset.univ_unique, Finset.fold_singleton]; rfl

/-- The reduced index `(b, n)` with the one coordinate of the dropped last axis put back is `(b, n, 0)`. -/
theorem lift_last (h : S4x82944x1.Reduces [2] S4x82944) (b : Fin 4) (n : Fin 82944) (k : Fin (S4x82944x1.size 2)) :
    h.lift (ix2 b n) k = ix3 b n 0 := by
  funext c; apply Fin.ext
  have hk : k.val = 0 := by have := k.isLt; change k.val < 1 at this; omega
  match c with
  | ⟨0, _⟩ => rfl
  | ⟨1, _⟩ => rfl
  | ⟨2, _⟩ => exact hk

/-- An array `[4, 82944]` broadcast along a new last axis reads the array at the first two coordinates. -/
theorem bcast_last_apply (W : FVec Ideal S4x82944 .f32) (b : Fin 4) (n : Fin 82944) :
    broadcastInDim S4x82944x1 ![0, 1] bcast_S4x82944_S4x82944x1_0_1 W (ix3 b n 0) = W (ix2 b n) := by
  refine broadcastInDim_apply _ _ W (ix3 b n 0) (ix2 b n) fun a => ?_
  match a with
  | ⟨0, _⟩ => rfl
  | ⟨1, _⟩ => rfl

/-- The host's exponential at an index is the extended reals' exponential of the element. -/
theorem hostExp_apply {s : Shape} {φ : FTy} (x : FVec Ideal s φ) (i : s.Idx) : Host.exp x i = Ideal.exp (x i) := rfl

/-- The softmax of the reference, as a function of the array it is taken of. -/
def softmaxLast (Z : FVec Ideal S4x82944x1 .f32) : FVec Ideal S4x82944x1 .f32 :=
  Host.divf
    (Host.exp (subf Z (broadcastInDim S4x82944x1 ![0, 1] bcast_S4x82944_S4x82944x1_0_1
      (maximumf (broadcastInDim S4x82944 ![] bcast_S_S4x82944 (constant S_ .f32 0xFF800000#32))
        (Host.reduce FloatOps.maximumf Z (constant S_ .f32 0xFF800000#32) reducesTo_S4x82944x1_S4x82944_d2 h_S_)))))
    (broadcastInDim S4x82944x1 ![0, 1] bcast_S4x82944_S4x82944x1_0_1
      (Host.reduceAdd
        (Host.exp (subf Z (broadcastInDim S4x82944x1 ![0, 1] bcast_S4x82944_S4x82944x1_0_1
          (maximumf (broadcastInDim S4x82944 ![] bcast_S_S4x82944 (constant S_ .f32 0xFF800000#32))
            (Host.reduce FloatOps.maximumf Z (constant S_ .f32 0xFF800000#32) reducesTo_S4x82944x1_S4x82944_d2 h_S_)))))
        (constant S_ .f32 0x00000000#32) reducesTo_S4x82944x1_S4x82944_d2 h_S_))

/-- The shifted exponentials are all one where the argument is real. -/
theorem exp_shift_apply (Z : FVec Ideal S4x82944x1 .f32) (hz : ∀ i, ∃ r : ℝ, Z i = (r : EReal)) (b : Fin 4) (n : Fin 82944) :
    (Host.exp (subf Z (broadcastInDim S4x82944x1 ![0, 1] bcast_S4x82944_S4x82944x1_0_1
      (maximumf (broadcastInDim S4x82944 ![] bcast_S_S4x82944 (constant S_ .f32 0xFF800000#32))
        (Host.reduce FloatOps.maximumf Z (constant S_ .f32 0xFF800000#32) reducesTo_S4x82944x1_S4x82944_d2 h_S_)))))
      (ix3 b n 0) = 1 := by
  have hred : S4x82944x1.Reduces [2] S4x82944 := by decide
  obtain ⟨r, hr⟩ := hz (ix3 b n 0)
  rw [hostExp_apply, subf_apply, bcast_last_apply, maximumf_apply, broadcastInDim_scalar_apply, constant_apply,
    Host.reduce_eq_fold_single FloatOps.maximumf Z _ reducesTo_S4x82944x1_S4x82944_d2 hred h_S_]
  have hfold : (Finset.univ : Finset (Fin (S4x82944x1.size 2))).fold FloatOps.maximumf
      ((constant (F := Ideal) S_ .f32 0xFF800000#32) (Shape.Idx.first h_S_)) (Z ∘ hred.lift (ix2 b n))
      = max (Z (ix3 b n 0)) (Ideal.ofBits .f32 0xFF800000#32) := by
    refine (fold_univ_fin1 (FloatOps.maximumf (F := Ideal) (φ := .f32)) _ (Z ∘ hred.lift (ix2 b n))).trans ?_
    exact congrArg (fun j => max (Z j) (Ideal.ofBits .f32 0xFF800000#32)) (lift_last hred b n (0 : Fin 1))
  rw [hfold, ofBits_negInf_f32, hr]
  rw [max_bot_right, max_bot_left, ← EReal.coe_sub, sub_self, EReal.coe_zero]
  show Ideal.exp ((0 : ℝ) : EReal) = 1
  rw [Ideal.exp_coe, Real.exp_zero, EReal.coe_one]

/-- THE SOFTMAX IS ONE at every index where the argument is real everywhere. -/
theorem softmaxLast_apply (Z : FVec Ideal S4x82944x1 .f32) (hz : ∀ i, ∃ r : ℝ, Z i = (r : EReal)) (b : Fin 4) (n : Fin 82944) :
    softmaxLast Z (ix3 b n 0) = 1 := by
  have hred : S4x82944x1.Reduces [2] S4x82944 := by decide
  unfold softmaxLast
  rw [hostDivf_apply, exp_shift_apply Z hz, bcast_last_apply, hostReduceAdd_apply,
    Ideal.hostReduceAdd_single reducesTo_S4x82944x1_S4x82944_d2 hred]
  have hsum : ∑ k : Fin (S4x82944x1.size 2),
      (Host.exp (subf Z (broadcastInDim S4x82944x1 ![0, 1] bcast_S4x82944_S4x82944x1_0_1
        (maximumf (broadcastInDim S4x82944 ![] bcast_S_S4x82944 (constant S_ .f32 0xFF800000#32))
          (Host.reduce FloatOps.maximumf Z (constant S_ .f32 0xFF800000#32) reducesTo_S4x82944x1_S4x82944_d2 h_S_)))))
        (hred.lift (ix2 b n) k) = 1 := by
    refine (Finset.sum_congr rfl fun k _ => ?_).trans (?_ : ∑ _k : Fin 1, (1 : EReal) = 1)
    · rw [lift_last]; exact exp_shift_apply Z hz b n
    · simp
  rw [hsum]
  show Ideal.div 1 (Ideal.ofBits .f32 0x00000000#32 + 1) = 1
  rw [Ideal.ofBits_zero_f32, zero_add]
  have h1 : (1 : EReal) = ((1 : ℝ) : EReal) := EReal.coe_one.symm
  rw [h1, Ideal.div_coe one_ne_zero]
  norm_num

end Cert.RefValue

end
-- ==== Proof.RefValue.lean ====
/-
  The reference program computes `Cert.Nmf.out`.

  The reference keeps the data as an array `[4, 160, 82944]`, the basis as `[4, 160, 1]` and the coefficients as
  `[4, 82944, 1]`.  Read through the coordinates `(b, d, n)`, `(b, d, 0)` and `(b, n, 0)`, each renewal of the
  coefficients is `Cert.Nmf.coefUpd` and each renewal of the basis is `Cert.Nmf.basesUpd`; both are proved once, over
  arbitrary arrays.  The starting coefficients are a softmax along an axis of extent one of a real array, hence all one.
  Four rounds and a last coefficient renewal follow, and the result is the outer product, reshaped.
-/
import proofs.«119537_j3693671875223_2_alg».proof.Proof.Spec
import proofs.«119537_j3693671875223_2_alg».proof.Proof.RefDots
import proofs.«119537_j3693671875223_2_alg».proof.Proof.RefSoftmax
import proofs.«119537_j3693671875223_2_alg».proof.Proof.Gen.ReferenceIdeal.Run

noncomputable section

open scoped BigOperators

namespace Cert.RefValue

open Cert.ReferenceIdeal Cert.ReferenceIdeal.Gen Cert.ReferenceIdeal.Value Idealize.ShloMosaic Idealize.ShloMosaic.ValueIdx
open Idealize.SL.Sem Idealize.ShloMosaic.StableHlo

/-! ## Arrays as functions of their coordinates -/

/-- The data, given as `[4, 16, 160, 72, 72]`, as a function of batch, feature and position. -/
def Xof (x : S4x16x160x72x72.Idx → EReal) : Fin 4 → Fin 160 → Fin 82944 → EReal :=
  fun b d n => shapeCast S4x160x82944 x shapeCasts_S4x16x160x72x72_S4x160x82944 (ix3 b d n)

/-- A basis array `[4, 160, 1]` as a function of batch and feature. -/
def Bof (w : S4x160x1.Idx → EReal) : Fin 4 → Fin 160 → EReal := fun b d => w (ix3 b d 0)

/-- A data array `[4, 160, 82944]` as a function of batch, feature and position. -/
def X3of (X3 : S4x160x82944.Idx → EReal) : Fin 4 → Fin 160 → Fin 82944 → EReal := fun b d n => X3 (ix3 b d n)

/-- A coefficient array `[4, 82944, 1]` as a function of batch and position. -/
def Cof (c : S4x82944x1.Idx → EReal) : Fin 4 → Fin 82944 → EReal := fun b n => c (ix3 b n 0)

/-- An index of an array whose last extent is one has last coordinate zero. -/
theorem eq_ix3_unit {n0 n1 : Nat} (j : (⟨3, ![n0, n1, 1]⟩ : Shape).Idx) : j = ix3 (j 0) (j 1) (0 : Fin 1) :=
  (eq_ix3 j).trans (congrArg (fun c : Fin 1 => ix3 (j 0) (j 1) c) (Fin.fin_one_eq_zero (j 2)))

/-! ## One renewal of the coefficients and one of the basis, over arbitrary arrays -/

/-- The reference's renewal of the coefficients, as a function of the three arrays it reads. -/
def coefTerm (X3 : FVec Ideal S4x160x82944 .f32) (Bv : FVec Ideal S4x160x1 .f32) (Cv : FVec Ideal S4x82944x1 .f32) :
    FVec Ideal S4x82944x1 .f32 :=
  Host.divf (mulf Cv (Host.dotGeneral dot_S4x160x82944_S4x160x1_S4x82944x1_1_1_2_2_0_0 none X3 Bv))
    (addf (Host.dotGeneral dot_S4x82944x1_S4x1x1_S4x82944x1_2_1_1_2_0_0 none Cv
        (Host.dotGeneral dot_S4x160x1_S4x160x1_S4x1x1_1_1_2_2_0_0 none Bv Bv))
      (broadcastInDim S4x82944x1 ![] bcast_S_S4x82944x1 (constant S_ .f32 0x358637BD#32)))

/-- The reference's renewal of the basis, as a function of the three arrays it reads. -/
def basisTerm (X3 : FVec Ideal S4x160x82944 .f32) (Bv : FVec Ideal S4x160x1 .f32) (Cv : FVec Ideal S4x82944x1 .f32) :
    FVec Ideal S4x160x1 .f32 :=
  Host.divf (mulf Bv (Host.dotGeneral dot_S4x160x82944_S4x82944x1_S4x160x1_2_1_1_2_0_0 none X3 Cv))
    (addf (Host.dotGeneral dot_S4x160x1_S4x1x1_S4x160x1_2_1_1_2_0_0 none Bv
        (Host.dotGeneral dot_S4x82944x1_S4x82944x1_S4x1x1_1_1_2_2_0_0 none Cv Cv))
      (broadcastInDim S4x160x1 ![] bcast_S_S4x160x1 (constant S_ .f32 0x358637BD#32)))

/-- The coefficient renewal at `(b, n, 0)` is `C · (Xᵀ B) / (C · |B|² + ε)`. -/
theorem coefTerm_apply (X3 : FVec Ideal S4x160x82944 .f32) (Bv : FVec Ideal S4x160x1 .f32) (Cv : FVec Ideal S4x82944x1 .f32)
    (b : Fin 4) (n : Fin 82944) :
    coefTerm X3 Bv Cv (ix3 b n 0) = Cert.Nmf.coefUpd (X3of X3) (Bof Bv) (Cert.Nmf.sqB (Bof Bv)) (Cof Cv) b n := by
  unfold coefTerm
  rw [hostDivf_apply, mulf_apply, addf_apply, broadcastInDim_scalar_apply, constant_apply,
    dot_projB_apply, dot_coefScale_apply, dot_sqB_apply]
  rfl

/-- The basis renewal at `(b, d, 0)` is `B · (X C) / (B · |C|² + ε)`. -/
theorem basisTerm_apply (X3 : FVec Ideal S4x160x82944 .f32) (Bv : FVec Ideal S4x160x1 .f32) (Cv : FVec Ideal S4x82944x1 .f32)
    (b : Fin 4) (d : Fin 160) :
    basisTerm X3 Bv Cv (ix3 b d 0)
      = Cert.Nmf.basesUpd (Bof Bv) (Cert.Nmf.projC (X3of X3) (Cof Cv)) (Cert.Nmf.sqC (Cof Cv)) b d := by
  unfold basisTerm
  rw [hostDivf_apply, mulf_apply, addf_apply, broadcastInDim_scalar_apply, constant_apply,
    dot_projC_apply, dot_basisScale_apply, dot_sqC_apply]
  rfl

theorem Cof_coefTerm (X3 : FVec Ideal S4x160x82944 .f32) (Bv : FVec Ideal S4x160x1 .f32) (Cv : FVec Ideal S4x82944x1 .f32) :
    Cof (coefTerm X3 Bv Cv) = Cert.Nmf.coefUpd (X3of X3) (Bof Bv) (Cert.Nmf.sqB (Bof Bv)) (Cof Cv) :=
  funext fun b => funext fun n => coefTerm_apply X3 Bv Cv b n

theorem Bof_basisTerm (X3 : FVec Ideal S4x160x82944 .f32) (Bv : FVec Ideal S4x160x1 .f32) (Cv : FVec Ideal S4x82944x1 .f32) :
    Bof (basisTerm X3 Bv Cv) = Cert.Nmf.basesUpd (Bof Bv) (Cert.Nmf.projC (X3of X3) (Cof Cv)) (Cert.Nmf.sqC (Cof Cv)) :=
  funext fun b => funext fun d => basisTerm_apply X3 Bv Cv b d

/-- ONE ROUND of the reference — the coefficients renewed, then the basis from the renewed coefficients — is
    `Cert.Nmf.round` on the arrays read through their coordinates. -/
theorem round_eq (X3 : FVec Ideal S4x160x82944 .f32) (Bv : FVec Ideal S4x160x1 .f32) (Cv : FVec Ideal S4x82944x1 .f32) :
    (Bof (basisTerm X3 Bv (coefTerm X3 Bv Cv)), Cof (coefTerm X3 Bv Cv)) = Cert.Nmf.round (X3of X3) (Bof Bv, Cof Cv) := by
  rw [Bof_basisTerm, Cof_coefTerm]
  rfl

/-- The outer product of a basis with the coefficients renewed once more from it, at `(b, d, n)`. -/
theorem outer_coef_apply (X3 : FVec Ideal S4x160x82944 .f32) (Bv : FVec Ideal S4x160x1 .f32) (Cv : FVec Ideal S4x82944x1 .f32)
    (b : Fin 4) (d : Fin 160) (n : Fin 82944) :
    Host.dotGeneral (F := Ideal) dot_S4x160x1_S4x82944x1_S4x160x82944_2_2_1_1_0_0 none Bv (coefTerm X3 Bv Cv) (ix3 b d n)
      = Bof Bv b d * Cert.Nmf.coefUpd (X3of X3) (Bof Bv) (Cert.Nmf.sqB (Bof Bv)) (Cof Cv) b n := by
  rw [dot_outer_apply, coefTerm_apply]
  rfl

/-! ## Real entries -/

/-- A finite sum of real numbers, taken in the extended reals, is a real number. -/
theorem exists_coe_sum {ι : Type} (s : Finset ι) (f : ι → EReal) (h : ∀ d ∈ s, ∃ r : ℝ, f d = (r : EReal)) :
    ∃ r : ℝ, ∑ d ∈ s, f d = (r : EReal) := by
  classical
  induction s using Finset.induction_on with
  | empty => exact ⟨0, by simp⟩
  | insert a s ha ih =>
    obtain ⟨r1, h1⟩ := h a (Finset.mem_insert_self a s)
    obtain ⟨r2, h2⟩ := ih (fun d hd => h d (Finset.mem_insert_of_mem hd))
    exact ⟨r1 + r2, by rw [Finset.sum_insert ha, h1, h2, EReal.coe_add]⟩

/-- One times the projection of the data on a basis: the array the reference takes the softmax of. -/
def projTerm (X3 : FVec Ideal S4x160x82944 .f32) (Bv : FVec Ideal S4x160x1 .f32) : FVec Ideal S4x82944x1 .f32 :=
  mulf (broadcastInDim S4x82944x1 ![] bcast_S_S4x82944x1 (constant S_ .f32 0x3F800000#32))
    (Host.dotGeneral dot_S4x160x82944_S4x160x1_S4x82944x1_1_1_2_2_0_0 none X3 Bv)

/-- It is the projection itself. -/
theorem projTerm_apply (X3 : FVec Ideal S4x160x82944 .f32) (Bv : FVec Ideal S4x160x1 .f32) (b : Fin 4) (n : Fin 82944) :
    projTerm X3 Bv (ix3 b n 0) = ∑ d : Fin 160, X3 (ix3 b d n) * Bv (ix3 b d 0) := by
  unfold projTerm
  rw [mulf_apply, broadcastInDim_scalar_apply, constant_apply, Ideal.ofBits_one_f32, one_mul, dot_projB_apply]

section Chain

variable (V0 : Valuation τ sig (Elt Ideal))

theorem v3_eq : res_main_v3 V0 = projTerm (res_main_v0 V0) (V0 (Proc.devRef .tc main_arg1)) := rfl
theorem v12_eq : res_main_v12 V0 = softmaxLast (res_main_v3 V0) := rfl

/-- The argument of the softmax — one times the projection of the data on the given basis — is real where the inputs are. -/
theorem res_main_v3_real
    (hx : ∀ i, ∃ r : ℝ, (V0 (Proc.devRef .tc main_arg0) : S4x16x160x72x72.Idx → EReal) i = (r : EReal))
    (hw : ∀ i, ∃ r : ℝ, (V0 (Proc.devRef .tc main_arg1) : S4x160x1.Idx → EReal) i = (r : EReal))
    (i : S4x82944x1.Idx) : ∃ r : ℝ, (res_main_v3 V0 : S4x82944x1.Idx → EReal) i = (r : EReal) := by
  obtain ⟨b, n, rfl⟩ : ∃ (b : Fin 4) (n : Fin 82944), i = ix3 b n 0 := ⟨i 0, i 1, eq_ix3_unit i⟩
  rw [v3_eq, projTerm_apply]
  refine exists_coe_sum _ _ fun d _ => ?_
  obtain ⟨r1, h1⟩ : ∃ r : ℝ, (res_main_v0 V0 : S4x160x82944.Idx → EReal) (ix3 b d n) = (r : EReal) := hx _
  obtain ⟨r2, h2⟩ := hw (ix3 b d 0)
  exact ⟨r1 * r2, by rw [h1, h2, EReal.coe_mul]⟩

/-- The starting coefficients are all one. -/
theorem Cof_v12
    (hx : ∀ i, ∃ r : ℝ, (V0 (Proc.devRef .tc main_arg0) : S4x16x160x72x72.Idx → EReal) i = (r : EReal))
    (hw : ∀ i, ∃ r : ℝ, (V0 (Proc.devRef .tc main_arg1) : S4x160x1.Idx → EReal) i = (r : EReal)) :
    Cof (res_main_v12 V0) = fun _ _ => 1 :=
  funext fun b => funext fun n => by
    show Cof (res_main_v12 V0) b n = (1 : EReal)
    rw [v12_eq]
    exact softmaxLast_apply (res_main_v3 V0) (res_main_v3_real V0 hx hw) b n

/-- The same at one index. -/
theorem coef0_one
    (hx : ∀ i, ∃ r : ℝ, (V0 (Proc.devRef .tc main_arg0) : S4x16x160x72x72.Idx → EReal) i = (r : EReal))
    (hw : ∀ i, ∃ r : ℝ, (V0 (Proc.devRef .tc main_arg1) : S4x160x1.Idx → EReal) i = (r : EReal))
    (b : Fin 4) (n : Fin 82944) : res_main_v12 (F := Ideal) V0 (ix3 b n (0 : Fin 1)) = (1 : EReal) :=
  congrFun (congrFun (Cof_v12 V0 hx hw) b) n

/-! Each named intermediate of the reference is a renewal of the ones before it. -/

theorem v19_eq : res_main_v19 V0 = coefTerm (res_main_v0 V0) (V0 (Proc.devRef .tc main_arg1)) (res_main_v12 V0) := rfl
theorem v26_eq : res_main_v26 V0 = basisTerm (res_main_v0 V0) (V0 (Proc.devRef .tc main_arg1)) (res_main_v19 V0) := rfl
theorem v33_eq : res_main_v33 V0 = coefTerm (res_main_v0 V0) (res_main_v26 V0) (res_main_v19 V0) := rfl
theorem v40_eq : res_main_v40 V0 = basisTerm (res_main_v0 V0) (res_main_v26 V0) (res_main_v33 V0) := rfl
theorem v47_eq : res_main_v47 V0 = coefTerm (res_main_v0 V0) (res_main_v40 V0) (res_main_v33 V0) := rfl
theorem v54_eq : res_main_v54 V0 = basisTerm (res_main_v0 V0) (res_main_v40 V0) (res_main_v47 V0) := rfl
theorem v61_eq : res_main_v61 V0 = coefTerm (res_main_v0 V0) (res_main_v54 V0) (res_main_v47 V0) := rfl
theorem v68_eq : res_main_v68 V0 = basisTerm (res_main_v0 V0) (res_main_v54 V0) (res_main_v61 V0) := rfl

/-- After the four rounds the reference holds `Cert.Nmf.fitted`. -/
theorem fitted_eq
    (hx : ∀ i, ∃ r : ℝ, (V0 (Proc.devRef .tc main_arg0) : S4x16x160x72x72.Idx → EReal) i = (r : EReal))
    (hw : ∀ i, ∃ r : ℝ, (V0 (Proc.devRef .tc main_arg1) : S4x160x1.Idx → EReal) i = (r : EReal)) :
    (Bof (res_main_v68 V0), Cof (res_main_v61 V0))
      = Cert.Nmf.fitted (Xof (V0 (Proc.devRef .tc main_arg0))) (Bof (V0 (Proc.devRef .tc main_arg1))) := by
  have hX : X3of (res_main_v0 V0) = Xof (V0 (Proc.devRef .tc main_arg0)) := rfl
  have r1 : (Bof (res_main_v26 V0), Cof (res_main_v19 V0))
      = Cert.Nmf.round (X3of (res_main_v0 V0)) (Bof (V0 (Proc.devRef .tc main_arg1)), Cof (res_main_v12 V0)) := by
    rw [v26_eq, v19_eq]; exact round_eq _ _ _
  have r2 : (Bof (res_main_v40 V0), Cof (res_main_v33 V0))
      = Cert.Nmf.round (X3of (res_main_v0 V0)) (Bof (res_main_v26 V0), Cof (res_main_v19 V0)) := by
    rw [v40_eq, v33_eq]; exact round_eq _ _ _
  have r3 : (Bof (res_main_v54 V0), Cof (res_main_v47 V0))
      = Cert.Nmf.round (X3of (res_main_v0 V0)) (Bof (res_main_v40 V0), Cof (res_main_v33 V0)) := by
    rw [v54_eq, v47_eq]; exact round_eq _ _ _
  have r4 : (Bof (res_main_v68 V0), Cof (res_main_v61 V0))
      = Cert.Nmf.round (X3of (res_main_v0 V0)) (Bof (res_main_v54 V0), Cof (res_main_v47 V0)) := by
    rw [v68_eq, v61_eq]; exact round_eq _ _ _
  rw [r4, r3, r2, r1, Cof_v12 V0 hx hw, hX]
  rfl

set_option maxRecDepth 8192 in
/-- THE REFERENCE'S RESULT is `Cert.Nmf.out` of the data and the given basis, reshaped to the data's shape. -/
theorem result_eq
    (hx : ∀ i, ∃ r : ℝ, (V0 (Proc.devRef .tc main_arg0) : S4x16x160x72x72.Idx → EReal) i = (r : EReal))
    (hw : ∀ i, ∃ r : ℝ, (V0 (Proc.devRef .tc main_arg1) : S4x160x1.Idx → EReal) i = (r : EReal)) :
    shapeCast _ (Host.dotGeneral (F := Ideal) (φ₁ := .f32) (φ₂ := .f32) dot_S4x160x1_S4x82944x1_S4x160x82944_2_2_1_1_0_0 none (res_main_v68 V0) (Host.divf (mulf (res_main_v61 V0) (Host.dotGeneral (F := Ideal) (φ₁ := .f32) (φ₂ := .f32) dot_S4x160x82944_S4x160x1_S4x82944x1_1_1_2_2_0_0 none (res_main_v0 V0) (res_main_v68 V0))) (addf (Host.dotGeneral (F := Ideal) (φ₁ := .f32) (φ₂ := .f32) dot_S4x82944x1_S4x1x1_S4x82944x1_2_1_1_2_0_0 none (res_main_v61 V0) (Host.dotGeneral (F := Ideal) (φ₁ := .f32) (φ₂ := .f32) dot_S4x160x1_S4x160x1_S4x1x1_1_1_2_2_0_0 none (res_main_v68 V0) (res_main_v68 V0))) (broadcastInDim S4x82944x1 ![] bcast_S_S4x82944x1 (constant (F := Ideal) S_ .f32 0x358637BD#32))))) shapeCasts_S4x160x82944_S4x16x160x72x72
      = shapeCast S4x16x160x72x72 (fun i : S4x160x82944.Idx =>
          Cert.Nmf.out (Xof (V0 (Proc.devRef .tc main_arg0))) (Bof (V0 (Proc.devRef .tc main_arg1))) (i 0) (i 1) (i 2))
          shapeCasts_S4x160x82944_S4x16x160x72x72 := by
  have hfit := fitted_eq V0 hx hw
  have hX : X3of (res_main_v0 V0) = Xof (V0 (Proc.devRef .tc main_arg0)) := rfl
  have key : ∀ (b : Fin 4) (d : Fin 160) (n : Fin 82944),
      Host.dotGeneral (F := Ideal) (φ₁ := .f32) (φ₂ := .f32) dot_S4x160x1_S4x82944x1_S4x160x82944_2_2_1_1_0_0 none (res_main_v68 V0)
        (coefTerm (res_main_v0 V0) (res_main_v68 V0) (res_main_v61 V0)) (ix3 b d n)
      = Cert.Nmf.out (Xof (V0 (Proc.devRef .tc main_arg0))) (Bof (V0 (Proc.devRef .tc main_arg1))) b d n := by
    intro b d n
    rw [outer_coef_apply]
    unfold Cert.Nmf.out
    rw [← hfit, hX]
  refine congrArg (fun y : S4x160x82944.Idx → EReal => shapeCast S4x16x160x72x72 y shapeCasts_S4x160x82944_S4x16x160x72x72) ?_
  funext i
  obtain ⟨b, d, n, rfl⟩ : ∃ (b : Fin 4) (d : Fin 160) (n : Fin 82944), i = ix3 b d n := ⟨i 0, i 1, i 2, eq_ix3 i⟩
  exact key b d n

end Chain

end Cert.RefValue

end
-- ==== Proof.Finite.lean ====
/-
  The precondition, opened: when the finiteness predicate holds of the two argument arrays (every entry's absolute
  value is below +∞), every entry of either array is a real number.
-/
import proofs.«119537_j3693671875223_2_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.IdealHost

noncomputable section

open Idealize.ShloMosaic Idealize.ShloMosaic.ValueIdx
open Cert.Pre_finite_inputs

namespace Cert.Finite

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the finiteness predicate both argument arrays hold real numbers only. -/
theorem reals [Facts] (x : FVec Ideal S4x16x160x72x72 .f32) (w : FVec Ideal S4x160x1 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := IntOp.andi_eq_one.mp h0
  refine ⟨fun i => ?_, fun i => ?_⟩
  · have e := Host.reduce_andi_all _ _ _ _ ix0 hx i
    exact real_of_abs_lt (x i) e
  · have e := Host.reduce_andi_all _ _ _ _ ix0 hw i
    exact real_of_abs_lt (w i) e

end Cert.Finite

end
-- ==== Proof.lean ====
/-
  The certificate: a kernel that refines a rank-one factorisation of a [4,160,82944] array by four rounds of
  multiplicative updates and returns the outer product of the fitted basis with coefficients renewed once more,
  against the same iteration written with einsums.  On the extended reals both programs compute `Cert.Nmf.out` of the
  data and the given basis (Proof/Spec.lean).  The kernel program alternates host stretches with five kernel regions:
  its run is read region by region (Proof/StepBody*.lean, Proof/StepArr*.lean, Proof/FinalBody.lean,
  Proof/FinalArr.lean) and chained in Proof/KChain.lean; the reference's einsums are read as sums in Proof/RefDots.lean
  and chained in Proof/RefValue.lean.  The two differ in three ways only: the reference starts from a softmax over an axis of
  extent one, which is identically one when the projections are real numbers — the one place where the inputs'
  finiteness is used (Proof/Finite.lean, Proof/RefSoftmax.lean); the kernel accumulates the projection on the
  coefficients tile by tile, a regrouping of a finite sum; and contractions over an axis of extent one are single
  products.  No idealisation rewrite was applied, so the preservation claim is trivial.
-/
import proofs.«119537_j3693671875223_2_alg».proof.Defs
import proofs.«119537_j3693671875223_2_alg».proof.Proof.Gen.Kernel
import proofs.«119537_j3693671875223_2_alg».proof.Proof.Gen.Kernel.Skeleton
import proofs.«119537_j3693671875223_2_alg».proof.Proof.Gen.Kernel.Launch
import proofs.«119537_j3693671875223_2_alg».proof.Proof.Gen.Kernel.Points
import proofs.«119537_j3693671875223_2_alg».proof.Proof.Gen.Kernel.Frame
import proofs.«119537_j3693671875223_2_alg».proof.Proof.Gen.KernelIdeal
import proofs.«119537_j3693671875223_2_alg».proof.Proof.Gen.KernelIdeal.Skeleton
import proofs.«119537_j3693671875223_2_alg».proof.Proof.Gen.KernelIdeal.Launch
import proofs.«119537_j3693671875223_2_alg».proof.Proof.Gen.KernelIdeal.Points
import proofs.«119537_j3693671875223_2_alg».proof.Proof.Gen.KernelIdeal.Frame
import proofs.«119537_j3693671875223_2_alg».proof.Proof.Gen.ReferenceIdeal
import proofs.«119537_j3693671875223_2_alg».proof.Proof.Gen.ReferenceIdeal.Run
import proofs.«119537_j3693671875223_2_alg».proof.Proof.Gen.Pre_finite_inputs
import proofs.«119537_j3693671875223_2_alg».proof.Proof.KRun
import proofs.«119537_j3693671875223_2_alg».proof.Proof.KChain
import proofs.«119537_j3693671875223_2_alg».proof.Proof.RefValue
import proofs.«119537_j3693671875223_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- The same outer product written over two arrays that are equal is the same array. -/
theorem bridge (x x' : Cert.KernelIdeal.S4x16x160x72x72.Idx → EReal) (w w' : Cert.KernelIdeal.S4x160x1.Idx → EReal) (hx : x' = x) (hw : w' = w)
    (h1 : Cert.KernelIdeal.S4x16x160x72x72.ShapeCasts Cert.KernelIdeal.S4x160x82944)
    (h2 h2' : Cert.KernelIdeal.S4x160x82944.ShapeCasts Cert.KernelIdeal.S4x16x160x72x72) :
    shapeCast Cert.KernelIdeal.S4x16x160x72x72 (fun i : Cert.KernelIdeal.S4x160x82944.Idx => Cert.Nmf.out (Cert.RefValue.Xof x') (Cert.RefValue.Bof w') (i 0) (i 1) (i 2)) h2'
      = shapeCast Cert.KernelIdeal.S4x16x160x72x72 (fun i : Cert.KernelIdeal.S4x160x82944.Idx => Cert.Nmf.out
          (fun b d n => shapeCast Cert.KernelIdeal.S4x160x82944 x h1 (Idealize.ShloMosaic.ValueIdx.ix3 b d n))
          (fun b d => w (Idealize.ShloMosaic.ValueIdx.ix3 b d (0 : Fin 1))) (i 0) (i 1) (i 2)) h2 := by
  subst hx hw; rfl

set_option maxHeartbeats 2000000 in
/-- From memories agreeing on finite arguments both programs end with the same result array: the outer product of
    the fitted basis and the coefficients renewed once more. -/
theorem algebraic : Cert.algebraic_KernelIdeal_ReferenceIdeal := by
  intro m ρ m' ρ' hpre hagree
  refine ⟨fun c => Cert.KChain.resultArr m c, ?_, ?_⟩
  · exact (θ_run Cert.KernelIdeal.defs _ _).mono
      (fun r h c => ⟨(h c).1.trans (Cert.KChain.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    have hfin := Cert.Finite.reals _ _ (hpre c)
    have e0 := (hagree c).1
    have e1 := (hagree c).2
    have hx : ∀ i, ∃ r : ℝ, (launchContents m' c (Proc.devRef .tc Cert.ReferenceIdeal.main_arg0) : Cert.ReferenceIdeal.S4x16x160x72x72.Idx → EReal) i = (r : EReal) := fun i => by
      have := hfin.1 i
      rw [← e0] at this
      exact this
    have hw : ∀ i, ∃ r : ℝ, (launchContents m' c (Proc.devRef .tc Cert.ReferenceIdeal.main_arg1) : Cert.ReferenceIdeal.S4x160x1.Idx → EReal) i = (r : EReal) := fun i => by
      have := hfin.2 i
      rw [← e1] at this
      exact this
    refine (Cert.RefValue.result_eq (launchContents m' c) hx hw).trans ?_
    exact bridge _ _ _ _ e0 e1 _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
